-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512 : Shape := ⟨2, ![1, 512]⟩
abbrev S32768x512 : Shape := ⟨2, ![32768, 512]⟩
abbrev S512x1536 : Shape := ⟨2, ![512, 1536]⟩
abbrev S1536 : Shape := ⟨1, ![1536]⟩
abbrev S512x512 : Shape := ⟨2, ![512, 512]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512x512 .f32) (main_arg8 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  main_v43

def fn_part1 {F : FTy → Type} [FloatOps F] (main_arg4 : FVec F S512x1536 .f32) (main_arg5 : FVec F S512x1536 .f32) (main_arg6 : FVec F S1536 .f32) (main_arg7 : FVec F S512x512 .f32) (main_arg8 : FVec F S512x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S512x1536 .f32 := Host.absf main_arg4
  let main_cst_6 : FVec F S_ .f32 := constant S_ .f32 0x7F800000#32
  let main_v20 : FVec F S512x1536 .f32 := broadcastInDim S512x1536 ![] bcast_S_S512x1536 main_cst_6
  let main_v21 : IVec S512x1536 1 := cmpf .olt main_v19 main_v20
  let main_c_7 : IVec S_ 1 := constantI S_ 1 1#1
  let main_v22 : IVec S_ 1 := (fun x v => Host.reduce IntOp.andi x v reducesTo_S512x1536_S_d0_1 h_S_) main_v21 main_c_7
  let main_v23 : IVec S_ 1 := andi main_v18 main_v22
  let main_v24 : FVec F S512x1536 .f32 := Host.absf main_arg5
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_v33

def fn {F : FTy → Type} [FloatOps F] (main_arg0 : FVec F S1x512 .f32) (main_arg1 : FVec F S32768x512 .f32) (main_arg2 : FVec F S1x512 .f32) (main_arg3 : FVec F S1x512 .f32) (main_arg4 : FVec F S512x1536 .f32) (main_arg5 : FVec F S512x1536 .f32) (main_arg6 : FVec F S1536 .f32) (main_arg7 : FVec F S512x512 .f32) (main_arg8 : FVec F S512x512 .f32) : IVec S_ 1 :=
  let main_v0 : FVec F S1x512 .f32 := Host.absf main_arg0
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_c : IVec S_ 1 := constantI S_ 1 1#1
  let main_v3 : IVec S_ 1 := (fun x v => Host.reduce IntOp.andi x v reducesTo_S1x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_arg7 main_arg8 main_v13 main_v16
-- ==== Kernel.lean ====
abbrev S1x512 : Shape := ⟨2, ![1, 512]⟩
abbrev S32768x512 : Shape := ⟨2, ![32768, 512]⟩
abbrev S512x1536 : Shape := ⟨2, ![512, 1536]⟩
abbrev S1536 : Shape := ⟨1, ![1536]⟩
abbrev S512x512 : Shape := ⟨2, ![512, 512]⟩
abbrev S1x1536 : Shape := ⟨2, ![1, 1536]⟩
abbrev S16x512 : Shape := ⟨2, ![16, 512]⟩
abbrev S16x1536 : Shape := ⟨2, ![16, 1536]⟩
abbrev S2048x512 : Shape := ⟨2, ![2048, 512]⟩
abbrev S8x512 : Shape := ⟨2, ![8, 512]⟩
abbrev S8x1536 : Shape := ⟨2, ![8, 1536]⟩
abbrev S512 : Shape := ⟨1, ![512]⟩
abbrev S_ : Shape := ⟨0, ![]⟩

abbrev nBuf : Space → Nat
  | .hbm => 39
  | .vmem => 18
  | .smem => 0
  | _ => 0

abbrev bufTy : (tb : Table) → Fin (tcTables nBuf tb) → BufTy
  | .hbm, ⟨0, _⟩ => ⟨S1x512, .f32⟩
  | .hbm, ⟨1, _⟩ => ⟨S32768x512, .f32⟩
  | .hbm, ⟨2, _⟩ => ⟨S1x512, .f32⟩
  | .hbm, ⟨3, _⟩ => ⟨S1x512, .f32⟩
  | .hbm, ⟨4, _⟩ => ⟨S512x1536, .f32⟩
  | .hbm, ⟨5, _⟩ => ⟨S512x1536, .f32⟩
  | .hbm, ⟨6, _⟩ => ⟨S1536, .f32⟩
  | .hbm, ⟨7, _⟩ => ⟨S512x512, .f32⟩
  | .hbm, ⟨8, _⟩ => ⟨S512x512, .f32⟩
  | .hbm, ⟨9, _⟩ => ⟨S1x1536, .f32⟩
  | .hbm, ⟨10, _⟩ => ⟨S1x512, .bf16⟩
  | .hbm, ⟨11, _⟩ => ⟨S1x512, .bf16⟩
  | .hbm, ⟨12, _⟩ => ⟨S512x1536, .bf16⟩
  | .hbm, ⟨13, _⟩ => ⟨S512x1536, .bf16⟩
  | .hbm, ⟨14, _⟩ => ⟨S512x512, .bf16⟩
  | .hbm, ⟨15, _⟩ => ⟨S512x512, .bf16⟩
  | .hbm, ⟨16, _⟩ => ⟨S16x512, .f32⟩
  | .hbm, ⟨17, _⟩ => ⟨S16x512, .f32⟩
  | .hbm, ⟨18, _⟩ => ⟨S16x1536, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x1536, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .local _ .vmem, ⟨0, _⟩ => ⟨S1x512, .bf16⟩
  | .local _ .vmem, ⟨1, _⟩ => ⟨S1x512, .bf16⟩
  | .local _ .vmem, ⟨2, _⟩ => ⟨S512x1536, .bf16⟩
  | .local _ .vmem, ⟨3, _⟩ => ⟨S512x1536, .bf16⟩
  | .local _ .vmem, ⟨4, _⟩ => ⟨S1x1536, .f32⟩
  | .local _ .vmem, ⟨5, _⟩ => ⟨S512x512, .bf16⟩
  | .local _ .vmem, ⟨6, _⟩ => ⟨S512x512, .bf16⟩
  | .local _ .vmem, ⟨7, _⟩ => ⟨S2048x512, .f32⟩
  | .local _ .vmem, ⟨8, _⟩ => ⟨S2048x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x1536, .f32⟩
  | .local _ .vmem, ⟨14, _⟩ => ⟨S8x1536, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_16 : BitVec 32 := 0#32
  let v30 : BitVec 1 := Scalar.cmpi .ne v29 c0_i32_16
  v30

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S1536_S1x1536 : S1536.ShapeCasts S1x1536
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  slices_S1x1536_o0_0_S1x512 : S1x1536.Slices ![0, 0] S1x512
  slices_S1x1536_o0_512_S1x512 : S1x1536.Slices ![0, 512] S1x512
  slices_S1x1536_o0_1024_S1x512 : S1x1536.Slices ![0, 1024] S1x512
  broadcasts_S1x512_S8x512 : S1x512.Broadcasts S8x512
  inb_S8x1536_S8x512_0_0 : ∀ a, (![0, 0] : Fin 2 → Nat) a + S8x512.size a ≤ S8x1536.size a
  h_S8x512 : 0 < S8x512.numel
  inb_S8x1536_S8x512_0_512 : ∀ a, (![0, 512] : Fin 2 → Nat) a + S8x512.size a ≤ S8x1536.size a
  inb_S8x1536_S8x512_0_1024 : ∀ a, (![0, 1024] : Fin 2 → Nat) a + S8x512.size a ≤ S8x1536.size a
  inb_S2048x512_S2048x512_0_0 : ∀ a, (![0, 0] : Fin 2 → Nat) a + S2048x512.size a ≤ S2048x512.size a
  h_S2048x512 : 0 < S2048x512.numel
  broadcasts_S1x512_S2048x512 : S1x512.Broadcasts S2048x512
  reduces_S2048x512_S512 : S2048x512.Reduces [0] S512
  shapeCasts_S512_S1x512 : S512.ShapeCasts S1x512
  inb_S8x512_S8x512_0_0 : ∀ a, (![0, 0] : Fin 2 → Nat) a + S8x512.size a ≤ S8x512.size a
  slices_S16x512_S1x512_0_0 : S16x512.Slices ![0, 0] S1x512
  slices_S16x512_S1x512_8_0 : S16x512.Slices ![8, 0] S1x512
  slices_S16x1536_S1x1536_0_0 : S16x1536.Slices ![0, 0] S1x1536
  slices_S1x1536_S1x512_0_0 : S1x1536.Slices ![0, 0] S1x512
  slices_S1x1536_S1x512_0_512 : S1x1536.Slices ![0, 512] S1x512
  slices_S1x1536_S1x512_0_1024 : S1x1536.Slices ![0, 1024] S1x512
  bcast_S_S1x512 : S_.BroadcastsInDim S1x512 (![] : Fin 0 → Fin S1x512.rank)
  dot_S1x512_S512x1536_S1x1536_1_0_0_1_n_n_wf : DotDims.WF S1x512 S512x1536 S1x1536 [1] [0] [0] [1] [] []
  dot_S1x512_S512x512_S1x512_1_0_0_1_n_n_wf : DotDims.WF S1x512 S512x512 S1x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .bf16 = 32 ∨ (Rect.block (s := S1x512) S1x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .bf16 = 32 ∨ (Rect.block (s := S1x512) S1x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S32768x512.size a
  hwx0_7 : ∀ i : grid0.Coords, EltTy.bits .f32 = 32 ∨ (Rect.block (s := S32768x512) S2048x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x512.size a ≤ S16x512.size a
  hwx0_8 : ∀ i : grid0.Coords, EltTy.bits .f32 = 32 ∨ (Rect.block (s := S16x512) S8x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x512.size a ≤ S16x512.size a
  hwx0_9 : ∀ i : grid0.Coords, EltTy.bits .f32 = 32 ∨ (Rect.block (s := S16x512) S8x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1536.size a ≤ S16x1536.size a
  hwx0_10 : ∀ i : grid0.Coords, EltTy.bits .f32 = 32 ∨ (Rect.block (s := S16x1536) S8x1536.size (cc0_transform_10 i) (hinb0_10 i)).WholeWords (EltTy.packing .f32)

variable [Facts₀]

def dot_S1x512_S512x1536_S1x1536_1_0_0_1_n_n : DotDims S1x512 S512x1536 S1x1536 where
  lhsContracting := [1]
  rhsContracting := [0]
  lhsNonContracting := [0]
  rhsNonContracting := [1]
  lhsBatch := []
  rhsBatch := []
  wf := dot_S1x512_S512x1536_S1x1536_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v1) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S2048x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S8x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S8x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_2) S8x1536.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond1 i == 1#1) | ⟨_ + 11, h⟩ => absurd h (Nat.not_lt.2 (Nat.le_add_left _ _))

class Facts : Prop extends Facts₀ where

variable [Facts]
-- ==== ReferenceIdeal.lean ====
abbrev S1x512 : Shape := ⟨2, ![1, 512]⟩
abbrev S32768x512 : Shape := ⟨2, ![32768, 512]⟩
abbrev S512x1536 : Shape := ⟨2, ![512, 1536]⟩
abbrev S1536 : Shape := ⟨1, ![1536]⟩
abbrev S512x512 : Shape := ⟨2, ![512, 512]⟩
abbrev S1x1536 : Shape := ⟨2, ![1, 1536]⟩
abbrev S_ : Shape := ⟨0, ![]⟩
abbrev S32769x512 : Shape := ⟨2, ![32769, 512]⟩
abbrev S512 : Shape := ⟨1, ![512]⟩

abbrev nBuf : Space → Nat
  | .hbm => 63
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S32768x512, .f32⟩
  | .hbm, ⟨2, _⟩ => ⟨S1x512, .f32⟩
  | .hbm, ⟨3, _⟩ => ⟨S1x512, .f32⟩
  | .hbm, ⟨4, _⟩ => ⟨S512x1536, .f32⟩
  | .hbm, ⟨5, _⟩ => ⟨S512x1536, .f32⟩
  | .hbm, ⟨6, _⟩ => ⟨S1536, .f32⟩
  | .hbm, ⟨7, _⟩ => ⟨S512x512, .f32⟩
  | .hbm, ⟨8, _⟩ => ⟨S512x512, .f32⟩
  | .hbm, ⟨9, _⟩ => ⟨S1x1536, .f32⟩
  | .hbm, ⟨10, _⟩ => ⟨S1x1536, .f32⟩
  | .hbm, ⟨11, _⟩ => ⟨S1x1536, .f32⟩
  | .hbm, ⟨12, _⟩ => ⟨S1x1536, .f32⟩
  | .hbm, ⟨13, _⟩ => ⟨S1x1536, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S_, .f32⟩
  | .hbm, ⟨41, _⟩ => ⟨S32768x512, .f32⟩
  | .hbm, ⟨42, _⟩ => ⟨S32768x512, .f32⟩
  | .hbm, ⟨43, _⟩ => ⟨S_, .f32⟩
  | .hbm, ⟨44, _⟩ => ⟨S32768x512, .f32⟩
  | .hbm, ⟨45, _⟩ => ⟨S32768x512, .f32⟩
  | .hbm, ⟨46, _⟩ => ⟨S32769x512, .f32⟩
  | .hbm, ⟨47, _⟩ => ⟨S32769x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S1x512, .f32⟩
  | .hbm, ⟨53, _⟩ => ⟨S1x512, .f32⟩
  | .hbm, ⟨54, _⟩ => ⟨S32769x512, .f32⟩
  | .hbm, ⟨55, _⟩ => ⟨S32769x512, .f32⟩
  | .hbm, ⟨56, _⟩ => ⟨S32769x512, .f32⟩
  | .hbm, ⟨57, _⟩ => ⟨S32769x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S1x512, .f32⟩
  | .hbm, ⟨62, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S1536_S1x1536_1 : S1536.BroadcastsInDim S1x1536 (![1] : Fin 1 → Fin S1x1536.rank)
  slices_S1x1536_S1x512_0_0 : S1x1536.Slices ![0, 0] S1x512
  slices_S1x1536_S1x512_0_512 : S1x1536.Slices ![0, 512] S1x512
  slices_S1x1536_S1x512_0_1024 : S1x1536.Slices ![0, 1024] S1x512
  bcast_S_S1x512 : S_.BroadcastsInDim S1x512 (![] : Fin 0 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  concatenates_S1x512_S32768x512_S32769x512_d0 : Shape.Concatenates [S1x512, S32768x512] S32769x512 0
  reducesTo_S32769x512_S512_d0 : S32769x512.ReducesTo [0] S512
  h_S_ : 0 < S_.numel
  bcast_S512_S1x512_1 : S512.BroadcastsInDim S1x512 (![1] : Fin 1 → Fin S1x512.rank)
  bcast_S1x512_S32769x512_0_1 : S1x512.BroadcastsInDim S32769x512 (![0, 1] : Fin 2 → Fin S32769x512.rank)
  dot_S1x512_S512x1536_S1x1536_1_0_0_1_n_n_wf : DotDims.WF S1x512 S512x1536 S1x1536 [1] [0] [0] [1] [] []
  dot_S1x512_S512x512_S1x512_1_0_0_1_n_n_wf : DotDims.WF S1x512 S512x512 S1x512 [1] [0] [0] [1] [] []
  dot_S32768x512_S512x512_S32768x512_1_0_0_1_n_n_wf : DotDims.WF S32768x512 S512x512 S32768x512 [1] [0] [0] [1] [] []

variable [Facts₀]

def dot_S1x512_S512x1536_S1x1536_1_0_0_1_n_n : DotDims S1x512 S512x1536 S1x1536 where
  lhsContracting := [1]
  rhsContracting := [0]
  lhsNonContracting := [0]
  rhsNonContracting := [1]
  lhsBatch := []
  rhsBatch := []
  wf := dot_S1x512_S512x1536_S1x1536_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.LibWholeBlock.lean ====
/-
  Whole-block loads and stores of a whole staging buffer, read as plain values.

  A kernel body that loads each of its buffers through the rectangle covering the whole shape (zero offsets, the
  shape's own sizes) and stores the same way computes over the buffers' CONTENTS: such a load reads the contents,
  such a store leaves its payload, whatever the buffer held, and a load after such a store reads that payload back.
  The symbolic run of a body names these values through the raw buffer contents (`unread`), a list of written
  pieces (`writes`) and covered reads (`readCov`); the lemmas below turn each into the value itself.
-/
import Idealize.ShloMosaic.Lib.Pipeline.Value
import Idealize.ShloMosaic.Lib.Pipeline.FrameBody

noncomputable section

namespace Idealize.ShloMosaic.View.WholeBlock

open Idealize.ShloMosaic

variable {sig : RefSig} {κ : Kind} {sp : Space} {S : Shape} {e : EltTy} {Val : EltTy → Type} [∀ e, Nonempty (Val e)]

/-- A load through the whole-shape rectangle of a whole buffer whose contents read `x` reads `x`. -/
theorem readAt_unread (M : Memref sig κ sp S e) (hM : M.IsWhole) {off : Fin S.rank → Nat} (hz : off = fun _ => 0)
    (inb : ∀ a, off a + S.size a ≤ S.size a) (x : S.Idx → Val e) :
    View.readAt Val M.view (Rect.unit off S.size inb).toLoadRect (hM.unread x) = x := by
  rw [View.readAt_eq_ld, hM.read_unread, View.ld_unit_zero hz]

/-- One store through the whole-shape rectangle leaves its payload, whatever was there. -/
theorem read_writes_one (v : View sig κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero hz inb y⟩),
    View.canon_unit_zero hz]

/-- A store through the whole-shape rectangle, made last, leaves its payload whatever the earlier stores were. -/
theorem read_writes_last (v : View sig κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩),
    View.canon_cons_unit_zero hz]

end Idealize.ShloMosaic.View.WholeBlock

end
-- ==== Proof.K.Shared.lean ====
/-
  What the three cases of the kernel body share.

  The grid is 2 × 8: point `t` (0 ≤ t < 16) is tile `t % 8` of half `t / 8`.  The body resets its three carried
  rows at the first tile of a half (`t % 8 = 0`), accumulates at every tile, and publishes at the last tile of a
  half (`t % 8 = 7`).  Here: the two conditions in closed form, where each output window is idle, the staging
  buffers the body is called with at a point, and the region invariant with the three carried rows as buffers.
-/
import proofs.«163698_j23965917512359_2_alg».proof.Proof.Gen.Kernel.Skeleton
import proofs.«163698_j23965917512359_2_alg».proof.Proof.Gen.Kernel.Frame
import proofs.«163698_j23965917512359_2_alg».proof.Proof.LibWholeBlock

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle. -/
theorem z2 : (![0, 0] : Fin 2 → Nat) = fun _ => 0 := by funext a; fin_cases a <;> rfl

/-! ## The two conditions of the body, over the grid -/

/-- The body's first conditional: the first tile of a half. -/
abbrev isFirst (i : grid0.Coords) : Prop := k0_cond1 i = 1#1
theorem isFirst_iff : ∀ t : Fin cfg0.N, isFirst (grid0.coords t) ↔ t.val % 8 = 0 :=
  (by decide +kernel : ∀ t : Fin grid0.N, isFirst (grid0.coords t) ↔ t.val % 8 = 0)

/-- The body's second conditional: the last tile of a half. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The two published sums are stored only at the last tile of a half, -/
theorem idle8_iff : ∀ t : Fin cfg0.N, cfg0.idle 8 (grid0.coords t) = true ↔ t.val % 8 ≠ 7 :=
  (by decide +kernel : ∀ t : Fin grid0.N, cfg0.idle 8 (grid0.coords t) = true ↔ t.val % 8 ≠ 7)
theorem idle9_iff : ∀ t : Fin cfg0.N, cfg0.idle 9 (grid0.coords t) = true ↔ t.val % 8 ≠ 7 :=
  (by decide +kernel : ∀ t : Fin grid0.N, cfg0.idle 9 (grid0.coords t) = true ↔ t.val % 8 ≠ 7)
/-- and the three gates only at its first tile. -/
theorem idle10_iff : ∀ t : Fin cfg0.N, cfg0.idle 10 (grid0.coords t) = true ↔ t.val % 8 ≠ 0 :=
  (by decide +kernel : ∀ t : Fin grid0.N, cfg0.idle 10 (grid0.coords t) = true ↔ t.val % 8 ≠ 0)

/-! ## The buffers the body is called with at a point -/

abbrev sb0 (t : Fin cfg0.N) : Memref sig .tc .vmem S1x512 .bf16 := win0_0.stage (cfg0.slots t 0)
abbrev sw0 (t : Fin cfg0.N) : (sb0 t).IsWhole := hstage0_0 ((cfg0.slots t 0).cast nbuf0_0)
abbrev sb1 (t : Fin cfg0.N) : Memref sig .tc .vmem S1x512 .bf16 := win0_1.stage (cfg0.slots t 1)
abbrev sw1 (t : Fin cfg0.N) : (sb1 t).IsWhole := hstage0_1 ((cfg0.slots t 1).cast nbuf0_1)
abbrev sb2 (t : Fin cfg0.N) : Memref sig .tc .vmem S512x1536 .bf16 := win0_2.stage (cfg0.slots t 2)
abbrev sw2 (t : Fin cfg0.N) : (sb2 t).IsWhole := hstage0_2 ((cfg0.slots t 2).cast nbuf0_2)
abbrev sb3 (t : Fin cfg0.N) : Memref sig .tc .vmem S512x1536 .bf16 := win0_3.stage (cfg0.slots t 3)
abbrev sw3 (t : Fin cfg0.N) : (sb3 t).IsWhole := hstage0_3 ((cfg0.slots t 3).cast nbuf0_3)
abbrev sb4 (t : Fin cfg0.N) : Memref sig .tc .vmem S1x1536 .f32 := win0_4.stage (cfg0.slots t 4)
abbrev sw4 (t : Fin cfg0.N) : (sb4 t).IsWhole := hstage0_4 ((cfg0.slots t 4).cast nbuf0_4)
abbrev sb5 (t : Fin cfg0.N) : Memref sig .tc .vmem S512x512 .bf16 := win0_5.stage (cfg0.slots t 5)
abbrev sw5 (t : Fin cfg0.N) : (sb5 t).IsWhole := hstage0_5 ((cfg0.slots t 5).cast nbuf0_5)
abbrev sb6 (t : Fin cfg0.N) : Memref sig .tc .vmem S512x512 .bf16 := win0_6.stage (cfg0.slots t 6)
abbrev sw6 (t : Fin cfg0.N) : (sb6 t).IsWhole := hstage0_6 ((cfg0.slots t 6).cast nbuf0_6)
abbrev sb7 (t : Fin cfg0.N) : Memref sig .tc .vmem S2048x512 .f32 := win0_7.stage (cfg0.slots t 7)
abbrev sw7 (t : Fin cfg0.N) : (sb7 t).IsWhole := hstage0_7 ((cfg0.slots t 7).cast nbuf0_7)
abbrev sb8 (t : Fin cfg0.N) : Memref sig .tc .vmem S8x512 .f32 := win0_8.stage (cfg0.slots t 8)
abbrev sw8 (t : Fin cfg0.N) : (sb8 t).IsWhole := hstage0_8 ((cfg0.slots t 8).cast nbuf0_8)
abbrev sb9 (t : Fin cfg0.N) : Memref sig .tc .vmem S8x512 .f32 := win0_9.stage (cfg0.slots t 9)
abbrev sw9 (t : Fin cfg0.N) : (sb9 t).IsWhole := hstage0_9 ((cfg0.slots t 9).cast nbuf0_9)
abbrev sb10 (t : Fin cfg0.N) : Memref sig .tc .vmem S8x1536 .f32 := win0_10.stage (cfg0.slots t 10)
abbrev sw10 (t : Fin cfg0.N) : (sb10 t).IsWhole := hstage0_10 ((cfg0.slots t 10).cast nbuf0_10)

/-- The three rows the body carries from tile to tile: the input's projection, the running sum of the weights, the
    running weighted sum of the children. -/
abbrev rowA : Memref sig .tc .vmem S1x512 .f32 := Memref.whole cc0_scratch0
abbrev rowE : Memref sig .tc .vmem S1x512 .f32 := Memref.whole cc0_scratch1
abbrev rowW : Memref sig .tc .vmem S1x512 .f32 := Memref.whole cc0_scratch2

/-- The region's own invariant — the scoped buffers that are no staging buffer, each at some contents, and the
    generator register — with the three carried rows as whole buffers owned at some contents. -/
theorem inv_eq (c : Dev nD) :
    (Pipeline.ΦA spec0 c : sProp 𝕄)
      = iprop(iprop((∃ d, owns (c : Thread nD τ) rowA fullShare d) ∗ (∃ d, owns (c : Thread nD τ) rowE fullShare d) ∗ (∃ d, owns (c : Thread nD τ) rowW fullShare d)) ∗ (∃ r, prngReg c r)) := by
  unfold Pipeline.ΦA; rw [scopedRest0_eq]; simp only [rowA, rowE, rowW, owns_whole]; try rfl

end Cert.Kernel.Body

end
-- ==== Proof.K.Data.lean ====
/-
  What the buffers hold, point by point.

  The carried rows: at the first tile of a half `rowA` is the input's projection, and the two running sums start from
  zero plus the tile's contribution; at every later tile `rowA` stays and the sums take the tile's contribution on top
  of what the tile before left.  The two published blocks are the sums after the point, each broadcast to the block's
  eight rows (read only at the last tile of a half, where the block is written back); the gates' block is stored at
  the first tile of a half and is the same function of the resident inputs at every point.
-/
import proofs.«163698_j23965917512359_2_alg».proof.Proof.K.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point -/

abbrev X0 (c : Dev nD) (t : Fin cfg0.N) : Vec F S1x512 .bf16 := iblk m c 0 t
abbrev X1 (c : Dev nD) (t : Fin cfg0.N) : Vec F S1x512 .bf16 := iblk m c 1 t
abbrev X2 (c : Dev nD) (t : Fin cfg0.N) : Vec F S512x1536 .bf16 := iblk m c 2 t
abbrev X3 (c : Dev nD) (t : Fin cfg0.N) : Vec F S512x1536 .bf16 := iblk m c 3 t
abbrev X4 (c : Dev nD) (t : Fin cfg0.N) : Vec F S1x1536 .f32 := iblk m c 4 t
abbrev X5 (c : Dev nD) (t : Fin cfg0.N) : Vec F S512x512 .bf16 := iblk m c 5 t
abbrev X6 (c : Dev nD) (t : Fin cfg0.N) : Vec F S512x512 .bf16 := iblk m c 6 t
abbrev X7 (c : Dev nD) (t : Fin cfg0.N) : Vec F S2048x512 .f32 := iblk m c 7 t

/-- The grid's first point. -/
abbrev p0 : Fin cfg0.N := ⟨0, by rw [show cfg0.N = 16 from N_0]; decide⟩

/-! ## The carried rows -/

/-- The three carried rows: the input's projection, the weights' running sum, the weighted children's running sum. -/
abbrev Rows (F : FTy → Type) : Type := Vec F S1x512 .f32 × Vec F S1x512 .f32 × Vec F S1x512 .f32

/-- After the first tile of a half. -/
def rowsFirst (x0 : Vec F S1x512 .bf16) (x5 x6 : Vec F S512x512 .bf16) (x7 : Vec F S2048x512 .f32) : Rows F :=
  (k0_pay1 (k0_pay14 x0 x5), k0_pay5 x7 x6 (k0_pay1 (k0_pay14 x0 x5)) k0_pay2, k0_pay6 x7 x6 (k0_pay1 (k0_pay14 x0 x5)) k0_pay3)

/-- After a later tile, from what the tile before left. -/
def rowsNext (x6 : Vec F S512x512 .bf16) (x7 : Vec F S2048x512 .f32) (p : Rows F) : Rows F :=
  (p.1, k0_pay5 x7 x6 p.1 p.2.1, k0_pay6 x7 x6 p.1 p.2.2)

/-- The carried rows after point `n`. -/
def rowsAt (c : Dev nD) : (n : ℕ) → n < cfg0.N → Rows F
  | 0, hn => rowsFirst (X0 m c ⟨0, hn⟩) (X5 m c ⟨0, hn⟩) (X6 m c ⟨0, hn⟩) (X7 m c ⟨0, hn⟩)
  | n + 1, hn =>
    if (n + 1) % 8 = 0 then rowsFirst (X0 m c ⟨n + 1, hn⟩) (X5 m c ⟨n + 1, hn⟩) (X6 m c ⟨n + 1, hn⟩) (X7 m c ⟨n + 1, hn⟩)
    else rowsNext (X6 m c ⟨n + 1, hn⟩) (X7 m c ⟨n + 1, hn⟩) (rowsAt c n (Nat.lt_of_succ_lt hn))

theorem rowsAt_first (c : Dev nD) (t : Fin cfg0.N) (h : t.val % 8 = 0) :
    rowsAt m c t.val t.isLt = rowsFirst (X0 m c t) (X5 m c t) (X6 m c t) (X7 m c t) := by
  obtain ⟨n, hn⟩ := t
  cases n with
  | zero => rfl
  | succ n => exact if_pos h

theorem rowsAt_next (c : Dev nD) (t : Fin cfg0.N) (h : t.val % 8 ≠ 0) :
    rowsAt m c t.val t.isLt = rowsNext (X6 m c t) (X7 m c t) (rowsAt m c (t.val - 1) (Nat.lt_of_le_of_lt (Nat.sub_le _ _) t.isLt)) := by
  obtain ⟨n, hn⟩ := t
  cases n with
  | zero => exact absurd (Nat.zero_mod _) h
  | succ n => exact if_neg h

/-! ## The gates' block -/

/-- The three pieces the first tile stores into the gates' block, last first: columns 1024–1535, 512–1023, 0–511. -/
def gatesPieces (v31 v33 : Vec F S1x512 .bf16) (v35 v37 : Vec F S512x1536 .bf16) (v42 : Vec F S1x1536 .f32) :
    List (View.Piece (Elt F) S8x1536 .f32) :=
  [⟨Rect.unit ![0, 1024] S8x512.size Facts₀.inb_S8x1536_S8x512_0_1024, k0_pay13 v31 v33 v35 v37 v42⟩,
   ⟨Rect.unit ![0, 512] S8x512.size Facts₀.inb_S8x1536_S8x512_0_512, k0_pay12 v31 v33 v35 v37 v42⟩,
   ⟨Rect.unit ![0, 0] S8x512.size Facts₀.inb_S8x1536_S8x512_0_0, k0_pay11 v31 v33 v35 v37 v42⟩]

/-- The gates' block: what the three pieces leave. -/
def gatesBlock (v31 v33 : Vec F S1x512 .bf16) (v35 v37 : Vec F S512x1536 .bf16) (v42 : Vec F S1x1536 .f32) : Vec F S8x1536 .f32 :=
  View.canon (gatesPieces v31 v33 v35 v37 v42)

/-- The three pieces tile the block. -/
theorem gatesPieces_cover (v31 v33 : Vec F S1x512 .bf16) (v35 v37 : Vec F S512x1536 .bf16) (v42 : Vec F S1x1536 .f32) (y : S8x1536.Idx) :
    ∃ pc ∈ gatesPieces v31 v33 v35 v37 v42, y ∈ pc.1.set :=
  View.cover_of_tiledL (gatesPieces v31 v33 v35 v37 v42) S8x512.size (by sl_kernel_rfl) y

/-- The gates' block at the resident inputs (the same at every point: their index maps are constant). -/
abbrev gatesAt (c : Dev nD) : Vec F S8x1536 .f32 := gatesBlock (X1 m c p0) (X0 m c p0) (X2 m c p0) (X3 m c p0) (X4 m c p0)

/-- A resident input's block is the same at every point. -/
theorem X0_const (c : Dev nD) (t : Fin cfg0.N) : X0 m c t = X0 m c p0 := rfl
theorem X1_const (c : Dev nD) (t : Fin cfg0.N) : X1 m c t = X1 m c p0 := rfl
theorem X2_const (c : Dev nD) (t : Fin cfg0.N) : X2 m c t = X2 m c p0 := rfl
theorem X3_const (c : Dev nD) (t : Fin cfg0.N) : X3 m c t = X3 m c p0 := rfl
theorem X4_const (c : Dev nD) (t : Fin cfg0.N) : X4 m c t = X4 m c p0 := rfl
theorem X5_const (c : Dev nD) (t : Fin cfg0.N) : X5 m c t = X5 m c p0 := rfl
theorem X6_const (c : Dev nD) (t : Fin cfg0.N) : X6 m c t = X6 m c p0 := rfl

/-! ## The region invariant and the proof data -/

/-- The region invariant before position `n`: before the first point the region's own; afterwards the scoped rest with
    the three carried rows at what the point before left. -/
def inv (c : Dev nD) : (n : ℕ) → n ≤ cfg0.N → sProp 𝕄
  | 0, _ => Pipeline.ΦA spec0 c
  | n + 1, hn => iprop(iprop(owns (c : Thread nD τ) rowA fullShare ((rowsAt m c n hn).1) ∗ owns (c : Thread nD τ) rowE fullShare ((rowsAt m c n hn).2.1) ∗ owns (c : Thread nD τ) rowW fullShare ((rowsAt m c n hn).2.2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) rowA fullShare ((rowsAt m c n hn).1) ∗ owns (c : Thread nD τ) rowE fullShare ((rowsAt m c n hn).2.1) ∗ owns (c : Thread nD τ) rowW fullShare ((rowsAt m c n hn).2.2)) ∗ (∃ r, prngReg c r)) := rfl

theorem inv_pos (c : Dev nD) (n : ℕ) (h : n ≤ cfg0.N) (hz : n ≠ 0) :
    inv m c n h = iprop(iprop(owns (c : Thread nD τ) rowA fullShare ((rowsAt m c (n - 1) (by omega)).1) ∗ owns (c : Thread nD τ) rowE fullShare ((rowsAt m c (n - 1) (by omega)).2.1) ∗ owns (c : Thread nD τ) rowW fullShare ((rowsAt m c (n - 1) (by omega)).2.2)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay7 (rowsAt m c t.val t.isLt).2.1
    | ⟨9, _⟩ => k0_pay8 (rowsAt m c t.val t.isLt).2.2
    | ⟨10, _⟩ => gatesAt m c
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = k0_pay7 (rowsAt m c t.val t.isLt).2.1 := by dsimp only [dats]
theorem after9 (c : Dev nD) (t : Fin cfg0.N) : (dats m 0 c).after 9 t = k0_pay8 (rowsAt m c t.val t.isLt).2.2 := by dsimp only [dats]
theorem after10 (c : Dev nD) (t : Fin cfg0.N) : (dats m 0 c).after 10 t = gatesAt m c := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## What the output buffers hold when the body runs -/

/-- At a point idle for a window the body leaves what it found, -/
theorem left_idle {cfg : Cfg sig Λ₀} {c : Dev nD} (dat : Dat τ (Elt F) Unit ℕ (UR sig nD τ) ℕ cfg c) (w : Fin cfg.W) (t : Fin cfg.N) (d)
    (hi : cfg.idle w (cfg.grid.coords t) = true) : dat.left w t d = dat.before w t d := by
  unfold Dat.left; rw [hi]
/-- and at a live one what it stored. -/
theorem left_live {cfg : Cfg sig Λ₀} {c : Dev nD} (dat : Dat τ (Elt F) Unit ℕ (UR sig nD τ) ℕ cfg c) (w : Fin cfg.W) (t : Fin cfg.N) (d)
    (hi : cfg.idle w (cfg.grid.coords t) = false) : dat.left w t d = dat.kept w t d := by
  unfold Dat.left; rw [hi]

/-- After the first point, an output's buffer holds a fresh buffer's contents if the point before wrote it back, else
    what that point left. -/
theorem before_succ {cfg : Cfg sig Λ₀} {c : Dev nD} (dat : Dat τ (Elt F) Unit ℕ (UR sig nD τ) ℕ cfg c) (w : Fin cfg.W)
    (hw : (cfg.win w).isOut = true) (n : ℕ) (hn : n + 1 < cfg.N) (d) :
    dat.before w ⟨n + 1, hn⟩ d = if (cfg.win w).flush ⟨n, Nat.lt_of_succ_lt hn⟩ then d else dat.left w ⟨n, Nat.lt_of_succ_lt hn⟩ d :=
  dat.before_of_pos w ⟨n + 1, hn⟩ (Nat.succ_ne_zero n) ((cfg.win w).fetch_out hw _) d

/-- The two published blocks' buffers are never read before they are stored: between two write-backs every point is
    idle for them, so the body finds what a fresh buffer holds. -/
theorem before8 (c : Dev nD) : ∀ (n : ℕ) (hn : n < cfg0.N) (d), (dats m 0 c).before 8 ⟨n, hn⟩ d = d
  | 0, hn, d => by
    unfold Dat.before
    rw [(cfg0.win 8).fetch_out rfl, if_neg Bool.false_ne_true, if_pos rfl]
  | n + 1, hn, d => by
    rw [before_succ (dats m 0 c) 8 rfl n hn d]
    split
    · rfl
    · rename_i hfl
      have hi : cfg0.idle 8 (cfg0.grid.coords ⟨n, Nat.lt_of_succ_lt hn⟩) = true :=
        (idle8_iff _).mpr fun h7 => hfl ((flush0_8 ⟨n, Nat.lt_of_succ_lt hn⟩).mpr h7)
      exact (left_idle (dats m 0 c) 8 _ d hi).trans (before8 c n _ d)

theorem before9 (c : Dev nD) : ∀ (n : ℕ) (hn : n < cfg0.N) (d), (dats m 0 c).before 9 ⟨n, hn⟩ d = d
  | 0, hn, d => by
    unfold Dat.before
    rw [(cfg0.win 9).fetch_out rfl, if_neg Bool.false_ne_true, if_pos rfl]
  | n + 1, hn, d => by
    rw [before_succ (dats m 0 c) 9 rfl n hn d]
    split
    · rfl
    · rename_i hfl
      have hi : cfg0.idle 9 (cfg0.grid.coords ⟨n, Nat.lt_of_succ_lt hn⟩) = true :=
        (idle9_iff _).mpr fun h7 => hfl ((flush0_9 ⟨n, Nat.lt_of_succ_lt hn⟩).mpr h7)
      exact (left_idle (dats m 0 c) 9 _ d hi).trans (before9 c n _ d)

/-- The gates' buffer at the first tile of a half is fresh, -/
theorem before10_first (c : Dev nD) (t : Fin cfg0.N) (h : t.val % 8 = 0) (d) : (dats m 0 c).before 10 t d = d :=
  (dats m 0 c).before_out_reset 10 rfl t (by
    by_cases h0 : t.val = 0
    · exact .inl h0
    · refine .inr ⟨h0, (flush0_10 _).mpr ?_⟩
      show (t.val - 1) % 8 = 7
      have hN : t.val < 16 := lt_of_lt_of_eq t.isLt (show cfg0.N = 16 from N_0)
      omega) d

/-- and at every later tile it holds the gates the first tile stored: no write-back in between, the tiles in between
    idle for it. -/
theorem before10_later (c : Dev nD) : ∀ (n : ℕ) (hn : n < cfg0.N) (d), n % 8 ≠ 0 → (dats m 0 c).before 10 ⟨n, hn⟩ d = gatesAt m c
  | 0, _, _, h => absurd (Nat.zero_mod _) h
  | n + 1, hn, d, h => by
    have hfl : (cfg0.win 10).flush ⟨n, Nat.lt_of_succ_lt hn⟩ = false := by
      cases hf : (cfg0.win 10).flush ⟨n, Nat.lt_of_succ_lt hn⟩
      · rfl
      · have := (flush0_10 ⟨n, Nat.lt_of_succ_lt hn⟩).mp hf
        exfalso; dsimp only at this; omega
    rw [before_succ (dats m 0 c) 10 rfl n hn d, hfl, if_neg Bool.false_ne_true]
    by_cases h0 : n % 8 = 0
    · have hi : cfg0.idle 10 (cfg0.grid.coords ⟨n, Nat.lt_of_succ_lt hn⟩) = false := by
        cases hc : cfg0.idle 10 (cfg0.grid.coords ⟨n, Nat.lt_of_succ_lt hn⟩)
        · rfl
        · exact absurd h0 ((idle10_iff ⟨n, Nat.lt_of_succ_lt hn⟩).mp hc)
      rw [left_live (dats m 0 c) 10 _ d hi]
      unfold Dat.kept
      rw [Pipeline.fill_of_clip_none 10 _ (fun _ => rfl) d ((dats m 0 c).after 10 ⟨n, Nat.lt_of_succ_lt hn⟩), Window.fill_cut, after10]
    · have hi : cfg0.idle 10 (cfg0.grid.coords ⟨n, Nat.lt_of_succ_lt hn⟩) = true := (idle10_iff _).mpr h0
      exact (left_idle (dats m 0 c) 10 _ d hi).trans (before10_later c n _ d h0)

end Cert.Kernel.Body

end
-- ==== Proof.K.RunFirst.lean ====
/-
  The body at the first tile of a half: it computes the three gates from the resident inputs and stores them, each
  broadcast to the block's eight rows, into the gates' block in three column pieces; stores the input's projection
  into `rowA` and zeros into the two running sums; then accumulates the tile as every tile does.
-/
import proofs.«163698_j23965917512359_2_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the eight inputs at `x0 … x7`, the two published blocks' buffers at `y10`, `y11`, the gates'
    buffer and the three carried rows at anything — the body at a first tile runs and hands back the inputs and the
    published buffers as they were, the gates' buffer at the gates' block of the resident inputs, and the carried
    rows at their values after a first tile. -/
theorem runFirst (c : Dev nD) (i : grid0.Coords) (arg2 : Memref sig .tc .vmem S1x512 .bf16) (harg2 : arg2.IsWhole) (arg3 : Memref sig .tc .vmem S1x512 .bf16) (harg3 : arg3.IsWhole) (arg4 : Memref sig .tc .vmem S512x1536 .bf16) (harg4 : arg4.IsWhole) (arg5 : Memref sig .tc .vmem S512x1536 .bf16) (harg5 : arg5.IsWhole) (arg6 : Memref sig .tc .vmem S1x1536 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S2048x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x1536 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (hc0 : isFirst i) (hc1 : ¬isLast i)
    (x0 : Vec F S1x512 .bf16) (x1 : Vec F S1x512 .bf16) (x2 : Vec F S512x1536 .bf16) (x3 : Vec F S512x1536 .bf16) (x4 : Vec F S1x1536 .f32) (x5 : Vec F S512x512 .bf16) (x6 : Vec F S512x512 .bf16) (x7 : Vec F S2048x512 .f32) (y10 y11 : Vec F S8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ owns (c : Thread nD τ) arg12 fullShare (gatesBlock x1 x0 x2 x3 x4) ∗ owns (c : Thread nD τ) arg13 fullShare (rowsFirst x0 x5 x6 x7).1 ∗ owns (c : Thread nD τ) arg14 fullShare (rowsFirst x0 x5 x6 x7).2.1 ∗ owns (c : Thread nD τ) arg15 fullShare (rowsFirst x0 x5 x6 x7).2.2) -∗ K ⟨⟩))
      ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15) K := by
  unfold rowsFirst; dsimp only
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    simp only [View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
    exact View.read_writes_eq_canon _ _ _ (gatesPieces_cover x1 x0 x2 x3 x4)
  isplitl [HS0]
  · iexists _; isplitr; swap; · iexact HS0
    ipureintro
    sl_unfold_words
    rw [View.WholeBlock.read_writes_one _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  isplitl [HS1]
  · iexists _; isplitr; swap; · iexact HS1
    ipureintro
    sl_unfold_words
    rw [View.WholeBlock.read_writes_last _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  iexists _; isplitr; swap; · iexact HS2
  ipureintro
  sl_unfold_words
  rw [View.WholeBlock.read_writes_last _ _ z2]
  simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]

end Cert.Kernel.Body

end
-- ==== Proof.K.RunMid.lean ====
/-
  The body at a middle tile of a half (neither the first nor the last): it reads the tile of children and the three
  carried rows, adds the tile's column sums of the weights `exp (σ (rowA + tile · awhh))` to `rowE` and of the
  children times their weights to `rowW`, and touches nothing else.
-/
import proofs.«163698_j23965917512359_2_alg».proof.Proof.K.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the eight inputs at `x0 … x7`, the three output buffers at `y10`, `y11`, `y12`, the carried
    rows at `xs0`, `xs1`, `xs2` — the body at a middle tile runs and hands everything back as it was but the two
    running sums, which it leaves at the sums with the tile's contribution added. -/
theorem runMid (c : Dev nD) (i : grid0.Coords) (arg2 : Memref sig .tc .vmem S1x512 .bf16) (harg2 : arg2.IsWhole) (arg3 : Memref sig .tc .vmem S1x512 .bf16) (harg3 : arg3.IsWhole) (arg4 : Memref sig .tc .vmem S512x1536 .bf16) (harg4 : arg4.IsWhole) (arg5 : Memref sig .tc .vmem S512x1536 .bf16) (harg5 : arg5.IsWhole) (arg6 : Memref sig .tc .vmem S1x1536 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S2048x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x1536 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (hc0 : ¬isFirst i) (hc1 : ¬isLast i)
    (x0 : Vec F S1x512 .bf16) (x1 : Vec F S1x512 .bf16) (x2 : Vec F S512x1536 .bf16) (x3 : Vec F S512x1536 .bf16) (x4 : Vec F S1x1536 .f32) (x5 : Vec F S512x512 .bf16) (x6 : Vec F S512x512 .bf16) (x7 : Vec F S2048x512 .f32) (y10 y11 : Vec F S8x512 .f32) (y12 : Vec F S8x1536 .f32) (xs0 xs1 xs2 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ owns (c : Thread nD τ) arg12 fullShare y12 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ owns (c : Thread nD τ) arg12 fullShare y12 ∗ owns (c : Thread nD τ) arg13 fullShare xs0 ∗ owns (c : Thread nD τ) arg14 fullShare (k0_pay5 x7 x6 xs0 xs1) ∗ owns (c : Thread nD τ) arg15 fullShare (k0_pay6 x7 x6 xs0 xs2)) -∗ K ⟨⟩))
      ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr; · ipureintro; exact harg13.read_unread _
    iexact HS0
  isplitl [HS1]
  · iexists _; isplitr; swap; · iexact HS1
    ipureintro
    rw [View.WholeBlock.read_writes_one _ _ z2]
    simp only [View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  iexists _; isplitr; swap; · iexact HS2
  ipureintro
  rw [View.WholeBlock.read_writes_one _ _ z2]
  simp only [View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]

end Cert.Kernel.Body

end
-- ==== Proof.K.RunLast.lean ====
/-
  The body at the last tile of a half: it accumulates the tile as every tile does, then publishes the two running
  sums, each broadcast to the eight rows of its block.
-/
import proofs.«163698_j23965917512359_2_alg».proof.Proof.K.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the eight inputs at `x0 … x7`, the two published blocks' buffers at anything, the gates' buffer
    at `y12`, the carried rows at `xs0`, `xs1`, `xs2` — the body at a last tile runs and hands back the inputs, the
    gates' buffer and `rowA` as they were, the two running sums with the tile's contribution added, and the published
    buffers at those sums broadcast. -/
theorem runLast (c : Dev nD) (i : grid0.Coords) (arg2 : Memref sig .tc .vmem S1x512 .bf16) (harg2 : arg2.IsWhole) (arg3 : Memref sig .tc .vmem S1x512 .bf16) (harg3 : arg3.IsWhole) (arg4 : Memref sig .tc .vmem S512x1536 .bf16) (harg4 : arg4.IsWhole) (arg5 : Memref sig .tc .vmem S512x1536 .bf16) (harg5 : arg5.IsWhole) (arg6 : Memref sig .tc .vmem S1x1536 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S2048x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x1536 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (hc0 : ¬isFirst i) (hc1 : isLast i)
    (x0 : Vec F S1x512 .bf16) (x1 : Vec F S1x512 .bf16) (x2 : Vec F S512x1536 .bf16) (x3 : Vec F S512x1536 .bf16) (x4 : Vec F S1x1536 .f32) (x5 : Vec F S512x512 .bf16) (x6 : Vec F S512x512 .bf16) (x7 : Vec F S2048x512 .f32) (y12 : Vec F S8x1536 .f32) (xs0 xs1 xs2 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y12 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay7 (k0_pay5 x7 x6 xs0 xs1)) ∗ owns (c : Thread nD τ) arg11 fullShare (k0_pay8 (k0_pay6 x7 x6 xs0 xs2)) ∗ owns (c : Thread nD τ) arg12 fullShare y12 ∗ owns (c : Thread nD τ) arg13 fullShare xs0 ∗ owns (c : Thread nD τ) arg14 fullShare (k0_pay5 x7 x6 xs0 xs1) ∗ owns (c : Thread nD τ) arg15 fullShare (k0_pay6 x7 x6 xs0 xs2)) -∗ K ⟨⟩))
      ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [View.WholeBlock.read_writes_one _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  isplitl [H9]
  · iexists _; isplitr; swap; · iexact H9
    ipureintro
    sl_unfold_words
    rw [View.WholeBlock.read_writes_one _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  isplitl [H10]
  · iexists _; isplitr; · ipureintro; exact harg12.read_unread _
    iexact H10
  isplitl [HS0]
  · iexists _; isplitr; · ipureintro; exact harg13.read_unread _
    iexact HS0
  isplitl [HS1]
  · iexists _; isplitr; swap; · iexact HS1
    ipureintro
    sl_unfold_words
    rw [View.WholeBlock.read_writes_one _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  iexists _; isplitr; swap; · iexact HS2
  ipureintro
  sl_unfold_words
  rw [View.WholeBlock.read_writes_one _ _ z2]
  simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]

end Cert.Kernel.Body

end
-- ==== Proof.K.Obligation.lean ====
/-
  The body obligation, the run and the frame.

  At every point the closed forms say which of the three cases the point is in; the inputs' buffers hold their
  blocks; a published block's buffer holds whatever a fresh buffer holds; the gates' buffer is fresh at a first tile
  and holds the stored gates at every later tile of the half.  So the case's run applies, and it hands back exactly
  what the proof data says the point leaves — at the last tile of a half, where the gates' block is written back
  although the body stores nothing into it there, the gates the first tile stored.
-/
import proofs.«163698_j23965917512359_2_alg».proof.Proof.K.RunFirst
import proofs.«163698_j23965917512359_2_alg».proof.Proof.K.RunMid
import proofs.«163698_j23965917512359_2_alg».proof.Proof.K.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a window's buffer is left at, by the window's state at the point -/

theorem leavesExact_live {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns c ((cfg.win w).stage (cfg.slots t w)) fullShare (dat.after w t) := by
  unfold Dat.leavesExact; rw [hi]

theorem leavesExact_flush {cfg : Cfg sig Λ₀} {c : Dev nD} (dat : Dat τ (Elt F) Unit ℕ (UR sig nD τ) ℕ cfg c) (w : Fin cfg.W) (t : Fin cfg.N)
    (hf : (cfg.win w).flush t = true) :
    dat.leavesExact w t = owns c ((cfg.win w).stage (cfg.slots t w)) fullShare (dat.after w t) := by
  unfold Dat.leavesExact; rw [hf]; cases cfg.idle w (cfg.grid.coords t) <;> rfl

/-! ## The output buffers when the body runs, at a point -/

theorem before8_at (c : Dev nD) (t : Fin cfg0.N) (d) : (dats m 0 c).before 8 t d = d := before8 m c t.val t.isLt d
theorem before9_at (c : Dev nD) (t : Fin cfg0.N) (d) : (dats m 0 c).before 9 t d = d := before9 m c t.val t.isLt d
theorem before10_at (c : Dev nD) (t : Fin cfg0.N) (h : t.val % 8 ≠ 0) (d) : (dats m 0 c).before 10 t d = gatesAt m c :=
  before10_later m c t.val t.isLt d h

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (sb0 t) fullShare ((dats m 0 c).before 0 t d))
    ∗ (∃ d, owns (c : Thread nD τ) (sb1 t) fullShare ((dats m 0 c).before 1 t d))
    ∗ (∃ d, owns (c : Thread nD τ) (sb2 t) fullShare ((dats m 0 c).before 2 t d))
    ∗ (∃ d, owns (c : Thread nD τ) (sb3 t) fullShare ((dats m 0 c).before 3 t d))
    ∗ (∃ d, owns (c : Thread nD τ) (sb4 t) fullShare ((dats m 0 c).before 4 t d))
    ∗ (∃ d, owns (c : Thread nD τ) (sb5 t) fullShare ((dats m 0 c).before 5 t d))
    ∗ (∃ d, owns (c : Thread nD τ) (sb6 t) fullShare ((dats m 0 c).before 6 t d))
    ∗ (∃ d, owns (c : Thread nD τ) (sb7 t) fullShare ((dats m 0 c).before 7 t d))
    ∗ (∃ d, owns (c : Thread nD τ) (sb8 t) fullShare ((dats m 0 c).before 8 t d))
    ∗ (∃ d, owns (c : Thread nD τ) (sb9 t) fullShare ((dats m 0 c).before 9 t d))
    ∗ (∃ d, owns (c : Thread nD τ) (sb10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8_at, before9_at]
  rw [show (dats m 0 c).owesAt () t.succ = (dats m 0 c).owesAt () t.castSucc from rfl]
  rw [show (dats m 0 c).Φ t.succ = inv m c (t.val + 1) t.isLt from rfl, inv_succ]
  have hN : t.val < 16 := lt_of_lt_of_eq t.isLt (show cfg0.N = 16 from N_0)
  rw [leavesExact_live (dats m 0 c) 0 t (live0 t), after0]
  rw [leavesExact_live (dats m 0 c) 1 t (live1 t), after1]
  rw [leavesExact_live (dats m 0 c) 2 t (live2 t), after2]
  rw [leavesExact_live (dats m 0 c) 3 t (live3 t), after3]
  rw [leavesExact_live (dats m 0 c) 4 t (live4 t), after4]
  rw [leavesExact_live (dats m 0 c) 5 t (live5 t), after5]
  rw [leavesExact_live (dats m 0 c) 6 t (live6 t), after6]
  rw [leavesExact_live (dats m 0 c) 7 t (live7 t), after7]
  by_cases h0 : t.val % 8 = 0
  · -- the first tile of a half
    have h7 : ¬ t.val % 8 = 7 := by omega
    have hf8 : (cfg0.win 8).flush t = false := by
      cases hf : (cfg0.win 8).flush t
      · rfl
      · exact absurd ((flush0_8 t).mp hf) h7
    have hf9 : (cfg0.win 9).flush t = false := by
      cases hf : (cfg0.win 9).flush t
      · rfl
      · exact absurd ((flush0_9 t).mp hf) h7
    have hl10 : cfg0.idle 10 (cfg0.grid.coords t) = false := by
      cases hc : cfg0.idle 10 (cfg0.grid.coords t)
      · rfl
      · exact absurd h0 ((idle10_iff t).mp hc)
    rw [Dat.leavesExact_idle _ 8 t ((idle8_iff t).mpr h7) hf8, Dat.leavesExact_idle _ 9 t ((idle9_iff t).mpr h7) hf9,
      leavesExact_live (dats m 0 c) 10 t hl10, after10]
    simp only [before8_at, before9_at, before10_first m c t h0]
    rw [rowsAt_first m c t h0]
    rw [show gatesAt m c = gatesBlock (X1 m c t) (X0 m c t) (X2 m c t) (X3 m c t) (X4 m c t) from rfl]
    by_cases hz : t.val = 0
    · rw [inv_castSucc m c t, inv_zero m c _ _ hz, inv_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (runFirst c (grid0.coords t) _ _ _ _ _ _ _ _ _ _ _ _ _ _ _ _ _ _ _ _ _ _ _ _ _ _ _ _ ((isFirst_iff t).mpr h0) (fun h => h7 ((isLast_iff t).mp h)) (X0 m c t) (X1 m c t) (X2 m c t) (X3 m c t) (X4 m c t) (X5 m c t) (X6 m c t) (X7 m c t) d8 d9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexact H10
    · rw [inv_castSucc m c t, inv_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (runFirst c (grid0.coords t) _ _ _ _ _ _ _ _ _ _ _ _ _ _ _ _ _ _ _ _ _ _ _ _ _ _ _ _ ((isFirst_iff t).mpr h0) (fun h => h7 ((isLast_iff t).mp h)) (X0 m c t) (X1 m c t) (X2 m c t) (X3 m c t) (X4 m c t) (X5 m c t) (X6 m c t) (X7 m c t) d8 d9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexists _; iexact HS0
      isplitl [HS1]; · iexists _; iexact HS1
      isplitl [HS2]; · iexists _; iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexact H10
  · have hz : t.val ≠ 0 := fun h => h0 (by rw [h])
    have hi10 : cfg0.idle 10 (cfg0.grid.coords t) = true := (idle10_iff t).mpr h0
    rw [rowsAt_next m c t h0]
    unfold rowsNext; dsimp only
    rw [inv_castSucc m c t, inv_pos m c _ _ hz]
    by_cases h7 : t.val % 8 = 7
    · -- the last tile of a half
      have hl8 : cfg0.idle 8 (cfg0.grid.coords t) = false := by
        cases hc : cfg0.idle 8 (cfg0.grid.coords t)
        · rfl
        · exact absurd h7 ((idle8_iff t).mp hc)
      have hl9 : cfg0.idle 9 (cfg0.grid.coords t) = false := by
        cases hc : cfg0.idle 9 (cfg0.grid.coords t)
        · rfl
        · exact absurd h7 ((idle9_iff t).mp hc)
      rw [leavesExact_live (dats m 0 c) 8 t hl8, after8, leavesExact_live (dats m 0 c) 9 t hl9, after9,
        leavesExact_flush (dats m 0 c) 10 t ((flush0_10 t).mpr h7), after10]
      rw [rowsAt_next m c t h0]
      unfold rowsNext; dsimp only
      simp only [before10_at m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩⟩
      iapply (runLast c (grid0.coords t) _ _ _ _ _ _ _ _ _ _ _ _ _ _ _ _ _ _ _ _ _ _ _ _ _ _ _ _ (fun h => h0 ((isFirst_iff t).mp h)) ((isLast_iff t).mpr h7) (X0 m c t) (X1 m c t) (X2 m c t) (X3 m c t) (X4 m c t) (X5 m c t) (X6 m c t) (X7 m c t) (gatesAt m c) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a middle tile
      have hf8 : (cfg0.win 8).flush t = false := by
        cases hf : (cfg0.win 8).flush t
        · rfl
        · exact absurd ((flush0_8 t).mp hf) h7
      have hf9 : (cfg0.win 9).flush t = false := by
        cases hf : (cfg0.win 9).flush t
        · rfl
        · exact absurd ((flush0_9 t).mp hf) h7
      have hf10 : (cfg0.win 10).flush t = false := by
        cases hf : (cfg0.win 10).flush t
        · rfl
        · exact absurd ((flush0_10 t).mp hf) h7
      rw [Dat.leavesExact_idle _ 8 t ((idle8_iff t).mpr h7) hf8, Dat.leavesExact_idle _ 9 t ((idle9_iff t).mpr h7) hf9,
        Dat.leavesExact_idle _ 10 t hi10 hf10]
      simp only [before8_at, before9_at]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runMid c (grid0.coords t) _ _ _ _ _ _ _ _ _ _ _ _ _ _ _ _ _ _ _ _ _ _ _ _ _ _ _ _ (fun h => h0 ((isFirst_iff t).mp h)) (fun h => h7 ((isLast_iff t).mp h)) (X0 m c t) (X1 m c t) (X2 m c t) (X3 m c t) (X4 m c t) (X5 m c t) (X6 m c t) (X7 m c t) d8 d9 ((dats m 0 c).before 10 t d10) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the region's own back: what the carried rows hold is forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 16 := N_0; omega), inv_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- From any memory with zero counters every weakly fair execution of @main terminates; every array of the pipeline
    ends at what the proof data computes, every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.KI.Shared.lean ====
/-
  What the three cases of the kernel body share.

  The grid is 2 × 8: point `t` (0 ≤ t < 16) is tile `t % 8` of half `t / 8`.  The body resets its three carried
  rows at the first tile of a half (`t % 8 = 0`), accumulates at every tile, and publishes at the last tile of a
  half (`t % 8 = 7`).  Here: the two conditions in closed form, where each output window is idle, the staging
  buffers the body is called with at a point, and the region invariant with the three carried rows as buffers.
-/
import proofs.«163698_j23965917512359_2_alg».proof.Proof.Gen.KernelIdeal.Skeleton
import proofs.«163698_j23965917512359_2_alg».proof.Proof.Gen.KernelIdeal.Frame
import proofs.«163698_j23965917512359_2_alg».proof.Proof.LibWholeBlock

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle. -/
theorem z2 : (![0, 0] : Fin 2 → Nat) = fun _ => 0 := by funext a; fin_cases a <;> rfl

/-! ## The two conditions of the body, over the grid -/

/-- The body's first conditional: the first tile of a half. -/
abbrev isFirst (i : grid0.Coords) : Prop := k0_cond1 i = 1#1
theorem isFirst_iff : ∀ t : Fin cfg0.N, isFirst (grid0.coords t) ↔ t.val % 8 = 0 :=
  (by decide +kernel : ∀ t : Fin grid0.N, isFirst (grid0.coords t) ↔ t.val % 8 = 0)

/-- The body's second conditional: the last tile of a half. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The two published sums are stored only at the last tile of a half, -/
theorem idle8_iff : ∀ t : Fin cfg0.N, cfg0.idle 8 (grid0.coords t) = true ↔ t.val % 8 ≠ 7 :=
  (by decide +kernel : ∀ t : Fin grid0.N, cfg0.idle 8 (grid0.coords t) = true ↔ t.val % 8 ≠ 7)
theorem idle9_iff : ∀ t : Fin cfg0.N, cfg0.idle 9 (grid0.coords t) = true ↔ t.val % 8 ≠ 7 :=
  (by decide +kernel : ∀ t : Fin grid0.N, cfg0.idle 9 (grid0.coords t) = true ↔ t.val % 8 ≠ 7)
/-- and the three gates only at its first tile. -/
theorem idle10_iff : ∀ t : Fin cfg0.N, cfg0.idle 10 (grid0.coords t) = true ↔ t.val % 8 ≠ 0 :=
  (by decide +kernel : ∀ t : Fin grid0.N, cfg0.idle 10 (grid0.coords t) = true ↔ t.val % 8 ≠ 0)

/-! ## The buffers the body is called with at a point -/

abbrev sb0 (t : Fin cfg0.N) : Memref sig .tc .vmem S1x512 .bf16 := win0_0.stage (cfg0.slots t 0)
abbrev sw0 (t : Fin cfg0.N) : (sb0 t).IsWhole := hstage0_0 ((cfg0.slots t 0).cast nbuf0_0)
abbrev sb1 (t : Fin cfg0.N) : Memref sig .tc .vmem S1x512 .bf16 := win0_1.stage (cfg0.slots t 1)
abbrev sw1 (t : Fin cfg0.N) : (sb1 t).IsWhole := hstage0_1 ((cfg0.slots t 1).cast nbuf0_1)
abbrev sb2 (t : Fin cfg0.N) : Memref sig .tc .vmem S512x1536 .bf16 := win0_2.stage (cfg0.slots t 2)
abbrev sw2 (t : Fin cfg0.N) : (sb2 t).IsWhole := hstage0_2 ((cfg0.slots t 2).cast nbuf0_2)
abbrev sb3 (t : Fin cfg0.N) : Memref sig .tc .vmem S512x1536 .bf16 := win0_3.stage (cfg0.slots t 3)
abbrev sw3 (t : Fin cfg0.N) : (sb3 t).IsWhole := hstage0_3 ((cfg0.slots t 3).cast nbuf0_3)
abbrev sb4 (t : Fin cfg0.N) : Memref sig .tc .vmem S1x1536 .f32 := win0_4.stage (cfg0.slots t 4)
abbrev sw4 (t : Fin cfg0.N) : (sb4 t).IsWhole := hstage0_4 ((cfg0.slots t 4).cast nbuf0_4)
abbrev sb5 (t : Fin cfg0.N) : Memref sig .tc .vmem S512x512 .bf16 := win0_5.stage (cfg0.slots t 5)
abbrev sw5 (t : Fin cfg0.N) : (sb5 t).IsWhole := hstage0_5 ((cfg0.slots t 5).cast nbuf0_5)
abbrev sb6 (t : Fin cfg0.N) : Memref sig .tc .vmem S512x512 .bf16 := win0_6.stage (cfg0.slots t 6)
abbrev sw6 (t : Fin cfg0.N) : (sb6 t).IsWhole := hstage0_6 ((cfg0.slots t 6).cast nbuf0_6)
abbrev sb7 (t : Fin cfg0.N) : Memref sig .tc .vmem S2048x512 .f32 := win0_7.stage (cfg0.slots t 7)
abbrev sw7 (t : Fin cfg0.N) : (sb7 t).IsWhole := hstage0_7 ((cfg0.slots t 7).cast nbuf0_7)
abbrev sb8 (t : Fin cfg0.N) : Memref sig .tc .vmem S8x512 .f32 := win0_8.stage (cfg0.slots t 8)
abbrev sw8 (t : Fin cfg0.N) : (sb8 t).IsWhole := hstage0_8 ((cfg0.slots t 8).cast nbuf0_8)
abbrev sb9 (t : Fin cfg0.N) : Memref sig .tc .vmem S8x512 .f32 := win0_9.stage (cfg0.slots t 9)
abbrev sw9 (t : Fin cfg0.N) : (sb9 t).IsWhole := hstage0_9 ((cfg0.slots t 9).cast nbuf0_9)
abbrev sb10 (t : Fin cfg0.N) : Memref sig .tc .vmem S8x1536 .f32 := win0_10.stage (cfg0.slots t 10)
abbrev sw10 (t : Fin cfg0.N) : (sb10 t).IsWhole := hstage0_10 ((cfg0.slots t 10).cast nbuf0_10)

/-- The three rows the body carries from tile to tile: the input's projection, the running sum of the weights, the
    running weighted sum of the children. -/
abbrev rowA : Memref sig .tc .vmem S1x512 .f32 := Memref.whole cc0_scratch0
abbrev rowE : Memref sig .tc .vmem S1x512 .f32 := Memref.whole cc0_scratch1
abbrev rowW : Memref sig .tc .vmem S1x512 .f32 := Memref.whole cc0_scratch2

/-- The region's own invariant — the scoped buffers that are no staging buffer, each at some contents, and the
    generator register — with the three carried rows as whole buffers owned at some contents. -/
theorem inv_eq (c : Dev nD) :
    (Pipeline.ΦA spec0 c : sProp 𝕄)
      = iprop(iprop((∃ d, owns (c : Thread nD τ) rowA fullShare d) ∗ (∃ d, owns (c : Thread nD τ) rowE fullShare d) ∗ (∃ d, owns (c : Thread nD τ) rowW fullShare d)) ∗ (∃ r, prngReg c r)) := by
  unfold Pipeline.ΦA; rw [scopedRest0_eq]; simp only [rowA, rowE, rowW, owns_whole]; try rfl

end Cert.KernelIdeal.Body

end
-- ==== Proof.KI.Data.lean ====
/-
  What the buffers hold, point by point.

  The carried rows: at the first tile of a half `rowA` is the input's projection, and the two running sums start from
  zero plus the tile's contribution; at every later tile `rowA` stays and the sums take the tile's contribution on top
  of what the tile before left.  The two published blocks are the sums after the point, each broadcast to the block's
  eight rows (read only at the last tile of a half, where the block is written back); the gates' block is stored at
  the first tile of a half and is the same function of the resident inputs at every point.
-/
import proofs.«163698_j23965917512359_2_alg».proof.Proof.KI.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point -/

abbrev X0 (c : Dev nD) (t : Fin cfg0.N) : Vec F S1x512 .bf16 := iblk m c 0 t
abbrev X1 (c : Dev nD) (t : Fin cfg0.N) : Vec F S1x512 .bf16 := iblk m c 1 t
abbrev X2 (c : Dev nD) (t : Fin cfg0.N) : Vec F S512x1536 .bf16 := iblk m c 2 t
abbrev X3 (c : Dev nD) (t : Fin cfg0.N) : Vec F S512x1536 .bf16 := iblk m c 3 t
abbrev X4 (c : Dev nD) (t : Fin cfg0.N) : Vec F S1x1536 .f32 := iblk m c 4 t
abbrev X5 (c : Dev nD) (t : Fin cfg0.N) : Vec F S512x512 .bf16 := iblk m c 5 t
abbrev X6 (c : Dev nD) (t : Fin cfg0.N) : Vec F S512x512 .bf16 := iblk m c 6 t
abbrev X7 (c : Dev nD) (t : Fin cfg0.N) : Vec F S2048x512 .f32 := iblk m c 7 t

/-- The grid's first point. -/
abbrev p0 : Fin cfg0.N := ⟨0, by rw [show cfg0.N = 16 from N_0]; decide⟩

/-! ## The carried rows -/

/-- The three carried rows: the input's projection, the weights' running sum, the weighted children's running sum. -/
abbrev Rows (F : FTy → Type) : Type := Vec F S1x512 .f32 × Vec F S1x512 .f32 × Vec F S1x512 .f32

/-- After the first tile of a half. -/
def rowsFirst (x0 : Vec F S1x512 .bf16) (x5 x6 : Vec F S512x512 .bf16) (x7 : Vec F S2048x512 .f32) : Rows F :=
  (k0_pay1 (k0_pay14 x0 x5), k0_pay5 x7 x6 (k0_pay1 (k0_pay14 x0 x5)) k0_pay2, k0_pay6 x7 x6 (k0_pay1 (k0_pay14 x0 x5)) k0_pay3)

/-- After a later tile, from what the tile before left. -/
def rowsNext (x6 : Vec F S512x512 .bf16) (x7 : Vec F S2048x512 .f32) (p : Rows F) : Rows F :=
  (p.1, k0_pay5 x7 x6 p.1 p.2.1, k0_pay6 x7 x6 p.1 p.2.2)

/-- The carried rows after point `n`. -/
def rowsAt (c : Dev nD) : (n : ℕ) → n < cfg0.N → Rows F
  | 0, hn => rowsFirst (X0 m c ⟨0, hn⟩) (X5 m c ⟨0, hn⟩) (X6 m c ⟨0, hn⟩) (X7 m c ⟨0, hn⟩)
  | n + 1, hn =>
    if (n + 1) % 8 = 0 then rowsFirst (X0 m c ⟨n + 1, hn⟩) (X5 m c ⟨n + 1, hn⟩) (X6 m c ⟨n + 1, hn⟩) (X7 m c ⟨n + 1, hn⟩)
    else rowsNext (X6 m c ⟨n + 1, hn⟩) (X7 m c ⟨n + 1, hn⟩) (rowsAt c n (Nat.lt_of_succ_lt hn))

theorem rowsAt_first (c : Dev nD) (t : Fin cfg0.N) (h : t.val % 8 = 0) :
    rowsAt m c t.val t.isLt = rowsFirst (X0 m c t) (X5 m c t) (X6 m c t) (X7 m c t) := by
  obtain ⟨n, hn⟩ := t
  cases n with
  | zero => rfl
  | succ n => exact if_pos h

theorem rowsAt_next (c : Dev nD) (t : Fin cfg0.N) (h : t.val % 8 ≠ 0) :
    rowsAt m c t.val t.isLt = rowsNext (X6 m c t) (X7 m c t) (rowsAt m c (t.val - 1) (Nat.lt_of_le_of_lt (Nat.sub_le _ _) t.isLt)) := by
  obtain ⟨n, hn⟩ := t
  cases n with
  | zero => exact absurd (Nat.zero_mod _) h
  | succ n => exact if_neg h

/-! ## The gates' block -/

/-- The three pieces the first tile stores into the gates' block, last first: columns 1024–1535, 512–1023, 0–511. -/
def gatesPieces (v31 v33 : Vec F S1x512 .bf16) (v35 v37 : Vec F S512x1536 .bf16) (v42 : Vec F S1x1536 .f32) :
    List (View.Piece (Elt F) S8x1536 .f32) :=
  [⟨Rect.unit ![0, 1024] S8x512.size Facts₀.inb_S8x1536_S8x512_0_1024, k0_pay13 v31 v33 v35 v37 v42⟩,
   ⟨Rect.unit ![0, 512] S8x512.size Facts₀.inb_S8x1536_S8x512_0_512, k0_pay12 v31 v33 v35 v37 v42⟩,
   ⟨Rect.unit ![0, 0] S8x512.size Facts₀.inb_S8x1536_S8x512_0_0, k0_pay11 v31 v33 v35 v37 v42⟩]

/-- The gates' block: what the three pieces leave. -/
def gatesBlock (v31 v33 : Vec F S1x512 .bf16) (v35 v37 : Vec F S512x1536 .bf16) (v42 : Vec F S1x1536 .f32) : Vec F S8x1536 .f32 :=
  View.canon (gatesPieces v31 v33 v35 v37 v42)

/-- The three pieces tile the block. -/
theorem gatesPieces_cover (v31 v33 : Vec F S1x512 .bf16) (v35 v37 : Vec F S512x1536 .bf16) (v42 : Vec F S1x1536 .f32) (y : S8x1536.Idx) :
    ∃ pc ∈ gatesPieces v31 v33 v35 v37 v42, y ∈ pc.1.set :=
  View.cover_of_tiledL (gatesPieces v31 v33 v35 v37 v42) S8x512.size (by sl_kernel_rfl) y

/-- The gates' block at the resident inputs (the same at every point: their index maps are constant). -/
abbrev gatesAt (c : Dev nD) : Vec F S8x1536 .f32 := gatesBlock (X1 m c p0) (X0 m c p0) (X2 m c p0) (X3 m c p0) (X4 m c p0)

/-- A resident input's block is the same at every point. -/
theorem X0_const (c : Dev nD) (t : Fin cfg0.N) : X0 m c t = X0 m c p0 := rfl
theorem X1_const (c : Dev nD) (t : Fin cfg0.N) : X1 m c t = X1 m c p0 := rfl
theorem X2_const (c : Dev nD) (t : Fin cfg0.N) : X2 m c t = X2 m c p0 := rfl
theorem X3_const (c : Dev nD) (t : Fin cfg0.N) : X3 m c t = X3 m c p0 := rfl
theorem X4_const (c : Dev nD) (t : Fin cfg0.N) : X4 m c t = X4 m c p0 := rfl
theorem X5_const (c : Dev nD) (t : Fin cfg0.N) : X5 m c t = X5 m c p0 := rfl
theorem X6_const (c : Dev nD) (t : Fin cfg0.N) : X6 m c t = X6 m c p0 := rfl

/-! ## The region invariant and the proof data -/

/-- The region invariant before position `n`: before the first point the region's own; afterwards the scoped rest with
    the three carried rows at what the point before left. -/
def inv (c : Dev nD) : (n : ℕ) → n ≤ cfg0.N → sProp 𝕄
  | 0, _ => Pipeline.ΦA spec0 c
  | n + 1, hn => iprop(iprop(owns (c : Thread nD τ) rowA fullShare ((rowsAt m c n hn).1) ∗ owns (c : Thread nD τ) rowE fullShare ((rowsAt m c n hn).2.1) ∗ owns (c : Thread nD τ) rowW fullShare ((rowsAt m c n hn).2.2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) rowA fullShare ((rowsAt m c n hn).1) ∗ owns (c : Thread nD τ) rowE fullShare ((rowsAt m c n hn).2.1) ∗ owns (c : Thread nD τ) rowW fullShare ((rowsAt m c n hn).2.2)) ∗ (∃ r, prngReg c r)) := rfl

theorem inv_pos (c : Dev nD) (n : ℕ) (h : n ≤ cfg0.N) (hz : n ≠ 0) :
    inv m c n h = iprop(iprop(owns (c : Thread nD τ) rowA fullShare ((rowsAt m c (n - 1) (by omega)).1) ∗ owns (c : Thread nD τ) rowE fullShare ((rowsAt m c (n - 1) (by omega)).2.1) ∗ owns (c : Thread nD τ) rowW fullShare ((rowsAt m c (n - 1) (by omega)).2.2)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay7 (rowsAt m c t.val t.isLt).2.1
    | ⟨9, _⟩ => k0_pay8 (rowsAt m c t.val t.isLt).2.2
    | ⟨10, _⟩ => gatesAt m c
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = k0_pay7 (rowsAt m c t.val t.isLt).2.1 := by dsimp only [dats]
theorem after9 (c : Dev nD) (t : Fin cfg0.N) : (dats m 0 c).after 9 t = k0_pay8 (rowsAt m c t.val t.isLt).2.2 := by dsimp only [dats]
theorem after10 (c : Dev nD) (t : Fin cfg0.N) : (dats m 0 c).after 10 t = gatesAt m c := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## What the output buffers hold when the body runs -/

/-- At a point idle for a window the body leaves what it found, -/
theorem left_idle {cfg : Cfg sig Λ₀} {c : Dev nD} (dat : Dat τ (Elt F) Unit ℕ (UR sig nD τ) ℕ cfg c) (w : Fin cfg.W) (t : Fin cfg.N) (d)
    (hi : cfg.idle w (cfg.grid.coords t) = true) : dat.left w t d = dat.before w t d := by
  unfold Dat.left; rw [hi]
/-- and at a live one what it stored. -/
theorem left_live {cfg : Cfg sig Λ₀} {c : Dev nD} (dat : Dat τ (Elt F) Unit ℕ (UR sig nD τ) ℕ cfg c) (w : Fin cfg.W) (t : Fin cfg.N) (d)
    (hi : cfg.idle w (cfg.grid.coords t) = false) : dat.left w t d = dat.kept w t d := by
  unfold Dat.left; rw [hi]

/-- After the first point, an output's buffer holds a fresh buffer's contents if the point before wrote it back, else
    what that point left. -/
theorem before_succ {cfg : Cfg sig Λ₀} {c : Dev nD} (dat : Dat τ (Elt F) Unit ℕ (UR sig nD τ) ℕ cfg c) (w : Fin cfg.W)
    (hw : (cfg.win w).isOut = true) (n : ℕ) (hn : n + 1 < cfg.N) (d) :
    dat.before w ⟨n + 1, hn⟩ d = if (cfg.win w).flush ⟨n, Nat.lt_of_succ_lt hn⟩ then d else dat.left w ⟨n, Nat.lt_of_succ_lt hn⟩ d :=
  dat.before_of_pos w ⟨n + 1, hn⟩ (Nat.succ_ne_zero n) ((cfg.win w).fetch_out hw _) d

/-- The two published blocks' buffers are never read before they are stored: between two write-backs every point is
    idle for them, so the body finds what a fresh buffer holds. -/
theorem before8 (c : Dev nD) : ∀ (n : ℕ) (hn : n < cfg0.N) (d), (dats m 0 c).before 8 ⟨n, hn⟩ d = d
  | 0, hn, d => by
    unfold Dat.before
    rw [(cfg0.win 8).fetch_out rfl, if_neg Bool.false_ne_true, if_pos rfl]
  | n + 1, hn, d => by
    rw [before_succ (dats m 0 c) 8 rfl n hn d]
    split
    · rfl
    · rename_i hfl
      have hi : cfg0.idle 8 (cfg0.grid.coords ⟨n, Nat.lt_of_succ_lt hn⟩) = true :=
        (idle8_iff _).mpr fun h7 => hfl ((flush0_8 ⟨n, Nat.lt_of_succ_lt hn⟩).mpr h7)
      exact (left_idle (dats m 0 c) 8 _ d hi).trans (before8 c n _ d)

theorem before9 (c : Dev nD) : ∀ (n : ℕ) (hn : n < cfg0.N) (d), (dats m 0 c).before 9 ⟨n, hn⟩ d = d
  | 0, hn, d => by
    unfold Dat.before
    rw [(cfg0.win 9).fetch_out rfl, if_neg Bool.false_ne_true, if_pos rfl]
  | n + 1, hn, d => by
    rw [before_succ (dats m 0 c) 9 rfl n hn d]
    split
    · rfl
    · rename_i hfl
      have hi : cfg0.idle 9 (cfg0.grid.coords ⟨n, Nat.lt_of_succ_lt hn⟩) = true :=
        (idle9_iff _).mpr fun h7 => hfl ((flush0_9 ⟨n, Nat.lt_of_succ_lt hn⟩).mpr h7)
      exact (left_idle (dats m 0 c) 9 _ d hi).trans (before9 c n _ d)

/-- The gates' buffer at the first tile of a half is fresh, -/
theorem before10_first (c : Dev nD) (t : Fin cfg0.N) (h : t.val % 8 = 0) (d) : (dats m 0 c).before 10 t d = d :=
  (dats m 0 c).before_out_reset 10 rfl t (by
    by_cases h0 : t.val = 0
    · exact .inl h0
    · refine .inr ⟨h0, (flush0_10 _).mpr ?_⟩
      show (t.val - 1) % 8 = 7
      have hN : t.val < 16 := lt_of_lt_of_eq t.isLt (show cfg0.N = 16 from N_0)
      omega) d

/-- and at every later tile it holds the gates the first tile stored: no write-back in between, the tiles in between
    idle for it. -/
theorem before10_later (c : Dev nD) : ∀ (n : ℕ) (hn : n < cfg0.N) (d), n % 8 ≠ 0 → (dats m 0 c).before 10 ⟨n, hn⟩ d = gatesAt m c
  | 0, _, _, h => absurd (Nat.zero_mod _) h
  | n + 1, hn, d, h => by
    have hfl : (cfg0.win 10).flush ⟨n, Nat.lt_of_succ_lt hn⟩ = false := by
      cases hf : (cfg0.win 10).flush ⟨n, Nat.lt_of_succ_lt hn⟩
      · rfl
      · have := (flush0_10 ⟨n, Nat.lt_of_succ_lt hn⟩).mp hf
        exfalso; dsimp only at this; omega
    rw [before_succ (dats m 0 c) 10 rfl n hn d, hfl, if_neg Bool.false_ne_true]
    by_cases h0 : n % 8 = 0
    · have hi : cfg0.idle 10 (cfg0.grid.coords ⟨n, Nat.lt_of_succ_lt hn⟩) = false := by
        cases hc : cfg0.idle 10 (cfg0.grid.coords ⟨n, Nat.lt_of_succ_lt hn⟩)
        · rfl
        · exact absurd h0 ((idle10_iff ⟨n, Nat.lt_of_succ_lt hn⟩).mp hc)
      rw [left_live (dats m 0 c) 10 _ d hi]
      unfold Dat.kept
      rw [Pipeline.fill_of_clip_none 10 _ (fun _ => rfl) d ((dats m 0 c).after 10 ⟨n, Nat.lt_of_succ_lt hn⟩), Window.fill_cut, after10]
    · have hi : cfg0.idle 10 (cfg0.grid.coords ⟨n, Nat.lt_of_succ_lt hn⟩) = true := (idle10_iff _).mpr h0
      exact (left_idle (dats m 0 c) 10 _ d hi).trans (before10_later c n _ d h0)

end Cert.KernelIdeal.Body

end
-- ==== Proof.KI.RunFirst.lean ====
/-
  The body at the first tile of a half: it computes the three gates from the resident inputs and stores them, each
  broadcast to the block's eight rows, into the gates' block in three column pieces; stores the input's projection
  into `rowA` and zeros into the two running sums; then accumulates the tile as every tile does.
-/
import proofs.«163698_j23965917512359_2_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the eight inputs at `x0 … x7`, the two published blocks' buffers at `y10`, `y11`, the gates'
    buffer and the three carried rows at anything — the body at a first tile runs and hands back the inputs and the
    published buffers as they were, the gates' buffer at the gates' block of the resident inputs, and the carried
    rows at their values after a first tile. -/
theorem runFirst (c : Dev nD) (i : grid0.Coords) (arg2 : Memref sig .tc .vmem S1x512 .bf16) (harg2 : arg2.IsWhole) (arg3 : Memref sig .tc .vmem S1x512 .bf16) (harg3 : arg3.IsWhole) (arg4 : Memref sig .tc .vmem S512x1536 .bf16) (harg4 : arg4.IsWhole) (arg5 : Memref sig .tc .vmem S512x1536 .bf16) (harg5 : arg5.IsWhole) (arg6 : Memref sig .tc .vmem S1x1536 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S2048x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x1536 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (hc0 : isFirst i) (hc1 : ¬isLast i)
    (x0 : Vec F S1x512 .bf16) (x1 : Vec F S1x512 .bf16) (x2 : Vec F S512x1536 .bf16) (x3 : Vec F S512x1536 .bf16) (x4 : Vec F S1x1536 .f32) (x5 : Vec F S512x512 .bf16) (x6 : Vec F S512x512 .bf16) (x7 : Vec F S2048x512 .f32) (y10 y11 : Vec F S8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ owns (c : Thread nD τ) arg12 fullShare (gatesBlock x1 x0 x2 x3 x4) ∗ owns (c : Thread nD τ) arg13 fullShare (rowsFirst x0 x5 x6 x7).1 ∗ owns (c : Thread nD τ) arg14 fullShare (rowsFirst x0 x5 x6 x7).2.1 ∗ owns (c : Thread nD τ) arg15 fullShare (rowsFirst x0 x5 x6 x7).2.2) -∗ K ⟨⟩))
      ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15) K := by
  unfold rowsFirst; dsimp only
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    simp only [View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
    exact View.read_writes_eq_canon _ _ _ (gatesPieces_cover x1 x0 x2 x3 x4)
  isplitl [HS0]
  · iexists _; isplitr; swap; · iexact HS0
    ipureintro
    sl_unfold_words
    rw [View.WholeBlock.read_writes_one _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  isplitl [HS1]
  · iexists _; isplitr; swap; · iexact HS1
    ipureintro
    sl_unfold_words
    rw [View.WholeBlock.read_writes_last _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  iexists _; isplitr; swap; · iexact HS2
  ipureintro
  sl_unfold_words
  rw [View.WholeBlock.read_writes_last _ _ z2]
  simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]

end Cert.KernelIdeal.Body

end
-- ==== Proof.KI.RunMid.lean ====
/-
  The body at a middle tile of a half (neither the first nor the last): it reads the tile of children and the three
  carried rows, adds the tile's column sums of the weights `exp (σ (rowA + tile · awhh))` to `rowE` and of the
  children times their weights to `rowW`, and touches nothing else.
-/
import proofs.«163698_j23965917512359_2_alg».proof.Proof.KI.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the eight inputs at `x0 … x7`, the three output buffers at `y10`, `y11`, `y12`, the carried
    rows at `xs0`, `xs1`, `xs2` — the body at a middle tile runs and hands everything back as it was but the two
    running sums, which it leaves at the sums with the tile's contribution added. -/
theorem runMid (c : Dev nD) (i : grid0.Coords) (arg2 : Memref sig .tc .vmem S1x512 .bf16) (harg2 : arg2.IsWhole) (arg3 : Memref sig .tc .vmem S1x512 .bf16) (harg3 : arg3.IsWhole) (arg4 : Memref sig .tc .vmem S512x1536 .bf16) (harg4 : arg4.IsWhole) (arg5 : Memref sig .tc .vmem S512x1536 .bf16) (harg5 : arg5.IsWhole) (arg6 : Memref sig .tc .vmem S1x1536 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S2048x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x1536 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (hc0 : ¬isFirst i) (hc1 : ¬isLast i)
    (x0 : Vec F S1x512 .bf16) (x1 : Vec F S1x512 .bf16) (x2 : Vec F S512x1536 .bf16) (x3 : Vec F S512x1536 .bf16) (x4 : Vec F S1x1536 .f32) (x5 : Vec F S512x512 .bf16) (x6 : Vec F S512x512 .bf16) (x7 : Vec F S2048x512 .f32) (y10 y11 : Vec F S8x512 .f32) (y12 : Vec F S8x1536 .f32) (xs0 xs1 xs2 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ owns (c : Thread nD τ) arg12 fullShare y12 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ owns (c : Thread nD τ) arg12 fullShare y12 ∗ owns (c : Thread nD τ) arg13 fullShare xs0 ∗ owns (c : Thread nD τ) arg14 fullShare (k0_pay5 x7 x6 xs0 xs1) ∗ owns (c : Thread nD τ) arg15 fullShare (k0_pay6 x7 x6 xs0 xs2)) -∗ K ⟨⟩))
      ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr; · ipureintro; exact harg13.read_unread _
    iexact HS0
  isplitl [HS1]
  · iexists _; isplitr; swap; · iexact HS1
    ipureintro
    rw [View.WholeBlock.read_writes_one _ _ z2]
    simp only [View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  iexists _; isplitr; swap; · iexact HS2
  ipureintro
  rw [View.WholeBlock.read_writes_one _ _ z2]
  simp only [View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]

end Cert.KernelIdeal.Body

end
-- ==== Proof.KI.RunLast.lean ====
/-
  The body at the last tile of a half: it accumulates the tile as every tile does, then publishes the two running
  sums, each broadcast to the eight rows of its block.
-/
import proofs.«163698_j23965917512359_2_alg».proof.Proof.KI.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the eight inputs at `x0 … x7`, the two published blocks' buffers at anything, the gates' buffer
    at `y12`, the carried rows at `xs0`, `xs1`, `xs2` — the body at a last tile runs and hands back the inputs, the
    gates' buffer and `rowA` as they were, the two running sums with the tile's contribution added, and the published
    buffers at those sums broadcast. -/
theorem runLast (c : Dev nD) (i : grid0.Coords) (arg2 : Memref sig .tc .vmem S1x512 .bf16) (harg2 : arg2.IsWhole) (arg3 : Memref sig .tc .vmem S1x512 .bf16) (harg3 : arg3.IsWhole) (arg4 : Memref sig .tc .vmem S512x1536 .bf16) (harg4 : arg4.IsWhole) (arg5 : Memref sig .tc .vmem S512x1536 .bf16) (harg5 : arg5.IsWhole) (arg6 : Memref sig .tc .vmem S1x1536 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S2048x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x1536 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (hc0 : ¬isFirst i) (hc1 : isLast i)
    (x0 : Vec F S1x512 .bf16) (x1 : Vec F S1x512 .bf16) (x2 : Vec F S512x1536 .bf16) (x3 : Vec F S512x1536 .bf16) (x4 : Vec F S1x1536 .f32) (x5 : Vec F S512x512 .bf16) (x6 : Vec F S512x512 .bf16) (x7 : Vec F S2048x512 .f32) (y12 : Vec F S8x1536 .f32) (xs0 xs1 xs2 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y12 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay7 (k0_pay5 x7 x6 xs0 xs1)) ∗ owns (c : Thread nD τ) arg11 fullShare (k0_pay8 (k0_pay6 x7 x6 xs0 xs2)) ∗ owns (c : Thread nD τ) arg12 fullShare y12 ∗ owns (c : Thread nD τ) arg13 fullShare xs0 ∗ owns (c : Thread nD τ) arg14 fullShare (k0_pay5 x7 x6 xs0 xs1) ∗ owns (c : Thread nD τ) arg15 fullShare (k0_pay6 x7 x6 xs0 xs2)) -∗ K ⟨⟩))
      ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [View.WholeBlock.read_writes_one _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  isplitl [H9]
  · iexists _; isplitr; swap; · iexact H9
    ipureintro
    sl_unfold_words
    rw [View.WholeBlock.read_writes_one _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  isplitl [H10]
  · iexists _; isplitr; · ipureintro; exact harg12.read_unread _
    iexact H10
  isplitl [HS0]
  · iexists _; isplitr; · ipureintro; exact harg13.read_unread _
    iexact HS0
  isplitl [HS1]
  · iexists _; isplitr; swap; · iexact HS1
    ipureintro
    sl_unfold_words
    rw [View.WholeBlock.read_writes_one _ _ z2]
    simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]
  iexists _; isplitr; swap; · iexact HS2
  ipureintro
  sl_unfold_words
  rw [View.WholeBlock.read_writes_one _ _ z2]
  simp only [View.readCov_unit_zero (S := S1x512) _ z2, View.WholeBlock.readAt_unread (S := S2048x512) _ _ z2, View.WholeBlock.readAt_unread (S := S512x512) _ _ z2, View.WholeBlock.readAt_unread (S := S1x512) _ _ z2, View.WholeBlock.readAt_unread (S := S512x1536) _ _ z2, View.WholeBlock.readAt_unread (S := S1x1536) _ _ z2]

end Cert.KernelIdeal.Body

end
-- ==== Proof.KI.Obligation.lean ====
/-
  The body obligation, the run and the frame.

  At every point the closed forms say which of the three cases the point is in; the inputs' buffers hold their
  blocks; a published block's buffer holds whatever a fresh buffer holds; the gates' buffer is fresh at a first tile
  and holds the stored gates at every later tile of the half.  So the case's run applies, and it hands back exactly
  what the proof data says the point leaves — at the last tile of a half, where the gates' block is written back
  although the body stores nothing into it there, the gates the first tile stored.
-/
import proofs.«163698_j23965917512359_2_alg».proof.Proof.KI.RunFirst
import proofs.«163698_j23965917512359_2_alg».proof.Proof.KI.RunMid
import proofs.«163698_j23965917512359_2_alg».proof.Proof.KI.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a window's buffer is left at, by the window's state at the point -/

theorem leavesExact_live {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns c ((cfg.win w).stage (cfg.slots t w)) fullShare (dat.after w t) := by
  unfold Dat.leavesExact; rw [hi]

theorem leavesExact_flush {cfg : Cfg sig Λ₀} {c : Dev nD} (dat : Dat τ (Elt F) Unit ℕ (UR sig nD τ) ℕ cfg c) (w : Fin cfg.W) (t : Fin cfg.N)
    (hf : (cfg.win w).flush t = true) :
    dat.leavesExact w t = owns c ((cfg.win w).stage (cfg.slots t w)) fullShare (dat.after w t) := by
  unfold Dat.leavesExact; rw [hf]; cases cfg.idle w (cfg.grid.coords t) <;> rfl

/-! ## The output buffers when the body runs, at a point -/

theorem before8_at (c : Dev nD) (t : Fin cfg0.N) (d) : (dats m 0 c).before 8 t d = d := before8 m c t.val t.isLt d
theorem before9_at (c : Dev nD) (t : Fin cfg0.N) (d) : (dats m 0 c).before 9 t d = d := before9 m c t.val t.isLt d
theorem before10_at (c : Dev nD) (t : Fin cfg0.N) (h : t.val % 8 ≠ 0) (d) : (dats m 0 c).before 10 t d = gatesAt m c :=
  before10_later m c t.val t.isLt d h

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (sb0 t) fullShare ((dats m 0 c).before 0 t d))
    ∗ (∃ d, owns (c : Thread nD τ) (sb1 t) fullShare ((dats m 0 c).before 1 t d))
    ∗ (∃ d, owns (c : Thread nD τ) (sb2 t) fullShare ((dats m 0 c).before 2 t d))
    ∗ (∃ d, owns (c : Thread nD τ) (sb3 t) fullShare ((dats m 0 c).before 3 t d))
    ∗ (∃ d, owns (c : Thread nD τ) (sb4 t) fullShare ((dats m 0 c).before 4 t d))
    ∗ (∃ d, owns (c : Thread nD τ) (sb5 t) fullShare ((dats m 0 c).before 5 t d))
    ∗ (∃ d, owns (c : Thread nD τ) (sb6 t) fullShare ((dats m 0 c).before 6 t d))
    ∗ (∃ d, owns (c : Thread nD τ) (sb7 t) fullShare ((dats m 0 c).before 7 t d))
    ∗ (∃ d, owns (c : Thread nD τ) (sb8 t) fullShare ((dats m 0 c).before 8 t d))
    ∗ (∃ d, owns (c : Thread nD τ) (sb9 t) fullShare ((dats m 0 c).before 9 t d))
    ∗ (∃ d, owns (c : Thread nD τ) (sb10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8_at, before9_at]
  rw [show (dats m 0 c).owesAt () t.succ = (dats m 0 c).owesAt () t.castSucc from rfl]
  rw [show (dats m 0 c).Φ t.succ = inv m c (t.val + 1) t.isLt from rfl, inv_succ]
  have hN : t.val < 16 := lt_of_lt_of_eq t.isLt (show cfg0.N = 16 from N_0)
  rw [leavesExact_live (dats m 0 c) 0 t (live0 t), after0]
  rw [leavesExact_live (dats m 0 c) 1 t (live1 t), after1]
  rw [leavesExact_live (dats m 0 c) 2 t (live2 t), after2]
  rw [leavesExact_live (dats m 0 c) 3 t (live3 t), after3]
  rw [leavesExact_live (dats m 0 c) 4 t (live4 t), after4]
  rw [leavesExact_live (dats m 0 c) 5 t (live5 t), after5]
  rw [leavesExact_live (dats m 0 c) 6 t (live6 t), after6]
  rw [leavesExact_live (dats m 0 c) 7 t (live7 t), after7]
  by_cases h0 : t.val % 8 = 0
  · -- the first tile of a half
    have h7 : ¬ t.val % 8 = 7 := by omega
    have hf8 : (cfg0.win 8).flush t = false := by
      cases hf : (cfg0.win 8).flush t
      · rfl
      · exact absurd ((flush0_8 t).mp hf) h7
    have hf9 : (cfg0.win 9).flush t = false := by
      cases hf : (cfg0.win 9).flush t
      · rfl
      · exact absurd ((flush0_9 t).mp hf) h7
    have hl10 : cfg0.idle 10 (cfg0.grid.coords t) = false := by
      cases hc : cfg0.idle 10 (cfg0.grid.coords t)
      · rfl
      · exact absurd h0 ((idle10_iff t).mp hc)
    rw [Dat.leavesExact_idle _ 8 t ((idle8_iff t).mpr h7) hf8, Dat.leavesExact_idle _ 9 t ((idle9_iff t).mpr h7) hf9,
      leavesExact_live (dats m 0 c) 10 t hl10, after10]
    simp only [before8_at, before9_at, before10_first m c t h0]
    rw [rowsAt_first m c t h0]
    rw [show gatesAt m c = gatesBlock (X1 m c t) (X0 m c t) (X2 m c t) (X3 m c t) (X4 m c t) from rfl]
    by_cases hz : t.val = 0
    · rw [inv_castSucc m c t, inv_zero m c _ _ hz, inv_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (runFirst c (grid0.coords t) _ _ _ _ _ _ _ _ _ _ _ _ _ _ _ _ _ _ _ _ _ _ _ _ _ _ _ _ ((isFirst_iff t).mpr h0) (fun h => h7 ((isLast_iff t).mp h)) (X0 m c t) (X1 m c t) (X2 m c t) (X3 m c t) (X4 m c t) (X5 m c t) (X6 m c t) (X7 m c t) d8 d9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexact H10
    · rw [inv_castSucc m c t, inv_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (runFirst c (grid0.coords t) _ _ _ _ _ _ _ _ _ _ _ _ _ _ _ _ _ _ _ _ _ _ _ _ _ _ _ _ ((isFirst_iff t).mpr h0) (fun h => h7 ((isLast_iff t).mp h)) (X0 m c t) (X1 m c t) (X2 m c t) (X3 m c t) (X4 m c t) (X5 m c t) (X6 m c t) (X7 m c t) d8 d9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexists _; iexact HS0
      isplitl [HS1]; · iexists _; iexact HS1
      isplitl [HS2]; · iexists _; iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexact H10
  · have hz : t.val ≠ 0 := fun h => h0 (by rw [h])
    have hi10 : cfg0.idle 10 (cfg0.grid.coords t) = true := (idle10_iff t).mpr h0
    rw [rowsAt_next m c t h0]
    unfold rowsNext; dsimp only
    rw [inv_castSucc m c t, inv_pos m c _ _ hz]
    by_cases h7 : t.val % 8 = 7
    · -- the last tile of a half
      have hl8 : cfg0.idle 8 (cfg0.grid.coords t) = false := by
        cases hc : cfg0.idle 8 (cfg0.grid.coords t)
        · rfl
        · exact absurd h7 ((idle8_iff t).mp hc)
      have hl9 : cfg0.idle 9 (cfg0.grid.coords t) = false := by
        cases hc : cfg0.idle 9 (cfg0.grid.coords t)
        · rfl
        · exact absurd h7 ((idle9_iff t).mp hc)
      rw [leavesExact_live (dats m 0 c) 8 t hl8, after8, leavesExact_live (dats m 0 c) 9 t hl9, after9,
        leavesExact_flush (dats m 0 c) 10 t ((flush0_10 t).mpr h7), after10]
      rw [rowsAt_next m c t h0]
      unfold rowsNext; dsimp only
      simp only [before10_at m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩⟩
      iapply (runLast c (grid0.coords t) _ _ _ _ _ _ _ _ _ _ _ _ _ _ _ _ _ _ _ _ _ _ _ _ _ _ _ _ (fun h => h0 ((isFirst_iff t).mp h)) ((isLast_iff t).mpr h7) (X0 m c t) (X1 m c t) (X2 m c t) (X3 m c t) (X4 m c t) (X5 m c t) (X6 m c t) (X7 m c t) (gatesAt m c) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a middle tile
      have hf8 : (cfg0.win 8).flush t = false := by
        cases hf : (cfg0.win 8).flush t
        · rfl
        · exact absurd ((flush0_8 t).mp hf) h7
      have hf9 : (cfg0.win 9).flush t = false := by
        cases hf : (cfg0.win 9).flush t
        · rfl
        · exact absurd ((flush0_9 t).mp hf) h7
      have hf10 : (cfg0.win 10).flush t = false := by
        cases hf : (cfg0.win 10).flush t
        · rfl
        · exact absurd ((flush0_10 t).mp hf) h7
      rw [Dat.leavesExact_idle _ 8 t ((idle8_iff t).mpr h7) hf8, Dat.leavesExact_idle _ 9 t ((idle9_iff t).mpr h7) hf9,
        Dat.leavesExact_idle _ 10 t hi10 hf10]
      simp only [before8_at, before9_at]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runMid c (grid0.coords t) _ _ _ _ _ _ _ _ _ _ _ _ _ _ _ _ _ _ _ _ _ _ _ _ _ _ _ _ (fun h => h0 ((isFirst_iff t).mp h)) (fun h => h7 ((isLast_iff t).mp h)) (X0 m c t) (X1 m c t) (X2 m c t) (X3 m c t) (X4 m c t) (X5 m c t) (X6 m c t) (X7 m c t) d8 d9 ((dats m 0 c).before 10 t d10) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the region's own back: what the carried rows hold is forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 16 := N_0; omega), inv_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- From any memory with zero counters every weakly fair execution of @main terminates; every array of the pipeline
    ends at what the proof data computes, every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.KI.Final.lean ====
/-
  The three result arrays of the region after the run.

  A published block is written back at the last tile of a half: rows 0–7 of the array hold the first half's running
  sum after its last tile, rows 8–15 the second half's, each broadcast over the eight rows.  The gates' block is
  written back there too, holding the gates the half's first tile stored: every row of the array is the gates' row.
-/
import proofs.«163698_j23965917512359_2_alg».proof.Proof.KI.Obligation
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- A row broadcast to eight rows, read at an index. -/
theorem pay7_at (v : Vec F S1x512 .f32) (r : Fin 8) (q : Fin 512) : k0_pay7 v (ix2 r q) = v (ix2 0 q) := by
  unfold k0_pay7
  rw [broadcastTo_apply _ _ (ix2 r q) (ix2 0 q) (fun a => by match a with | ⟨0, _⟩ => rfl | ⟨1, _⟩ => rfl), shapeCast_self]
theorem pay8_at (v : Vec F S1x512 .f32) (r : Fin 8) (q : Fin 512) : k0_pay8 v (ix2 r q) = v (ix2 0 q) := by
  unfold k0_pay8
  rw [broadcastTo_apply _ _ (ix2 r q) (ix2 0 q) (fun a => by match a with | ⟨0, _⟩ => rfl | ⟨1, _⟩ => rfl), shapeCast_self]

/-- The output windows' block indices over the grid: the half, and column block 0. -/
theorem idx_out : ∀ t : Fin cfg0.N, win0_8.index t (0 : Fin 2) = t.val / 8 ∧ win0_8.index t (1 : Fin 2) = 0
    ∧ win0_9.index t (0 : Fin 2) = t.val / 8 ∧ win0_9.index t (1 : Fin 2) = 0
    ∧ win0_10.index t (0 : Fin 2) = t.val / 8 ∧ win0_10.index t (1 : Fin 2) = 0 :=
  (by decide +kernel : ∀ t : Fin grid0.N, _)

theorem mem_blk8 (t : Fin cfg0.N) (i : S16x512.Idx) :
    i ∈ ((cfg0.win 8).blk t).view.set ↔ ∀ a : Fin 2, win0_8.index t a * S8x512.size a ≤ (i a).val ∧ (i a).val < win0_8.index t a * S8x512.size a + S8x512.size a := by
  show i ∈ ((View.whole main_v7_0).slice (win0_8.rect t)).set ↔ _
  rw [View.set_slice_whole, Rect.mem_set_unit]
  exact Iff.rfl

theorem mem_blk9 (t : Fin cfg0.N) (i : S16x512.Idx) :
    i ∈ ((cfg0.win 9).blk t).view.set ↔ ∀ a : Fin 2, win0_9.index t a * S8x512.size a ≤ (i a).val ∧ (i a).val < win0_9.index t a * S8x512.size a + S8x512.size a := by
  show i ∈ ((View.whole main_v7_1).slice (win0_9.rect t)).set ↔ _
  rw [View.set_slice_whole, Rect.mem_set_unit]
  exact Iff.rfl

theorem mem_blk10 (t : Fin cfg0.N) (i : S16x1536.Idx) :
    i ∈ ((cfg0.win 10).blk t).view.set ↔ ∀ a : Fin 2, win0_10.index t a * S8x1536.size a ≤ (i a).val ∧ (i a).val < win0_10.index t a * S8x1536.size a + S8x1536.size a := by
  show i ∈ ((View.whole main_v7_2).slice (win0_10.rect t)).set ↔ _
  rw [View.set_slice_whole, Rect.mem_set_unit]
  exact Iff.rfl

theorem half_lt (i : S16x512.Idx) : 8 * ((i 0).val / 8) + 7 < cfg0.N := by
  have h : (i 0).val < 16 := (i 0).isLt
  rw [show cfg0.N = 16 from N_0]; omega

/-- The weights' sums as published: row `r` holds the running sum after the last tile of half `r / 8`. -/
def pubE (c : Dev nD) : Vec F S16x512 .f32 := fun i => (rowsAt m c (8 * ((i 0).val / 8) + 7) (half_lt i)).2.1 (ix2 0 (i 1))
/-- The weighted children's sums as published. -/
def pubW (c : Dev nD) : Vec F S16x512 .f32 := fun i => (rowsAt m c (8 * ((i 0).val / 8) + 7) (half_lt i)).2.2 (ix2 0 (i 1))
/-- The gates as published: every row the gates' row. -/
def pubG (c : Dev nD) : Vec F S16x1536 .f32 := fun i => gatesAt m c (ix2 ⟨(i 0).val % 8, Nat.mod_lt _ (by decide)⟩ (i 1))

theorem pubE_eq (c : Dev nD) (i : S16x512.Idx) (n : ℕ) (hn : n < cfg0.N) (h : 8 * ((i 0).val / 8) + 7 = n) :
    pubE m c i = (rowsAt m c n hn).2.1 (ix2 0 (i 1)) := by subst h; rfl
theorem pubW_eq (c : Dev nD) (i : S16x512.Idx) (n : ℕ) (hn : n < cfg0.N) (h : 8 * ((i 0).val / 8) + 7 = n) :
    pubW m c i = (rowsAt m c n hn).2.2 (ix2 0 (i 1)) := by subst h; rfl

/-- The published gates at an index of the array: the gates' block at the row inside its block of eight. -/
theorem pubG_apply (c : Dev nD) (i : S16x1536.Idx) (p : Fin 8) (q : Fin 1536) (h0 : (i 0).val % 8 = p.val) (h1 : (i 1).val = q.val) :
    pubG m c i = gatesAt m c (ix2 p q) := by
  unfold pubG
  refine congrArg (gatesAt m c) (funext fun a => ?_)
  match a with
  | ⟨0, _⟩ => exact Fin.ext h0
  | ⟨1, _⟩ => exact Fin.ext h1

/-- What a last tile writes back of a running sum is its block of the published array. -/
theorem flushed8_eq (c : Dev nD) (t : Fin cfg0.N) (hf : (cfg0.win 8).flush t = true) :
    (dats m 0 c).flushed 8 t = ((cfg0.win 8).blk t).view.read (Elt F) (pubE m c) := by
  have h7 : t.val % 8 = 7 := (flush0_8 t).mp hf
  show (cfg0.win 8).cut (grid0.coords t) ((dats m 0 c).after 8 t) = _
  rw [after8]
  have e := idx_out t
  funext y
  obtain ⟨p, q, rfl⟩ : ∃ (p : Fin 8) (q : Fin 512), y = ix2 p q := ⟨y 0, y 1, eq_ix2 y⟩
  show k0_pay7 (rowsAt m c t.val t.isLt).2.1 (ix2 p q) = pubE m c (((cfg0.win 8).blk t).view.emb (ix2 p q))
  have q0 : ((((cfg0.win 8).blk t).view.emb (ix2 p q)) 0).val = win0_8.index t (0 : Fin 2) * 8 + 1 * p.val := rfl
  have q1 : ((((cfg0.win 8).blk t).view.emb (ix2 p q)) 1).val = win0_8.index t (1 : Fin 2) * 512 + 1 * q.val := rfl
  rw [pay7_at, pubE_eq m c _ t.val t.isLt (by rw [q0, e.1]; omega)]
  exact congrArg _ (congrArg _ (Fin.ext (by rw [q1, e.2.1]; omega)))

theorem flushed9_eq (c : Dev nD) (t : Fin cfg0.N) (hf : (cfg0.win 9).flush t = true) :
    (dats m 0 c).flushed 9 t = ((cfg0.win 9).blk t).view.read (Elt F) (pubW m c) := by
  have h7 : t.val % 8 = 7 := (flush0_9 t).mp hf
  show (cfg0.win 9).cut (grid0.coords t) ((dats m 0 c).after 9 t) = _
  rw [after9]
  have e := idx_out t
  funext y
  obtain ⟨p, q, rfl⟩ : ∃ (p : Fin 8) (q : Fin 512), y = ix2 p q := ⟨y 0, y 1, eq_ix2 y⟩
  show k0_pay8 (rowsAt m c t.val t.isLt).2.2 (ix2 p q) = pubW m c (((cfg0.win 9).blk t).view.emb (ix2 p q))
  have q0 : ((((cfg0.win 9).blk t).view.emb (ix2 p q)) 0).val = win0_9.index t (0 : Fin 2) * 8 + 1 * p.val := rfl
  have q1 : ((((cfg0.win 9).blk t).view.emb (ix2 p q)) 1).val = win0_9.index t (1 : Fin 2) * 512 + 1 * q.val := rfl
  rw [pay8_at, pubW_eq m c _ t.val t.isLt (by rw [q0, e.2.2.1]; omega)]
  exact congrArg _ (congrArg _ (Fin.ext (by rw [q1, e.2.2.2.1]; omega)))

set_option maxHeartbeats 1000000 in
/-- What a last tile writes back of the gates' block — which it did not store into — is the gates the half's first tile
    stored, its block of the published array. -/
theorem flushed10_eq (c : Dev nD) (t : Fin cfg0.N) (hf : (cfg0.win 10).flush t = true) :
    (dats m 0 c).flushed 10 t = ((cfg0.win 10).blk t).view.read (Elt F) (pubG m c) := by
  show (cfg0.win 10).cut (grid0.coords t) ((dats m 0 c).after 10 t) = _
  rw [after10]
  have e := idx_out t
  funext y
  obtain ⟨p, q, rfl⟩ : ∃ (p : Fin 8) (q : Fin 1536), y = ix2 p q := ⟨y 0, y 1, eq_ix2 y⟩
  have q0 : ((((cfg0.win 10).blk t).view.emb (ix2 p q)) 0).val = win0_10.index t (0 : Fin 2) * 8 + 1 * p.val := rfl
  have q1 : ((((cfg0.win 10).blk t).view.emb (ix2 p q)) 1).val = win0_10.index t (1 : Fin 2) * 1536 + 1 * q.val := rfl
  exact (pubG_apply m c (((cfg0.win 10).blk t).view.emb (ix2 p q)) p q (by rw [q0, e.2.2.2.2.1]; omega) (by rw [q1, e.2.2.2.2.2]; omega)).symm

theorem cover8 : ∀ i : S16x512.Idx, ∃ t : Fin cfg0.N, (cfg0.win 8).flush t = true ∧ i ∈ ((cfg0.win 8).blk t).view.set := by
  intro i
  have hi0 : (i 0).val < 16 := (i 0).isLt
  have hi1 : (i 1).val < 512 := (i 1).isLt
  have hlt : 8 * ((i 0).val / 8) + 7 < cfg0.N := by rw [show cfg0.N = 16 from N_0]; omega
  refine ⟨⟨8 * ((i 0).val / 8) + 7, hlt⟩, (flush0_8 _).mpr (by show (8 * ((i 0).val / 8) + 7) % 8 = 7; omega), ?_⟩
  rw [mem_blk8]
  have e := idx_out ⟨8 * ((i 0).val / 8) + 7, hlt⟩
  intro a
  match a with
  | ⟨0, _⟩ =>
    show win0_8.index _ (0 : Fin 2) * 8 ≤ (i 0).val ∧ (i 0).val < win0_8.index _ (0 : Fin 2) * 8 + 8
    rw [e.1]; dsimp only; omega
  | ⟨1, _⟩ =>
    show win0_8.index _ (1 : Fin 2) * 512 ≤ (i 1).val ∧ (i 1).val < win0_8.index _ (1 : Fin 2) * 512 + 512
    rw [e.2.1]; omega

theorem cover9 : ∀ i : S16x512.Idx, ∃ t : Fin cfg0.N, (cfg0.win 9).flush t = true ∧ i ∈ ((cfg0.win 9).blk t).view.set := by
  intro i
  have hi0 : (i 0).val < 16 := (i 0).isLt
  have hi1 : (i 1).val < 512 := (i 1).isLt
  have hlt : 8 * ((i 0).val / 8) + 7 < cfg0.N := by rw [show cfg0.N = 16 from N_0]; omega
  refine ⟨⟨8 * ((i 0).val / 8) + 7, hlt⟩, (flush0_9 _).mpr (by show (8 * ((i 0).val / 8) + 7) % 8 = 7; omega), ?_⟩
  rw [mem_blk9]
  have e := idx_out ⟨8 * ((i 0).val / 8) + 7, hlt⟩
  intro a
  match a with
  | ⟨0, _⟩ =>
    show win0_9.index _ (0 : Fin 2) * 8 ≤ (i 0).val ∧ (i 0).val < win0_9.index _ (0 : Fin 2) * 8 + 8
    rw [e.2.2.1]; dsimp only; omega
  | ⟨1, _⟩ =>
    show win0_9.index _ (1 : Fin 2) * 512 ≤ (i 1).val ∧ (i 1).val < win0_9.index _ (1 : Fin 2) * 512 + 512
    rw [e.2.2.2.1]; omega

theorem cover10 : ∀ i : S16x1536.Idx, ∃ t : Fin cfg0.N, (cfg0.win 10).flush t = true ∧ i ∈ ((cfg0.win 10).blk t).view.set := by
  intro i
  have hi0 : (i 0).val < 16 := (i 0).isLt
  have hi1 : (i 1).val < 1536 := (i 1).isLt
  have hlt : 8 * ((i 0).val / 8) + 7 < cfg0.N := by rw [show cfg0.N = 16 from N_0]; omega
  refine ⟨⟨8 * ((i 0).val / 8) + 7, hlt⟩, (flush0_10 _).mpr (by show (8 * ((i 0).val / 8) + 7) % 8 = 7; omega), ?_⟩
  rw [mem_blk10]
  have e := idx_out ⟨8 * ((i 0).val / 8) + 7, hlt⟩
  intro a
  match a with
  | ⟨0, _⟩ =>
    show win0_10.index _ (0 : Fin 2) * 8 ≤ (i 0).val ∧ (i 0).val < win0_10.index _ (0 : Fin 2) * 8 + 8
    rw [e.2.2.2.2.1]; dsimp only; omega
  | ⟨1, _⟩ =>
    show win0_10.index _ (1 : Fin 2) * 1536 ≤ (i 1).val ∧ (i 1).val < win0_10.index _ (1 : Fin 2) * 1536 + 1536
    rw [e.2.2.2.2.2]; omega

/-- The three arrays after the run. -/
theorem final8 (c : Dev nD) : (dats m 0 c).arrAt 8 cfg0.N = pubE m c :=
  (dats m 0 c).arrAt_eq_of_cover 8 (pubE m c) (fun t hf => flushed8_eq m c t hf) cover8
theorem final9 (c : Dev nD) : (dats m 0 c).arrAt 9 cfg0.N = pubW m c :=
  (dats m 0 c).arrAt_eq_of_cover 9 (pubW m c) (fun t hf => flushed9_eq m c t hf) cover9
theorem final10 (c : Dev nD) : (dats m 0 c).arrAt 10 cfg0.N = pubG m c :=
  (dats m 0 c).arrAt_eq_of_cover 10 (pubG m c) (fun t hf => flushed10_eq m c t hf) cover10

end Cert.KernelIdeal.Body

end
-- ==== Proof.KI.TailDefs.lean ====
/-
  The host lines after the region, as functions of the region's three result arrays: the two halves' published sums
  are added (row 0 and row 8), the gates are read off row 0 of the gates' array, and the merged cell and the hidden
  state are formed from them.
-/
import proofs.«163698_j23965917512359_2_alg».proof.Proof.Gen.KernelIdeal

noncomputable section

namespace Cert.KernelIdeal.Body

open Cert.KernelIdeal Cert.KernelIdeal.Gen
open Idealize.ShloMosaic

variable {F : FTy → Type} [FloatOps F]

/-- The host lines after the region as one function of the three result arrays of the region: the merged cell -/
def tailC1 (E W : FVec F S16x512 .f32) (G : FVec F S16x1536 .f32) : FVec F S1x512 .f32 :=
  Host.divf
    (addf (addf (extractStridedSlice S1x512 ![0, 0] W Facts₀.slices_S16x512_S1x512_0_0) (extractStridedSlice S1x512 ![8, 0] W Facts₀.slices_S16x512_S1x512_8_0))
      (mulf (extractStridedSlice S1x512 ![0, 512] (extractStridedSlice S1x1536 ![0, 0] G Facts₀.slices_S16x1536_S1x1536_0_0) Facts₀.slices_S1x1536_S1x512_0_512)
        (Host.exp (extractStridedSlice S1x512 ![0, 0] (extractStridedSlice S1x1536 ![0, 0] G Facts₀.slices_S16x1536_S1x1536_0_0) Facts₀.slices_S1x1536_S1x512_0_0))))
    (addf (addf (addf (extractStridedSlice S1x512 ![0, 0] E Facts₀.slices_S16x512_S1x512_0_0) (extractStridedSlice S1x512 ![8, 0] E Facts₀.slices_S16x512_S1x512_8_0))
        (Host.exp (extractStridedSlice S1x512 ![0, 0] (extractStridedSlice S1x1536 ![0, 0] G Facts₀.slices_S16x1536_S1x1536_0_0) Facts₀.slices_S1x1536_S1x512_0_0)))
      (broadcastInDim S1x512 ![] Facts₀.bcast_S_S1x512 (constant S_ .f32 0x2B8CBCCC#32)))

/-- and the hidden state. -/
def tailH1 (E W : FVec F S16x512 .f32) (G : FVec F S16x1536 .f32) : FVec F S1x512 .f32 :=
  mulf (extractStridedSlice S1x512 ![0, 1024] (extractStridedSlice S1x1536 ![0, 0] G Facts₀.slices_S16x1536_S1x1536_0_0) Facts₀.slices_S1x1536_S1x512_0_1024) (Host.tanh (tailC1 E W G))

end Cert.KernelIdeal.Body

end
-- ==== Proof.Spec.lean ====
/-
  The mathematics of the certificate, over plain finite index types and the extended reals.

  One LSTM-style cell merged with 32768 child cells by a softmax-like weighting.  With row vectors `inp`, `h0`
  (length 512), the child matrix `C` (32768 × 512), weights `wih`, `whh` (512 × 1536), a bias `b` (1536) and
  the two square weights `awih`, `awhh` (512 × 512):

    gates  = (h0 · whh + b) + inp · wih,        i = σ(gates[0:512]),  o = σ(gates[512:1024]),  g = tanh(gates[1024:1536]),
    α r    = σ(inp · awih + C r · awhh),        w r = exp (α r),      wᵢ = exp i,

  and the merged cell is the weighted mean of `g` and the children with weights `wᵢ`, `w r` over their sum plus a
  small `ε`;  the hidden state is `o · tanh` of it.  The two programs arrange that mean differently:

    * `c1K` (the kernel's arrangement): the children are summed in 16 tiles of 2048 rows, 8 tiles per half, the two
      halves added, then  (Σ C·w + g·wᵢ) / ((Σ w + wᵢ) + ε);
    * `c1R` (the reference's arrangement): the 32769 rows `g, C 0, C 1, …` each multiplied by its own normalised
      weight  w / ((0 + Σ w) + ε), then summed from 0.

  `Algebra` proves them equal when every entry is a real number.
-/
import Idealize.ShloMosaic.PureOps.Ideal

noncomputable section

namespace Cert.Spec

open Idealize.ShloMosaic

variable (inp h0 : Fin 512 → EReal) (C : Fin 32768 → Fin 512 → EReal) (wih whh : Fin 512 → Fin 1536 → EReal)
  (b : Fin 1536 → EReal) (awih awhh : Fin 512 → Fin 512 → EReal)

/-- The small constant both programs add to the weights' sum (the f32 nearest 1e-12), as its exact binary value. -/
def eps : EReal := Ideal.ofBits .f32 0x2B8CBCCC#32

/-- Column `j'` of the gate pre-activations `(h0 · whh + b) + inp · wih`. -/
def gates (j' : Fin 1536) : EReal := ((∑ k : Fin 512, h0 k * whh k j') + b j') + ∑ k : Fin 512, inp k * wih k j'

/-- The three gates: columns `j`, `512 + j` and `1024 + j` of the pre-activations. -/
def iGate (j : Fin 512) : EReal := Ideal.logistic (gates inp h0 wih whh b ⟨j.val, by omega⟩)
def oGate (j : Fin 512) : EReal := Ideal.logistic (gates inp h0 wih whh b ⟨512 + j.val, by omega⟩)
def gGate (j : Fin 512) : EReal := Ideal.tanh (gates inp h0 wih whh b ⟨1024 + j.val, by omega⟩)

/-- The unnormalised weight of child row `r` at column `j`: `exp (σ (inp · awih + C r · awhh))`. -/
def wChild (r : Fin 32768) (j : Fin 512) : EReal :=
  Ideal.exp (Ideal.logistic ((∑ k : Fin 512, inp k * awih k j) + ∑ k : Fin 512, C r k * awhh k j))

/-- The unnormalised weight of the cell's own candidate: `exp i`. -/
def wOwn (j : Fin 512) : EReal := Ideal.exp (iGate inp h0 wih whh b j)

/-- Row `2048 · T + r` of the children, `T` the tile and `r` the row inside it. -/
def tileRow (T : Fin 16) (r : Fin 2048) : Fin 32768 := ⟨2048 * T.val + r.val, by omega⟩

/-- The kernel's partial sums over one half of the tiles (`p = 0`: tiles 0–7, `p = 1`: tiles 8–15). -/
def halfE (p : Fin 2) (j : Fin 512) : EReal :=
  ∑ T : Fin 8, ∑ r : Fin 2048, wChild inp C awih awhh (tileRow ⟨8 * p.val + T.val, by omega⟩ r) j
def halfW (p : Fin 2) (j : Fin 512) : EReal :=
  ∑ T : Fin 8, ∑ r : Fin 2048, C (tileRow ⟨8 * p.val + T.val, by omega⟩ r) j * wChild inp C awih awhh (tileRow ⟨8 * p.val + T.val, by omega⟩ r) j

/-- The merged cell, the kernel's arrangement. -/
def c1K (j : Fin 512) : EReal :=
  Ideal.div ((halfW inp C awih awhh 0 j + halfW inp C awih awhh 1 j) + gGate inp h0 wih whh b j * wOwn inp h0 wih whh b j)
    (((halfE inp C awih awhh 0 j + halfE inp C awih awhh 1 j) + wOwn inp h0 wih whh b j) + eps)

/-- The hidden state, the kernel's arrangement. -/
def h1K (j : Fin 512) : EReal := oGate inp h0 wih whh b j * Ideal.tanh (c1K inp h0 C wih whh b awih awhh j)

/-- The 32769 weights the reference stacks: the cell's own first, then the children's. -/
def wRow (k : Fin 32769) (j : Fin 512) : EReal :=
  if h : k.val = 0 then wOwn inp h0 wih whh b j else wChild inp C awih awhh ⟨k.val - 1, by omega⟩ j

/-- The 32769 rows the reference merges: the candidate `g` first, then the children. -/
def mRow (k : Fin 32769) (j : Fin 512) : EReal :=
  if h : k.val = 0 then gGate inp h0 wih whh b j else C ⟨k.val - 1, by omega⟩ j

/-- The reference's normaliser: the weights summed from 0, plus `ε`. -/
def denomR (j : Fin 512) : EReal := (0 + ∑ k : Fin 32769, wRow inp h0 C wih whh b awih awhh k j) + eps

/-- The merged cell, the reference's arrangement. -/
def c1R (j : Fin 512) : EReal :=
  0 + ∑ k : Fin 32769, mRow inp h0 C wih whh b k j * Ideal.div (wRow inp h0 C wih whh b awih awhh k j) (denomR inp h0 C wih whh b awih awhh j)

/-- The hidden state, the reference's arrangement. -/
def h1R (j : Fin 512) : EReal := oGate inp h0 wih whh b j * Ideal.tanh (c1R inp h0 C wih whh b awih awhh j)

end Cert.Spec

end
-- ==== Proof.KI.TailValue.lean ====
/-
  The host lines after the region, at an index, at the ideal values.

  A slice reads the source at the offset plus the index; the host's quotient, exponential and hyperbolic tangent are
  the ideal ones entry by entry; the broadcast scalar constant is the small constant of the specification.  So the
  merged cell at column j is the quotient of (the two halves' weighted sums added, plus the candidate times the
  exponential of the input gate) by (the two halves' weights added, plus that exponential, plus the small constant),
  with the input gate, the candidate and the output gate read off row 0 of the gates' array at columns j, 512 + j
  and 1024 + j; and the hidden state is the output gate times the hyperbolic tangent of the merged cell.
-/
import Idealize.ShloMosaic.Lib.ValueLayout
import Idealize.ShloMosaic.Lib.ValueIdx
import Idealize.ShloMosaic.PureOps.Ideal
import proofs.«163698_j23965917512359_2_alg».proof.Proof.KI.TailDefs
import proofs.«163698_j23965917512359_2_alg».proof.Proof.Spec

noncomputable section

namespace Cert.KernelIdeal.Body

open Cert.KernelIdeal Cert.KernelIdeal.Gen
open Idealize.ShloMosaic Idealize.ShloMosaic.ValueIdx

/-- Row 0 of the gates' array cut at column offset o: at column j it is the array at row 0, column o + j. -/
theorem gates_slice_apply (G : FVec Ideal S16x1536 .f32) (o : ℕ) (h : S1x1536.Slices ![0, o] S1x512) (j : Fin 512)
    (k : Fin 1536) (hk : k.val = o + j.val) :
    extractStridedSlice S1x512 ![0, o] (extractStridedSlice S1x1536 ![0, 0] G Facts₀.slices_S16x1536_S1x1536_0_0) h (ix2 0 j)
      = G (ix2 0 k) := by
  rw [slice2_axis1_apply o _ h 0 j k hk]
  exact slice2_axis0_apply 0 G Facts₀.slices_S16x1536_S1x1536_0_0 0 k 0 rfl

/-- The merged cell the host lines form, at column j (ci, cg : the columns j and 512 + j of the gates' array). -/
theorem tailC1_apply' (E W : FVec Ideal S16x512 .f32) (G : FVec Ideal S16x1536 .f32) (j : Fin 512)
    (ci cg : Fin 1536) (hi : ci.val = j.val) (hg : cg.val = 512 + j.val) :
    tailC1 E W G (ix2 0 j)
      = Ideal.div ((W (ix2 0 j) + W (ix2 8 j)) + G (ix2 0 cg) * Ideal.exp (G (ix2 0 ci)))
          (((E (ix2 0 j) + E (ix2 8 j)) + Ideal.exp (G (ix2 0 ci))) + Cert.Spec.eps) := by
  have hW0 : extractStridedSlice S1x512 ![0, 0] W Facts₀.slices_S16x512_S1x512_0_0 (ix2 0 j) = W (ix2 0 j) :=
    slice2_axis0_apply 0 W Facts₀.slices_S16x512_S1x512_0_0 0 j 0 rfl
  have hW8 : extractStridedSlice S1x512 ![8, 0] W Facts₀.slices_S16x512_S1x512_8_0 (ix2 0 j) = W (ix2 8 j) :=
    slice2_axis0_apply 8 W Facts₀.slices_S16x512_S1x512_8_0 0 j 8 rfl
  have hE0 : extractStridedSlice S1x512 ![0, 0] E Facts₀.slices_S16x512_S1x512_0_0 (ix2 0 j) = E (ix2 0 j) :=
    slice2_axis0_apply 0 E Facts₀.slices_S16x512_S1x512_0_0 0 j 0 rfl
  have hE8 : extractStridedSlice S1x512 ![8, 0] E Facts₀.slices_S16x512_S1x512_8_0 (ix2 0 j) = E (ix2 8 j) :=
    slice2_axis0_apply 8 E Facts₀.slices_S16x512_S1x512_8_0 0 j 8 rfl
  have hGi := gates_slice_apply G 0 Facts₀.slices_S1x1536_S1x512_0_0 j ci (by omega)
  have hGg := gates_slice_apply G 512 Facts₀.slices_S1x1536_S1x512_0_512 j cg (by omega)
  have heps : broadcastInDim S1x512 ![] Facts₀.bcast_S_S1x512 (constant (F := Ideal) S_ .f32 0x2B8CBCCC#32) (ix2 0 j)
      = Cert.Spec.eps := rfl
  unfold tailC1
  show Ideal.div
      ((extractStridedSlice S1x512 ![0, 0] W Facts₀.slices_S16x512_S1x512_0_0 (ix2 0 j)
          + extractStridedSlice S1x512 ![8, 0] W Facts₀.slices_S16x512_S1x512_8_0 (ix2 0 j))
        + extractStridedSlice S1x512 ![0, 512] (extractStridedSlice S1x1536 ![0, 0] G Facts₀.slices_S16x1536_S1x1536_0_0)
            Facts₀.slices_S1x1536_S1x512_0_512 (ix2 0 j)
          * Ideal.exp (extractStridedSlice S1x512 ![0, 0] (extractStridedSlice S1x1536 ![0, 0] G Facts₀.slices_S16x1536_S1x1536_0_0)
              Facts₀.slices_S1x1536_S1x512_0_0 (ix2 0 j)))
      (((extractStridedSlice S1x512 ![0, 0] E Facts₀.slices_S16x512_S1x512_0_0 (ix2 0 j)
            + extractStridedSlice S1x512 ![8, 0] E Facts₀.slices_S16x512_S1x512_8_0 (ix2 0 j))
          + Ideal.exp (extractStridedSlice S1x512 ![0, 0] (extractStridedSlice S1x1536 ![0, 0] G Facts₀.slices_S16x1536_S1x1536_0_0)
              Facts₀.slices_S1x1536_S1x512_0_0 (ix2 0 j)))
        + broadcastInDim S1x512 ![] Facts₀.bcast_S_S1x512 (constant (F := Ideal) S_ .f32 0x2B8CBCCC#32) (ix2 0 j)) = _
  rw [hW0, hW8, hE0, hE8, hGi, hGg, heps]

/-- The same with the two columns written out. -/
theorem tailC1_apply (E W : FVec Ideal S16x512 .f32) (G : FVec Ideal S16x1536 .f32) (j : Fin 512) :
    tailC1 E W G (ix2 0 j)
      = Ideal.div ((W (ix2 0 j) + W (ix2 8 j)) + G (ix2 0 ⟨512 + j.val, by omega⟩) * Ideal.exp (G (ix2 0 ⟨j.val, by omega⟩)))
          (((E (ix2 0 j) + E (ix2 8 j)) + Ideal.exp (G (ix2 0 ⟨j.val, by omega⟩))) + Cert.Spec.eps) :=
  tailC1_apply' E W G j ⟨j.val, by omega⟩ ⟨512 + j.val, by omega⟩ rfl rfl

/-- The hidden state the host lines form, at column j (co : the column 1024 + j of the gates' array). -/
theorem tailH1_apply' (E W : FVec Ideal S16x512 .f32) (G : FVec Ideal S16x1536 .f32) (j : Fin 512)
    (co : Fin 1536) (ho : co.val = 1024 + j.val) :
    tailH1 E W G (ix2 0 j) = G (ix2 0 co) * Ideal.tanh (tailC1 E W G (ix2 0 j)) := by
  have hGo := gates_slice_apply G 1024 Facts₀.slices_S1x1536_S1x512_0_1024 j co ho
  unfold tailH1
  show extractStridedSlice S1x512 ![0, 1024] (extractStridedSlice S1x1536 ![0, 0] G Facts₀.slices_S16x1536_S1x1536_0_0)
      Facts₀.slices_S1x1536_S1x512_0_1024 (ix2 0 j) * Ideal.tanh (tailC1 E W G (ix2 0 j)) = _
  rw [hGo]

/-- The same with the column written out. -/
theorem tailH1_apply (E W : FVec Ideal S16x512 .f32) (G : FVec Ideal S16x1536 .f32) (j : Fin 512) :
    tailH1 E W G (ix2 0 j) = G (ix2 0 ⟨1024 + j.val, by omega⟩) * Ideal.tanh (tailC1 E W G (ix2 0 j)) :=
  tailH1_apply' E W G j ⟨1024 + j.val, by omega⟩ rfl

end Cert.KernelIdeal.Body

end
-- ==== Proof.SpecArr.lean ====
/-
  The certificate's mathematics (`Spec`) read over the programs' array shapes: each argument array as the plain
  finite-index function the specification takes (a `[1, n]` array's one row, a matrix's entries, a vector's), and
  each arrangement of the result as an array of shape `[1, 512]`.
-/
import Idealize.ShloMosaic.Lib.ValueIdx
import proofs.«163698_j23965917512359_2_alg».proof.Proof.Spec

noncomputable section

namespace Cert.Spec

open Idealize.ShloMosaic Idealize.ShloMosaic.ValueIdx

/-- The one row of a `[1, n]` array. -/
def rowOf {n : Nat} (a : FVec Ideal ⟨2, ![1, n]⟩ .f32) : Fin n → EReal := fun k => a (ix2 (0 : Fin 1) k)
/-- The entries of an `[m, n]` array. -/
def matOf {m n : Nat} (a : FVec Ideal ⟨2, ![m, n]⟩ .f32) : Fin m → Fin n → EReal := fun r k => a (ix2 r k)
/-- The entries of a length-`n` vector. -/
def vecOf {n : Nat} (a : FVec Ideal ⟨1, ![n]⟩ .f32) : Fin n → EReal := fun k => a (ix1 k)

variable (a0 a2 : FVec Ideal ⟨2, ![1, 512]⟩ .f32) (a1 : FVec Ideal ⟨2, ![32768, 512]⟩ .f32)
  (a4 a5 : FVec Ideal ⟨2, ![512, 1536]⟩ .f32) (a6 : FVec Ideal ⟨1, ![1536]⟩ .f32) (a7 a8 : FVec Ideal ⟨2, ![512, 512]⟩ .f32)

/-- The merged cell as a `[1, 512]` array of the argument arrays (argument 0 the input row, 1 the children, 2 the
    previous hidden row, 4 and 5 the gate weights, 6 the bias, 7 and 8 the square weights), the kernel's arrangement. -/
def c1KArr : FVec Ideal ⟨2, ![1, 512]⟩ .f32 := fun i =>
  c1K (rowOf a0) (rowOf a2) (matOf a1) (matOf a4) (matOf a5) (vecOf a6) (matOf a7) (matOf a8) (i 1)
/-- The hidden state, the kernel's arrangement. -/
def h1KArr : FVec Ideal ⟨2, ![1, 512]⟩ .f32 := fun i =>
  h1K (rowOf a0) (rowOf a2) (matOf a1) (matOf a4) (matOf a5) (vecOf a6) (matOf a7) (matOf a8) (i 1)
/-- The merged cell, the reference's arrangement. -/
def c1RArr : FVec Ideal ⟨2, ![1, 512]⟩ .f32 := fun i =>
  c1R (rowOf a0) (rowOf a2) (matOf a1) (matOf a4) (matOf a5) (vecOf a6) (matOf a7) (matOf a8) (i 1)
/-- The hidden state, the reference's arrangement. -/
def h1RArr : FVec Ideal ⟨2, ![1, 512]⟩ .f32 := fun i =>
  h1R (rowOf a0) (rowOf a2) (matOf a1) (matOf a4) (matOf a5) (vecOf a6) (matOf a7) (matOf a8) (i 1)

end Cert.Spec

end
-- ==== Proof.KI.ValueIn.lean ====
/-
  The input blocks of the kernel, entry by entry, as the argument arrays.

  Before the region the program reshapes the bias vector to one row and rounds six arrays to the matrix unit's
  sixteen-bit format; at the exact values a rounding changes nothing, so each resident window's block — the whole of
  its array, at every grid point — is the argument array itself.  The children's window walks the 32768 rows in 16
  blocks of 2048: at point t its block is rows 2048·t … 2048·t + 2047.
-/
import proofs.«163698_j23965917512359_2_alg».proof.Proof.KI.Data
import proofs.«163698_j23965917512359_2_alg».proof.Proof.SpecArr
import Idealize.ShloMosaic.Lib.Pipeline.Value
import Idealize.ShloMosaic.Lib.ValueLayout
import Idealize.ShloMosaic.Lib.IdealHost

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (c : Dev nD)

/-! ## The resident inputs -/

/-- The array window 0 stages is argument 0 (rounded to the matrix unit's format, which changes no exact value). -/
theorem V_v1 : (V m c main_v1 : S1x512.Idx → EReal) = m ((c.tc : Thread nD τ).loc main_arg0) := by
  show StableHlo.after hostOps0 (fun b => m (c, b)) (Proc.devRef .tc main_v1) = _
  after_results
  rfl

/-- Window 0's block is the whole array at every point. -/
theorem idx0 : ∀ t : Fin cfg0.N, win0_0.index t (0 : Fin 2) = 0 ∧ win0_0.index t (1 : Fin 2) = 0 :=
  (by decide +kernel : ∀ t : Fin grid0.N, _)

/-- Window 0's block at an entry is argument 0 there. -/
theorem X0_apply (t : Fin cfg0.N) (p : Fin 1) (q : Fin 512) :
    X0 m c t (ix2 p q) = m ((c.tc : Thread nD τ).loc main_arg0) (ix2 p q) := by
  have hi : ((cfg0.win 0).blk t).view.emb (ix2 p q) = ix2 p q := by
    obtain ⟨e0, e1⟩ := idx0 t
    funext a; apply Fin.ext
    match a with
    | ⟨0, _⟩ => show win0_0.index t (0 : Fin 2) * 1 + 1 * p.val = p.val; omega
    | ⟨1, _⟩ => show win0_0.index t (1 : Fin 2) * 512 + 1 * q.val = q.val; omega
  show V m c main_v1 (((cfg0.win 0).blk t).view.emb (ix2 p q)) = _
  rw [hi]
  exact congrFun (V_v1 m c) (ix2 p q)

/-- The array window 1 stages is argument 2 (rounded to the matrix unit's format, which changes no exact value). -/
theorem V_v2 : (V m c main_v2 : S1x512.Idx → EReal) = m ((c.tc : Thread nD τ).loc main_arg2) := by
  show StableHlo.after hostOps0 (fun b => m (c, b)) (Proc.devRef .tc main_v2) = _
  after_results
  rfl

/-- Window 1's block is the whole array at every point. -/
theorem idx1 : ∀ t : Fin cfg0.N, win0_1.index t (0 : Fin 2) = 0 ∧ win0_1.index t (1 : Fin 2) = 0 :=
  (by decide +kernel : ∀ t : Fin grid0.N, _)

/-- Window 1's block at an entry is argument 2 there. -/
theorem X1_apply (t : Fin cfg0.N) (p : Fin 1) (q : Fin 512) :
    X1 m c t (ix2 p q) = m ((c.tc : Thread nD τ).loc main_arg2) (ix2 p q) := by
  have hi : ((cfg0.win 1).blk t).view.emb (ix2 p q) = ix2 p q := by
    obtain ⟨e0, e1⟩ := idx1 t
    funext a; apply Fin.ext
    match a with
    | ⟨0, _⟩ => show win0_1.index t (0 : Fin 2) * 1 + 1 * p.val = p.val; omega
    | ⟨1, _⟩ => show win0_1.index t (1 : Fin 2) * 512 + 1 * q.val = q.val; omega
  show V m c main_v2 (((cfg0.win 1).blk t).view.emb (ix2 p q)) = _
  rw [hi]
  exact congrFun (V_v2 m c) (ix2 p q)

/-- The array window 2 stages is argument 4 (rounded to the matrix unit's format, which changes no exact value). -/
theorem V_v3 : (V m c main_v3 : S512x1536.Idx → EReal) = m ((c.tc : Thread nD τ).loc main_arg4) := by
  show StableHlo.after hostOps0 (fun b => m (c, b)) (Proc.devRef .tc main_v3) = _
  after_results
  rfl

/-- Window 2's block is the whole array at every point. -/
theorem idx2 : ∀ t : Fin cfg0.N, win0_2.index t (0 : Fin 2) = 0 ∧ win0_2.index t (1 : Fin 2) = 0 :=
  (by decide +kernel : ∀ t : Fin grid0.N, _)

/-- Window 2's block at an entry is argument 4 there. -/
theorem X2_apply (t : Fin cfg0.N) (p : Fin 512) (q : Fin 1536) :
    X2 m c t (ix2 p q) = m ((c.tc : Thread nD τ).loc main_arg4) (ix2 p q) := by
  have hi : ((cfg0.win 2).blk t).view.emb (ix2 p q) = ix2 p q := by
    obtain ⟨e0, e1⟩ := idx2 t
    funext a; apply Fin.ext
    match a with
    | ⟨0, _⟩ => show win0_2.index t (0 : Fin 2) * 512 + 1 * p.val = p.val; omega
    | ⟨1, _⟩ => show win0_2.index t (1 : Fin 2) * 1536 + 1 * q.val = q.val; omega
  show V m c main_v3 (((cfg0.win 2).blk t).view.emb (ix2 p q)) = _
  rw [hi]
  exact congrFun (V_v3 m c) (ix2 p q)

/-- The array window 3 stages is argument 5 (rounded to the matrix unit's format, which changes no exact value). -/
theorem V_v4 : (V m c main_v4 : S512x1536.Idx → EReal) = m ((c.tc : Thread nD τ).loc main_arg5) := by
  show StableHlo.after hostOps0 (fun b => m (c, b)) (Proc.devRef .tc main_v4) = _
  after_results
  rfl

/-- Window 3's block is the whole array at every point. -/
theorem idx3 : ∀ t : Fin cfg0.N, win0_3.index t (0 : Fin 2) = 0 ∧ win0_3.index t (1 : Fin 2) = 0 :=
  (by decide +kernel : ∀ t : Fin grid0.N, _)

/-- Window 3's block at an entry is argument 5 there. -/
theorem X3_apply (t : Fin cfg0.N) (p : Fin 512) (q : Fin 1536) :
    X3 m c t (ix2 p q) = m ((c.tc : Thread nD τ).loc main_arg5) (ix2 p q) := by
  have hi : ((cfg0.win 3).blk t).view.emb (ix2 p q) = ix2 p q := by
    obtain ⟨e0, e1⟩ := idx3 t
    funext a; apply Fin.ext
    match a with
    | ⟨0, _⟩ => show win0_3.index t (0 : Fin 2) * 512 + 1 * p.val = p.val; omega
    | ⟨1, _⟩ => show win0_3.index t (1 : Fin 2) * 1536 + 1 * q.val = q.val; omega
  show V m c main_v4 (((cfg0.win 3).blk t).view.emb (ix2 p q)) = _
  rw [hi]
  exact congrFun (V_v4 m c) (ix2 p q)

/-- The array window 5 stages is argument 7 (rounded to the matrix unit's format, which changes no exact value). -/
theorem V_v5 : (V m c main_v5 : S512x512.Idx → EReal) = m ((c.tc : Thread nD τ).loc main_arg7) := by
  show StableHlo.after hostOps0 (fun b => m (c, b)) (Proc.devRef .tc main_v5) = _
  after_results
  rfl

/-- Window 5's block is the whole array at every point. -/
theorem idx5 : ∀ t : Fin cfg0.N, win0_5.index t (0 : Fin 2) = 0 ∧ win0_5.index t (1 : Fin 2) = 0 :=
  (by decide +kernel : ∀ t : Fin grid0.N, _)

/-- Window 5's block at an entry is argument 7 there. -/
theorem X5_apply (t : Fin cfg0.N) (p : Fin 512) (q : Fin 512) :
    X5 m c t (ix2 p q) = m ((c.tc : Thread nD τ).loc main_arg7) (ix2 p q) := by
  have hi : ((cfg0.win 5).blk t).view.emb (ix2 p q) = ix2 p q := by
    obtain ⟨e0, e1⟩ := idx5 t
    funext a; apply Fin.ext
    match a with
    | ⟨0, _⟩ => show win0_5.index t (0 : Fin 2) * 512 + 1 * p.val = p.val; omega
    | ⟨1, _⟩ => show win0_5.index t (1 : Fin 2) * 512 + 1 * q.val = q.val; omega
  show V m c main_v5 (((cfg0.win 5).blk t).view.emb (ix2 p q)) = _
  rw [hi]
  exact congrFun (V_v5 m c) (ix2 p q)

/-- The array window 6 stages is argument 8 (rounded to the matrix unit's format, which changes no exact value). -/
theorem V_v6 : (V m c main_v6 : S512x512.Idx → EReal) = m ((c.tc : Thread nD τ).loc main_arg8) := by
  show StableHlo.after hostOps0 (fun b => m (c, b)) (Proc.devRef .tc main_v6) = _
  after_results
  rfl

/-- Window 6's block is the whole array at every point. -/
theorem idx6 : ∀ t : Fin cfg0.N, win0_6.index t (0 : Fin 2) = 0 ∧ win0_6.index t (1 : Fin 2) = 0 :=
  (by decide +kernel : ∀ t : Fin grid0.N, _)

/-- Window 6's block at an entry is argument 8 there. -/
theorem X6_apply (t : Fin cfg0.N) (p : Fin 512) (q : Fin 512) :
    X6 m c t (ix2 p q) = m ((c.tc : Thread nD τ).loc main_arg8) (ix2 p q) := by
  have hi : ((cfg0.win 6).blk t).view.emb (ix2 p q) = ix2 p q := by
    obtain ⟨e0, e1⟩ := idx6 t
    funext a; apply Fin.ext
    match a with
    | ⟨0, _⟩ => show win0_6.index t (0 : Fin 2) * 512 + 1 * p.val = p.val; omega
    | ⟨1, _⟩ => show win0_6.index t (1 : Fin 2) * 512 + 1 * q.val = q.val; omega
  show V m c main_v6 (((cfg0.win 6).blk t).view.emb (ix2 p q)) = _
  rw [hi]
  exact congrFun (V_v6 m c) (ix2 p q)

/-- The array window 4 stages is the bias vector as one row. -/
theorem V_v0 : (V m c main_v0 : S1x1536.Idx → EReal)
    = shapeCast S1x1536 (m ((c.tc : Thread nD τ).loc main_arg6)) Facts₀.shapeCasts_S1536_S1x1536 := by
  show StableHlo.after hostOps0 (fun b => m (c, b)) (Proc.devRef .tc main_v0) = _
  after_results
  rfl

/-- Window 4's block is the whole row at every point. -/
theorem idx4 : ∀ t : Fin cfg0.N, win0_4.index t (0 : Fin 2) = 0 ∧ win0_4.index t (1 : Fin 2) = 0 :=
  (by decide +kernel : ∀ t : Fin grid0.N, _)

/-- Window 4's block at column q is the bias vector there. -/
theorem X4_apply (t : Fin cfg0.N) (p : Fin 1) (q : Fin 1536) :
    X4 m c t (ix2 p q) = m ((c.tc : Thread nD τ).loc main_arg6) (ix1 q) := by
  have hi : ((cfg0.win 4).blk t).view.emb (ix2 p q) = ix2 p q := by
    obtain ⟨e0, e1⟩ := idx4 t
    funext a; apply Fin.ext
    match a with
    | ⟨0, _⟩ => show win0_4.index t (0 : Fin 2) * 1 + 1 * p.val = p.val; omega
    | ⟨1, _⟩ => show win0_4.index t (1 : Fin 2) * 1536 + 1 * q.val = q.val; omega
  show V m c main_v0 (((cfg0.win 4).blk t).view.emb (ix2 p q)) = _
  rw [hi]
  exact (congrFun (V_v0 m c) (ix2 p q)).trans (shapeCast_a_1a_apply _ _ p q)

/-! ## The children's window -/

/-- Window 7's block index at point t is t itself on the rows, and 0 on the columns. -/
theorem idx7 : ∀ t : Fin cfg0.N, win0_7.index t (0 : Fin 2) = t.val ∧ win0_7.index t (1 : Fin 2) = 0 :=
  (by decide +kernel : ∀ t : Fin grid0.N, _)

/-- Window 7's block at point t, row r, is row 2048·t + r of the children. -/
theorem X7_apply (t : Fin cfg0.N) (r : Fin 2048) (k : Fin 512) :
    X7 m c t (ix2 r k) = m ((c.tc : Thread nD τ).loc main_arg1)
      (ix2 ⟨2048 * t.val + r.val, by have := t.isLt; have hN : cfg0.N = 16 := N_0; have := r.isLt; omega⟩ k) := by
  have hi : ((cfg0.win 7).blk t).view.emb (ix2 r k)
      = ix2 ⟨2048 * t.val + r.val, by have := t.isLt; have hN : cfg0.N = 16 := N_0; have := r.isLt; omega⟩ k := by
    obtain ⟨e0, e1⟩ := idx7 t
    funext a; apply Fin.ext
    match a with
    | ⟨0, _⟩ => show win0_7.index t (0 : Fin 2) * 2048 + 1 * r.val = 2048 * t.val + r.val; omega
    | ⟨1, _⟩ => show win0_7.index t (1 : Fin 2) * 512 + 1 * k.val = k.val; omega
  show V m c main_arg1 (((cfg0.win 7).blk t).view.emb (ix2 r k)) = _
  rw [hi]
  exact congrFun (V_main_arg1 m c) _

end Cert.KernelIdeal.Body

end
-- ==== Proof.KI.ValueInGates.lean ====
/-
  The gates' block of the kernel, entry by entry, as the specification's three gates.

  The first tile of a half computes the pre-activations  (h0 · whh + b) + inp · wih  as one row of 1536 columns —
  each product a matrix-unit product into a zero accumulator, at the exact values the plain sum over the 512
  contracted positions —, takes σ of columns 0–511, tanh of columns 1024–1535 and σ of columns 512–1023, broadcasts
  each to eight rows and stores the three at columns 0, 512 and 1024 of the block: the input gate, the candidate
  and the output gate, every row the same.
-/
import proofs.«163698_j23965917512359_2_alg».proof.Proof.KI.ValueIn

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## A row times a gate weight matrix, on the matrix unit -/

private theorem mmGate_lhs0 (i : S1x1536.Idx) (q : dot_S1x512_S512x1536_S1x1536_1_0_0_1_n_n.contr.Idx) :
    (dot_S1x512_S512x1536_S1x1536_1_0_0_1_n_n.lhsIdx i q 0).val = (i 0).val := by
  unfold DotDims.lhsIdx
  rw [dif_neg (show ¬(0 : Fin S1x512.rank) ∈ dot_S1x512_S512x1536_S1x1536_1_0_0_1_n_n.lhsBatch by decide),
    dif_pos (show (0 : Fin S1x512.rank) ∈ dot_S1x512_S512x1536_S1x1536_1_0_0_1_n_n.lhsNonContracting by decide)]
  rfl
private theorem mmGate_lhs1 (i : S1x1536.Idx) (q : dot_S1x512_S512x1536_S1x1536_1_0_0_1_n_n.contr.Idx) :
    (dot_S1x512_S512x1536_S1x1536_1_0_0_1_n_n.lhsIdx i q 1).val = (q ⟨0, by decide⟩).val :=
  dot_S1x512_S512x1536_S1x1536_1_0_0_1_n_n.lhsIdx_val_of_single rfl i q
private theorem mmGate_rhs0 (i : S1x1536.Idx) (q : dot_S1x512_S512x1536_S1x1536_1_0_0_1_n_n.contr.Idx) :
    (dot_S1x512_S512x1536_S1x1536_1_0_0_1_n_n.rhsIdx i q 0).val = (q ⟨0, by decide⟩).val :=
  dot_S1x512_S512x1536_S1x1536_1_0_0_1_n_n.rhsIdx_val_of_single rfl i q
private theorem mmGate_rhs1 (i : S1x1536.Idx) (q : dot_S1x512_S512x1536_S1x1536_1_0_0_1_n_n.contr.Idx) :
    (dot_S1x512_S512x1536_S1x1536_1_0_0_1_n_n.rhsIdx i q 1).val = (i 1).val := by
  unfold DotDims.rhsIdx
  rw [dif_neg (show ¬(1 : Fin S512x1536.rank) ∈ dot_S1x512_S512x1536_S1x1536_1_0_0_1_n_n.rhsBatch by decide),
    dif_pos (show (1 : Fin S512x1536.rank) ∈ dot_S1x512_S512x1536_S1x1536_1_0_0_1_n_n.rhsNonContracting by decide)]
  rfl

/-- The matrix unit's product of a row [1, 512] and a matrix [512, 1536] into a zero accumulator, at entry (p, q). -/
theorem mmGate_apply (l : FVec Ideal S1x512 .bf16) (r : FVec Ideal S512x1536 .bf16) (p : Fin 1) (q : Fin 1536) :
    matmul (F := Ideal) dot_S1x512_S512x1536_S1x1536_1_0_0_1_n_n none l r (constant S1x1536 .f32 0x00000000#32) (ix2 p q)
      = ∑ k : Fin 512, l (ix2 p k) * r (ix2 k q) := by
  simp only [matmul]
  rw [Ideal.matmul_constant_zero_apply, ← Equiv.sum_comp (contrEquiv1 dot_S1x512_S512x1536_S1x1536_1_0_0_1_n_n 512 rfl rfl).symm]
  refine Finset.sum_congr rfl fun k _ => ?_
  have hk := contrEquiv1_symm_val dot_S1x512_S512x1536_S1x1536_1_0_0_1_n_n 512 rfl rfl k
  have el : dot_S1x512_S512x1536_S1x1536_1_0_0_1_n_n.lhsIdx (ix2 p q) ((contrEquiv1 dot_S1x512_S512x1536_S1x1536_1_0_0_1_n_n 512 rfl rfl).symm k) = ix2 p k :=
    funext fun a => Fin.ext (by
      match a with
      | ⟨0, _⟩ => exact mmGate_lhs0 _ _
      | ⟨1, _⟩ => exact (mmGate_lhs1 _ _).trans hk)
  have er : dot_S1x512_S512x1536_S1x1536_1_0_0_1_n_n.rhsIdx (ix2 p q) ((contrEquiv1 dot_S1x512_S512x1536_S1x1536_1_0_0_1_n_n 512 rfl rfl).symm k) = ix2 k q :=
    funext fun a => Fin.ext (by
      match a with
      | ⟨0, _⟩ => exact (mmGate_rhs0 _ _).trans hk
      | ⟨1, _⟩ => exact mmGate_rhs1 _ _)
  rw [el, er]

/-! ## The payloads at an entry -/

/-- The pre-activation at column q, of the loaded blocks: the first row against the last matrix, plus the bias row,
    plus the second row against the first matrix. -/
def preAt (v31 v33 : FVec Ideal S1x512 .bf16) (v35 v37 : FVec Ideal S512x1536 .bf16) (v42 : FVec Ideal S1x1536 .f32) (q : Fin 1536) : EReal :=
  ((∑ k : Fin 512, v31 (ix2 0 k) * v37 (ix2 k q)) + v42 (ix2 0 q)) + ∑ k : Fin 512, v33 (ix2 0 k) * v35 (ix2 k q)

/-- The pre-activations' row as two products and the bias (the casts to the same shape are the identity). -/
theorem pay10_eq (v31 v33 : FVec Ideal S1x512 .bf16) (v35 v37 : FVec Ideal S512x1536 .bf16) (v42 : FVec Ideal S1x1536 .f32) :
    k0_pay10 (F := Ideal) v31 v33 v35 v37 v42
      = addf (addf (matmul dot_S1x512_S512x1536_S1x1536_1_0_0_1_n_n none v31 v37 (constant S1x1536 .f32 0x00000000#32)) v42)
          (matmul dot_S1x512_S512x1536_S1x1536_1_0_0_1_n_n none v33 v35 (constant S1x1536 .f32 0x00000000#32)) := by
  unfold k0_pay10 k0_pay9
  simp only [shapeCast_self]

/-- The pre-activations' row at column q. -/
theorem pay10_apply (v31 v33 : FVec Ideal S1x512 .bf16) (v35 v37 : FVec Ideal S512x1536 .bf16) (v42 : FVec Ideal S1x1536 .f32) (p : Fin 1) (q : Fin 1536) :
    k0_pay10 (F := Ideal) v31 v33 v35 v37 v42 (ix2 p q) = preAt v31 v33 v35 v37 v42 q := by
  obtain rfl : p = 0 := Subsingleton.elim _ _
  rw [pay10_eq, addf_apply, addf_apply, mmGate_apply, mmGate_apply]
  rfl

/-- Payload 11 at row r, column j: logistic of the pre-activation at column j (every row the same). -/
theorem pay11_apply (v31 v33 : FVec Ideal S1x512 .bf16) (v35 v37 : FVec Ideal S512x1536 .bf16) (v42 : FVec Ideal S1x1536 .f32) (r : Fin 8) (j : Fin 512) :
    k0_pay11 (F := Ideal) v31 v33 v35 v37 v42 (ix2 r j)
      = Ideal.logistic (preAt v31 v33 v35 v37 v42 ⟨j.val, by have := j.isLt; omega⟩) := by
  have e : k0_pay11 (F := Ideal) v31 v33 v35 v37 v42
      = broadcastTo S8x512 (logistic (extractStridedSlice S1x512 ![0, 0] (k0_pay10 (F := Ideal) v31 v33 v35 v37 v42) slices_S1x1536_o0_0_S1x512)) broadcasts_S1x512_S8x512 := by
    unfold k0_pay11
    simp only [shapeCast_self]
  rw [e, broadcastTo_1b_ab_apply]
  show Ideal.logistic (extractStridedSlice S1x512 ![0, 0] (k0_pay10 (F := Ideal) v31 v33 v35 v37 v42) slices_S1x1536_o0_0_S1x512 (ix2 0 j)) = _
  rw [extractStridedSlice_apply ![0, 0] _ slices_S1x1536_o0_0_S1x512 (ix2 0 j) (ix2 0 ⟨j.val, by have := j.isLt; omega⟩) (fun a => match a with
      | ⟨0, _⟩ => by show (0 : Nat) = 0 + 0; rfl
      | ⟨1, _⟩ => by show j.val = 0 + j.val; omega),
    pay10_apply]

/-- Payload 12 at row r, column j: tanh of the pre-activation at column 1024 + j (every row the same). -/
theorem pay12_apply (v31 v33 : FVec Ideal S1x512 .bf16) (v35 v37 : FVec Ideal S512x1536 .bf16) (v42 : FVec Ideal S1x1536 .f32) (r : Fin 8) (j : Fin 512) :
    k0_pay12 (F := Ideal) v31 v33 v35 v37 v42 (ix2 r j)
      = Ideal.tanh (preAt v31 v33 v35 v37 v42 ⟨1024 + j.val, by have := j.isLt; omega⟩) := by
  have e : k0_pay12 (F := Ideal) v31 v33 v35 v37 v42
      = broadcastTo S8x512 (tanh (extractStridedSlice S1x512 ![0, 1024] (k0_pay10 (F := Ideal) v31 v33 v35 v37 v42) slices_S1x1536_o0_1024_S1x512)) broadcasts_S1x512_S8x512 := by
    unfold k0_pay12
    simp only [shapeCast_self]
  rw [e, broadcastTo_1b_ab_apply]
  show Ideal.tanh (extractStridedSlice S1x512 ![0, 1024] (k0_pay10 (F := Ideal) v31 v33 v35 v37 v42) slices_S1x1536_o0_1024_S1x512 (ix2 0 j)) = _
  rw [extractStridedSlice_apply ![0, 1024] _ slices_S1x1536_o0_1024_S1x512 (ix2 0 j) (ix2 0 ⟨1024 + j.val, by have := j.isLt; omega⟩) (fun a => match a with
      | ⟨0, _⟩ => by show (0 : Nat) = 0 + 0; rfl
      | ⟨1, _⟩ => by show 1024 + j.val = 1024 + j.val; omega),
    pay10_apply]

/-- Payload 13 at row r, column j: logistic of the pre-activation at column 512 + j (every row the same). -/
theorem pay13_apply (v31 v33 : FVec Ideal S1x512 .bf16) (v35 v37 : FVec Ideal S512x1536 .bf16) (v42 : FVec Ideal S1x1536 .f32) (r : Fin 8) (j : Fin 512) :
    k0_pay13 (F := Ideal) v31 v33 v35 v37 v42 (ix2 r j)
      = Ideal.logistic (preAt v31 v33 v35 v37 v42 ⟨512 + j.val, by have := j.isLt; omega⟩) := by
  have e : k0_pay13 (F := Ideal) v31 v33 v35 v37 v42
      = broadcastTo S8x512 (logistic (extractStridedSlice S1x512 ![0, 512] (k0_pay10 (F := Ideal) v31 v33 v35 v37 v42) slices_S1x1536_o0_512_S1x512)) broadcasts_S1x512_S8x512 := by
    unfold k0_pay13
    simp only [shapeCast_self]
  rw [e, broadcastTo_1b_ab_apply]
  show Ideal.logistic (extractStridedSlice S1x512 ![0, 512] (k0_pay10 (F := Ideal) v31 v33 v35 v37 v42) slices_S1x1536_o0_512_S1x512 (ix2 0 j)) = _
  rw [extractStridedSlice_apply ![0, 512] _ slices_S1x1536_o0_512_S1x512 (ix2 0 j) (ix2 0 ⟨512 + j.val, by have := j.isLt; omega⟩) (fun a => match a with
      | ⟨0, _⟩ => by show (0 : Nat) = 0 + 0; rfl
      | ⟨1, _⟩ => by show 512 + j.val = 512 + j.val; omega),
    pay10_apply]

/-! ## The block of three pieces at an entry -/

/-- Column j of the piece stored at column offset `off` is column off + j of the block. -/
private theorem emb_piece (off : Nat) (inb : ∀ a, (![0, off] : Fin 2 → Nat) a + S8x512.size a ≤ S8x1536.size a)
    (r : Fin 8) (j : Fin 512) (col : Nat) (hc : col = off + j.val) (hcol : col < 1536) :
    (Rect.unit (s := S8x1536) ![0, off] S8x512.size inb).emb (ix2 r j) = ix2 r ⟨col, hcol⟩ := by
  funext a; apply Fin.ext
  match a with
  | ⟨0, _⟩ => show 0 + 1 * r.val = r.val; omega
  | ⟨1, _⟩ => show off + 1 * j.val = col; omega

/-- An entry left of column `off` is outside the piece stored at column offset `off`. -/
private theorem not_mem_piece (off : Nat) (inb : ∀ a, (![0, off] : Fin 2 → Nat) a + S8x512.size a ≤ S8x1536.size a)
    (r : Fin 8) (col : Nat) (hcol : col < 1536) (hlt : col < off) :
    ix2 r (⟨col, hcol⟩ : Fin 1536) ∉ (Rect.unit (s := S8x1536) ![0, off] S8x512.size inb).set :=
  mt Rect.mem_set_unit.mp fun h => by
    have h1 : off ≤ col := (h 1).1
    omega

/-- Off the last piece's rectangle, the block is what the earlier pieces leave. -/
private theorem canon_skip {S : Shape} (R : Rect S) (w : R.shape.Idx → EReal) (L : List (View.Piece (Elt Ideal) S .f32)) (y : S.Idx)
    (h : y ∉ R.set) : View.canon (⟨R, w⟩ :: L) y = View.canon L y :=
  View.canon_cons_of_not_mem ⟨R, w⟩ L h

/-- Columns 1024–1535 of the block hold σ of the pre-activations' columns 512–1023. -/
theorem gatesBlock_o (v31 v33 : FVec Ideal S1x512 .bf16) (v35 v37 : FVec Ideal S512x1536 .bf16) (v42 : FVec Ideal S1x1536 .f32) (r : Fin 8) (j : Fin 512) :
    gatesBlock (F := Ideal) v31 v33 v35 v37 v42 (ix2 r ⟨1024 + j.val, by have := j.isLt; omega⟩)
      = Ideal.logistic (preAt v31 v33 v35 v37 v42 ⟨512 + j.val, by have := j.isLt; omega⟩) := by
  unfold gatesBlock
  rw [← emb_piece 1024 Facts₀.inb_S8x1536_S8x512_0_1024 r j (1024 + j.val) rfl (by have := j.isLt; omega)]
  unfold gatesPieces
  rw [View.canon_cons_emb]
  exact pay13_apply v31 v33 v35 v37 v42 r j

/-- Columns 512–1023 of the block hold tanh of the pre-activations' columns 1024–1535. -/
theorem gatesBlock_g (v31 v33 : FVec Ideal S1x512 .bf16) (v35 v37 : FVec Ideal S512x1536 .bf16) (v42 : FVec Ideal S1x1536 .f32) (r : Fin 8) (j : Fin 512) :
    gatesBlock (F := Ideal) v31 v33 v35 v37 v42 (ix2 r ⟨512 + j.val, by have := j.isLt; omega⟩)
      = Ideal.tanh (preAt v31 v33 v35 v37 v42 ⟨1024 + j.val, by have := j.isLt; omega⟩) := by
  unfold gatesBlock gatesPieces
  rw [canon_skip _ _ _ _ (not_mem_piece 1024 Facts₀.inb_S8x1536_S8x512_0_1024 r (512 + j.val) _ (by have := j.isLt; omega)),
    ← emb_piece 512 Facts₀.inb_S8x1536_S8x512_0_512 r j (512 + j.val) rfl (by have := j.isLt; omega),
    View.canon_cons_emb]
  exact pay12_apply v31 v33 v35 v37 v42 r j

/-- Columns 0–511 of the block hold σ of the pre-activations' columns 0–511. -/
theorem gatesBlock_i (v31 v33 : FVec Ideal S1x512 .bf16) (v35 v37 : FVec Ideal S512x1536 .bf16) (v42 : FVec Ideal S1x1536 .f32) (r : Fin 8) (j : Fin 512) :
    gatesBlock (F := Ideal) v31 v33 v35 v37 v42 (ix2 r ⟨j.val, by have := j.isLt; omega⟩)
      = Ideal.logistic (preAt v31 v33 v35 v37 v42 ⟨j.val, by have := j.isLt; omega⟩) := by
  unfold gatesBlock gatesPieces
  rw [canon_skip _ _ _ _ (not_mem_piece 1024 Facts₀.inb_S8x1536_S8x512_0_1024 r j.val _ (by have := j.isLt; omega)),
    canon_skip _ _ _ _ (not_mem_piece 512 Facts₀.inb_S8x1536_S8x512_0_512 r j.val _ (by have := j.isLt; omega)),
    ← emb_piece 0 Facts₀.inb_S8x1536_S8x512_0_0 r j j.val (by omega) (by have := j.isLt; omega),
    View.canon_cons_emb]
  exact pay11_apply v31 v33 v35 v37 v42 r j

/-! ## The gates' block of the resident inputs -/

variable (m : (ℓ : Loc nD τ sig) → Buf (Elt Ideal) ℓ) (c : Dev nD)

/-- The pre-activation of the resident blocks is the specification's, of the argument arrays. -/
theorem preAt_blocks (q : Fin 1536) :
    preAt (X1 m c p0) (X0 m c p0) (X2 m c p0) (X3 m c p0) (X4 m c p0) q
      = Cert.Spec.gates (Cert.Spec.rowOf (m ((c.tc : Thread nD τ).loc main_arg0))) (Cert.Spec.rowOf (m ((c.tc : Thread nD τ).loc main_arg2))) (Cert.Spec.matOf (m ((c.tc : Thread nD τ).loc main_arg4))) (Cert.Spec.matOf (m ((c.tc : Thread nD τ).loc main_arg5))) (Cert.Spec.vecOf (m ((c.tc : Thread nD τ).loc main_arg6))) q := by
  unfold preAt Cert.Spec.gates
  simp only [X0_apply, X1_apply, X2_apply, X3_apply, X4_apply]
  rfl

/-- Columns 0–511 of the gates' block: the input gate. -/
theorem gatesAt_i (r : Fin 8) (j : Fin 512) :
    gatesAt m c (ix2 r ⟨j.val, by have := j.isLt; omega⟩)
      = Cert.Spec.iGate (Cert.Spec.rowOf (m ((c.tc : Thread nD τ).loc main_arg0))) (Cert.Spec.rowOf (m ((c.tc : Thread nD τ).loc main_arg2))) (Cert.Spec.matOf (m ((c.tc : Thread nD τ).loc main_arg4))) (Cert.Spec.matOf (m ((c.tc : Thread nD τ).loc main_arg5))) (Cert.Spec.vecOf (m ((c.tc : Thread nD τ).loc main_arg6))) j := by
  unfold Cert.Spec.iGate
  rw [← preAt_blocks]
  exact gatesBlock_i _ _ _ _ _ r j

/-- Columns 512–1023 of the gates' block: the candidate. -/
theorem gatesAt_g (r : Fin 8) (j : Fin 512) :
    gatesAt m c (ix2 r ⟨512 + j.val, by have := j.isLt; omega⟩)
      = Cert.Spec.gGate (Cert.Spec.rowOf (m ((c.tc : Thread nD τ).loc main_arg0))) (Cert.Spec.rowOf (m ((c.tc : Thread nD τ).loc main_arg2))) (Cert.Spec.matOf (m ((c.tc : Thread nD τ).loc main_arg4))) (Cert.Spec.matOf (m ((c.tc : Thread nD τ).loc main_arg5))) (Cert.Spec.vecOf (m ((c.tc : Thread nD τ).loc main_arg6))) j := by
  unfold Cert.Spec.gGate
  rw [← preAt_blocks]
  exact gatesBlock_g _ _ _ _ _ r j

/-- Columns 1024–1535 of the gates' block: the output gate. -/
theorem gatesAt_o (r : Fin 8) (j : Fin 512) :
    gatesAt m c (ix2 r ⟨1024 + j.val, by have := j.isLt; omega⟩)
      = Cert.Spec.oGate (Cert.Spec.rowOf (m ((c.tc : Thread nD τ).loc main_arg0))) (Cert.Spec.rowOf (m ((c.tc : Thread nD τ).loc main_arg2))) (Cert.Spec.matOf (m ((c.tc : Thread nD τ).loc main_arg4))) (Cert.Spec.matOf (m ((c.tc : Thread nD τ).loc main_arg5))) (Cert.Spec.vecOf (m ((c.tc : Thread nD τ).loc main_arg6))) j := by
  unfold Cert.Spec.oGate
  rw [← preAt_blocks]
  exact gatesBlock_o _ _ _ _ _ r j

end Cert.KernelIdeal.Body

end
-- ==== Proof.KI.ValueAccPay.lean ====
/-
  The kernel body's values at an index, at the ideal values.

  A narrowing of the format and a shape cast to the same shape are the identity on extended reals; a product of
  matrices into a zero accumulator is, at an index, the sum over the contracted coordinate of the products of the
  entries; a column sum from the literal zero is the sum over the rows; a row broadcast over several rows reads the
  row.  So the projection row is x0 · x5, a tile adds to the weights' row, at column j, the sum over its 2048 rows
  of exp (σ (a j + (x7 · x6) r j)), and to the weighted row the same sum with each term multiplied by x7 r j.
-/
import Idealize.ShloMosaic.Lib.ValueLayout
import Idealize.ShloMosaic.Lib.ValueIdx
import Idealize.ShloMosaic.PureOps.Ideal.Laws
import proofs.«163698_j23965917512359_2_alg».proof.Proof.Gen.KernelIdeal.Skeleton

noncomputable section

namespace Cert.KernelIdeal.Body

open Cert.KernelIdeal Cert.KernelIdeal.Gen
open Idealize.ShloMosaic Idealize.ShloMosaic.ValueIdx

/-! ### The two products of matrices at an index -/

/-- A [2048, 512] by [512, 512] product into a zero accumulator, at row r and column j. -/
theorem matmul_tile_apply (x : FVec Ideal S2048x512 .bf16) (y : FVec Ideal S512x512 .bf16) (r : Fin 2048) (j : Fin 512) :
    matmul dot_S2048x512_S512x512_S2048x512_1_0_0_1_n_n none x y (constant (F := Ideal) S2048x512 .f32 0x00000000#32) (ix2 r j)
      = ∑ k : Fin 512, x (ix2 r k) * y (ix2 k j) := by
  show FloatOps.matmul _ none x y (constant (F := Ideal) S2048x512 .f32 0x00000000#32) (ix2 r j) = _
  rw [Ideal.matmul_constant_zero_apply,
    ← Equiv.sum_comp (contrEquiv1 dot_S2048x512_S512x512_S2048x512_1_0_0_1_n_n 512 rfl rfl).symm]
  refine Finset.sum_congr rfl fun c _ => ?_
  have c2 := contrEquiv1_symm_val dot_S2048x512_S512x512_S2048x512_1_0_0_1_n_n 512 rfl rfl c
  have l2 : dot_S2048x512_S512x512_S2048x512_1_0_0_1_n_n.lhsIdx (ix2 r j) ((contrEquiv1 _ 512 rfl rfl).symm c) = ix2 r c := by
    funext ax; apply Fin.ext
    match ax with
    | ⟨0, _⟩ => simp [DotDims.lhsIdx, dot_S2048x512_S512x512_S2048x512_1_0_0_1_n_n]; rfl
    | ⟨1, _⟩ => simp [DotDims.lhsIdx, dot_S2048x512_S512x512_S2048x512_1_0_0_1_n_n]; exact c2
  have r2 : dot_S2048x512_S512x512_S2048x512_1_0_0_1_n_n.rhsIdx (ix2 r j) ((contrEquiv1 _ 512 rfl rfl).symm c) = ix2 c j := by
    funext ax; apply Fin.ext
    match ax with
    | ⟨0, _⟩ => simp [DotDims.rhsIdx, dot_S2048x512_S512x512_S2048x512_1_0_0_1_n_n]; exact c2
    | ⟨1, _⟩ => simp [DotDims.rhsIdx, dot_S2048x512_S512x512_S2048x512_1_0_0_1_n_n]; rfl
  rw [l2, r2]

/-- A [1, 512] by [512, 512] product into a zero accumulator, at column j. -/
theorem matmul_row_apply (x : FVec Ideal S1x512 .bf16) (y : FVec Ideal S512x512 .bf16) (u : Fin 1) (j : Fin 512) :
    matmul dot_S1x512_S512x512_S1x512_1_0_0_1_n_n none x y (constant (F := Ideal) S1x512 .f32 0x00000000#32) (ix2 u j)
      = ∑ k : Fin 512, x (ix2 u k) * y (ix2 k j) := by
  show FloatOps.matmul _ none x y (constant (F := Ideal) S1x512 .f32 0x00000000#32) (ix2 u j) = _
  rw [Ideal.matmul_constant_zero_apply,
    ← Equiv.sum_comp (contrEquiv1 dot_S1x512_S512x512_S1x512_1_0_0_1_n_n 512 rfl rfl).symm]
  refine Finset.sum_congr rfl fun c _ => ?_
  have c2 := contrEquiv1_symm_val dot_S1x512_S512x512_S1x512_1_0_0_1_n_n 512 rfl rfl c
  have l2 : dot_S1x512_S512x512_S1x512_1_0_0_1_n_n.lhsIdx (ix2 u j) ((contrEquiv1 _ 512 rfl rfl).symm c) = ix2 u c := by
    funext ax; apply Fin.ext
    match ax with
    | ⟨0, _⟩ => simp [DotDims.lhsIdx, dot_S1x512_S512x512_S1x512_1_0_0_1_n_n] <;> rfl
    | ⟨1, _⟩ => simp [DotDims.lhsIdx, dot_S1x512_S512x512_S1x512_1_0_0_1_n_n] <;> exact c2
  have r2 : dot_S1x512_S512x512_S1x512_1_0_0_1_n_n.rhsIdx (ix2 u j) ((contrEquiv1 _ 512 rfl rfl).symm c) = ix2 c j := by
    funext ax; apply Fin.ext
    match ax with
    | ⟨0, _⟩ => simp [DotDims.rhsIdx, dot_S1x512_S512x512_S1x512_1_0_0_1_n_n] <;> exact c2
    | ⟨1, _⟩ => simp [DotDims.rhsIdx, dot_S1x512_S512x512_S1x512_1_0_0_1_n_n] <;> rfl
  rw [l2, r2]

/-! ### The column sum at an index -/

/-- The sum over the rows of a [2048, 512] array from the literal zero, cast to [1, 512], at column j. -/
theorem colsum_apply (v : FVec Ideal S2048x512 .f32) (j : Fin 512) :
    shapeCast S1x512 (multiReduction .add [0] S512 v 0x00000000#32 reduces_S2048x512_S512 (.inl rfl) rfl)
      shapeCasts_S512_S1x512 (ix2 (0 : Fin 1) j) = ∑ r : Fin 2048, v (ix2 r j) := by
  rw [shapeCast_a_1a_apply]
  refine (Ideal.multiReduction_add_single v 0x00000000#32 reduces_S2048x512_S512 (.inl rfl) rfl (ix1 j)).trans ?_
  refine Finset.sum_congr rfl fun r _ => congrArg v ?_
  funext ax
  match ax with
  | ⟨0, _⟩ => rfl
  | ⟨1, _⟩ => rfl

/-! ### The payloads at an index -/

/-- The exponential of the logistic value of the projection plus the tile's product, at row r and column j. -/
theorem pay4_apply (x7 : Vec Ideal S2048x512 .f32) (x6 : Vec Ideal S512x512 .bf16) (a : Vec Ideal S1x512 .f32)
    (r : Fin 2048) (j : Fin 512) :
    k0_pay4 x7 x6 a (ix2 r j)
      = Ideal.exp (Ideal.logistic (a (ix2 0 j) + ∑ k : Fin 512, x7 (ix2 r k) * x6 (ix2 k j))) := by
  unfold k0_pay4
  show Ideal.exp (Ideal.logistic (broadcastTo S2048x512 a broadcasts_S1x512_S2048x512 (ix2 r j)
    + matmul dot_S2048x512_S512x512_S2048x512_1_0_0_1_n_n none (truncf .bf16 x7 bitsLt_bf16_f32)
        (shapeCast S512x512 x6 shapeCasts_S512x512_S512x512) (constant (F := Ideal) S2048x512 .f32 0x00000000#32) (ix2 r j))) = _
  rw [broadcastTo_1b_ab_apply, shapeCast_self, matmul_tile_apply]
  rfl

/-- The projection row: the input row times the first square weight. -/
theorem pay1_pay14_apply (x0 : Vec Ideal S1x512 .bf16) (x5 : Vec Ideal S512x512 .bf16) (j : Fin 512) :
    k0_pay1 (k0_pay14 x0 x5) (ix2 0 j) = ∑ k : Fin 512, x0 (ix2 0 k) * x5 (ix2 k j) := by
  unfold k0_pay1 k0_pay14 k0_pay9
  show shapeCast S1x512 (matmul dot_S1x512_S512x512_S1x512_1_0_0_1_n_n none
      (shapeCast S1x512 x0 shapeCasts_S1x512_S1x512) (shapeCast S512x512 x5 shapeCasts_S512x512_S512x512)
      (constant (F := Ideal) S1x512 .f32 0x00000000#32)) shapeCasts_S1x512_S1x512 (ix2 0 j) = _
  rw [shapeCast_self, shapeCast_self, shapeCast_self, matmul_row_apply]

/-- The weights' row starts from zero, -/
theorem pay2_apply (j : Fin 512) : k0_pay2 (F := Ideal) (ix2 0 j) = 0 := by
  unfold k0_pay2
  show shapeCast S1x512 (broadcast S1x512 (Ideal.ofBits .f32 0x00000000#32)) shapeCasts_S1x512_S1x512 (ix2 0 j) = 0
  rw [shapeCast_self, broadcast_apply, Ideal.ofBits_zero_f32]

/-- and so does the weighted row. -/
theorem pay3_apply (j : Fin 512) : k0_pay3 (F := Ideal) (ix2 0 j) = 0 := by
  unfold k0_pay3
  show shapeCast S1x512 (broadcast S1x512 (Ideal.ofBits .f32 0x00000000#32)) shapeCasts_S1x512_S1x512 (ix2 0 j) = 0
  rw [shapeCast_self, broadcast_apply, Ideal.ofBits_zero_f32]

/-- A tile adds to the weights' row the sum of its rows' weights. -/
theorem pay5_apply (x7 : Vec Ideal S2048x512 .f32) (x6 : Vec Ideal S512x512 .bf16) (a e : Vec Ideal S1x512 .f32) (j : Fin 512) :
    k0_pay5 x7 x6 a e (ix2 0 j)
      = e (ix2 0 j) + ∑ r : Fin 2048, Ideal.exp (Ideal.logistic (a (ix2 0 j) + ∑ k : Fin 512, x7 (ix2 r k) * x6 (ix2 k j))) := by
  unfold k0_pay5
  show shapeCast S1x512 (addf e (shapeCast S1x512
      (multiReduction .add [0] S512 (k0_pay4 x7 x6 a) 0x00000000#32 reduces_S2048x512_S512 (.inl rfl) rfl)
      shapeCasts_S512_S1x512)) shapeCasts_S1x512_S1x512 (ix2 0 j) = _
  rw [shapeCast_self, addf_apply, colsum_apply]
  exact congrArg (e (ix2 0 j) + ·) (Finset.sum_congr rfl fun r _ => pay4_apply x7 x6 a r j)

/-- A tile adds to the weighted row the sum of its rows' entries times their weights. -/
theorem pay6_apply (x7 : Vec Ideal S2048x512 .f32) (x6 : Vec Ideal S512x512 .bf16) (a w : Vec Ideal S1x512 .f32) (j : Fin 512) :
    k0_pay6 x7 x6 a w (ix2 0 j)
      = w (ix2 0 j) + ∑ r : Fin 2048,
          x7 (ix2 r j) * Ideal.exp (Ideal.logistic (a (ix2 0 j) + ∑ k : Fin 512, x7 (ix2 r k) * x6 (ix2 k j))) := by
  unfold k0_pay6
  show shapeCast S1x512 (addf w (shapeCast S1x512
      (multiReduction .add [0] S512 (mulf x7 (k0_pay4 x7 x6 a)) 0x00000000#32 reduces_S2048x512_S512 (.inl rfl) rfl)
      shapeCasts_S512_S1x512)) shapeCasts_S1x512_S1x512 (ix2 0 j) = _
  rw [shapeCast_self, addf_apply, colsum_apply]
  refine congrArg (w (ix2 0 j) + ·) (Finset.sum_congr rfl fun r _ => ?_)
  rw [mulf_apply, pay4_apply]

/-- A published block repeats the row over its eight rows. -/
theorem pay7_apply (v : Vec Ideal S1x512 .f32) (r : Fin 8) (j : Fin 512) : k0_pay7 v (ix2 r j) = v (ix2 0 j) := by
  unfold k0_pay7
  show broadcastTo S8x512 (shapeCast S1x512 v shapeCasts_S1x512_S1x512) broadcasts_S1x512_S8x512 (ix2 r j) = _
  rw [shapeCast_self, broadcastTo_1b_ab_apply]

theorem pay8_apply (v : Vec Ideal S1x512 .f32) (r : Fin 8) (j : Fin 512) : k0_pay8 v (ix2 r j) = v (ix2 0 j) := by
  unfold k0_pay8
  show broadcastTo S8x512 (shapeCast S1x512 v shapeCasts_S1x512_S1x512) broadcasts_S1x512_S8x512 (ix2 r j) = _
  rw [shapeCast_self, broadcastTo_1b_ab_apply]

end Cert.KernelIdeal.Body

end
-- ==== Proof.KI.ValueAcc.lean ====
/-
  The kernel's accumulation over a half of the grid.

  At the first tile of a half the three carried rows are the projection of the input row, and the tile's two sums on
  top of zero; every later tile keeps the projection and adds its own two sums.  So after tile i of a half the
  weights' row is the sum over tiles 0 … i of the half of the tile's weights, and likewise the weighted row: by
  induction on i, using only that addition is associative and 0 + x = x.  After the eighth tile these are the
  specification's half sums.
-/
import proofs.«163698_j23965917512359_2_alg».proof.Proof.KI.Data
import proofs.«163698_j23965917512359_2_alg».proof.Proof.KI.ValueAccPay
import proofs.«163698_j23965917512359_2_alg».proof.Proof.SpecArr

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ### One tile's step, over variables -/

/-- The first tile of a half: the projection, and the tile's two sums. -/
theorem rowsFirst_apply (x0 : Vec Ideal S1x512 .bf16) (x5 x6 : Vec Ideal S512x512 .bf16) (x7 : Vec Ideal S2048x512 .f32)
    (inp : Fin 512 → EReal) (awih awhh : Fin 512 → Fin 512 → EReal) (Ct : Fin 2048 → Fin 512 → EReal)
    (h0 : ∀ k, x0 (ix2 0 k) = inp k) (h5 : ∀ k j, x5 (ix2 k j) = awih k j) (h6 : ∀ k j, x6 (ix2 k j) = awhh k j)
    (h7 : ∀ r k, x7 (ix2 r k) = Ct r k) (j : Fin 512) :
    (rowsFirst x0 x5 x6 x7).1 (ix2 0 j) = ∑ k, inp k * awih k j ∧
    (rowsFirst x0 x5 x6 x7).2.1 (ix2 0 j)
      = ∑ r : Fin 2048, Ideal.exp (Ideal.logistic ((∑ k, inp k * awih k j) + ∑ k, Ct r k * awhh k j)) ∧
    (rowsFirst x0 x5 x6 x7).2.2 (ix2 0 j)
      = ∑ r : Fin 2048, Ct r j * Ideal.exp (Ideal.logistic ((∑ k, inp k * awih k j) + ∑ k, Ct r k * awhh k j)) := by
  have hp : k0_pay1 (k0_pay14 x0 x5) (ix2 0 j) = ∑ k, inp k * awih k j := by
    rw [pay1_pay14_apply]
    exact Finset.sum_congr rfl fun k _ => by rw [h0, h5]
  refine ⟨hp, ?_, ?_⟩
  · show k0_pay5 x7 x6 (k0_pay1 (k0_pay14 x0 x5)) (k0_pay2 (F := Ideal)) (ix2 0 j) = _
    rw [pay5_apply, pay2_apply, zero_add, hp]
    exact Finset.sum_congr rfl fun r _ => by simp only [h7, h6]
  · show k0_pay6 x7 x6 (k0_pay1 (k0_pay14 x0 x5)) (k0_pay3 (F := Ideal)) (ix2 0 j) = _
    rw [pay6_apply, pay3_apply, zero_add, hp]
    exact Finset.sum_congr rfl fun r _ => by simp only [h7, h6]

/-- A later tile: the projection stays, and the tile's two sums come on top of what the tile before left. -/
theorem rowsNext_apply (x6 : Vec Ideal S512x512 .bf16) (x7 : Vec Ideal S2048x512 .f32) (P : Rows Ideal)
    (awhh : Fin 512 → Fin 512 → EReal) (Ct : Fin 2048 → Fin 512 → EReal)
    (h6 : ∀ k j, x6 (ix2 k j) = awhh k j) (h7 : ∀ r k, x7 (ix2 r k) = Ct r k) (j : Fin 512) :
    (rowsNext x6 x7 P).1 = P.1 ∧
    (rowsNext x6 x7 P).2.1 (ix2 0 j)
      = P.2.1 (ix2 0 j) + ∑ r : Fin 2048, Ideal.exp (Ideal.logistic (P.1 (ix2 0 j) + ∑ k, Ct r k * awhh k j)) ∧
    (rowsNext x6 x7 P).2.2 (ix2 0 j)
      = P.2.2 (ix2 0 j) + ∑ r : Fin 2048, Ct r j * Ideal.exp (Ideal.logistic (P.1 (ix2 0 j) + ∑ k, Ct r k * awhh k j)) := by
  refine ⟨rfl, ?_, ?_⟩
  · show k0_pay5 x7 x6 P.1 P.2.1 (ix2 0 j) = _
    rw [pay5_apply]
    exact congrArg (P.2.1 (ix2 0 j) + ·) (Finset.sum_congr rfl fun r _ => by simp only [h7, h6])
  · show k0_pay6 x7 x6 P.1 P.2.2 (ix2 0 j) = _
    rw [pay6_apply]
    exact congrArg (P.2.2 (ix2 0 j) + ·) (Finset.sum_congr rfl fun r _ => by simp only [h7, h6])

/-! ### The fold over the tiles of a half -/

section Fold

variable (m : (ℓ : Loc nD τ sig) → Buf (Elt Ideal) ℓ) (c : Dev nD)
  (a0 : FVec Ideal ⟨2, ![1, 512]⟩ .f32) (a1 : FVec Ideal ⟨2, ![32768, 512]⟩ .f32) (a7 a8 : FVec Ideal ⟨2, ![512, 512]⟩ .f32)

/-- The sum of the weights of tile T's 2048 rows, at column j (zero past the sixteen tiles). -/
def tileE (T : ℕ) (j : Fin 512) : EReal :=
  if hT : T < 16 then
    ∑ r : Fin 2048, Spec.wChild (Spec.rowOf a0) (Spec.matOf a1) (Spec.matOf a7) (Spec.matOf a8) (Spec.tileRow ⟨T, hT⟩ r) j
  else 0

/-- The sum of tile T's 2048 rows' entries times their weights, at column j (zero past the sixteen tiles). -/
def tileW (T : ℕ) (j : Fin 512) : EReal :=
  if hT : T < 16 then
    ∑ r : Fin 2048, Spec.matOf a1 (Spec.tileRow ⟨T, hT⟩ r) j
      * Spec.wChild (Spec.rowOf a0) (Spec.matOf a1) (Spec.matOf a7) (Spec.matOf a8) (Spec.tileRow ⟨T, hT⟩ r) j
  else 0

variable (hX0 : ∀ (t : Fin cfg0.N) (k : Fin 512), X0 m c t (ix2 0 k) = a0 (ix2 0 k))
  (hX5 : ∀ (t : Fin cfg0.N) (k j : Fin 512), X5 m c t (ix2 k j) = a7 (ix2 k j))
  (hX6 : ∀ (t : Fin cfg0.N) (k j : Fin 512), X6 m c t (ix2 k j) = a8 (ix2 k j))
  (hX7 : ∀ (t : Fin cfg0.N) (r : Fin 2048) (k : Fin 512) (hb : 2048 * t.val + r.val < 32768),
    X7 m c t (ix2 r k) = a1 (ix2 ⟨2048 * t.val + r.val, hb⟩ k))

include hX0 hX5 hX6 hX7

/-- After tile i of half p: the projection, and the two sums over tiles 0 … i of the half. -/
theorem rows_inv (p : Fin 2) (j : Fin 512) :
    ∀ (i : ℕ) (hi : i < 8) (h : 8 * p.val + i < cfg0.N),
      (rowsAt m c (8 * p.val + i) h).1 (ix2 0 j) = ∑ k, Spec.rowOf a0 k * Spec.matOf a7 k j ∧
      (rowsAt m c (8 * p.val + i) h).2.1 (ix2 0 j) = ∑ T ∈ Finset.range (i + 1), tileE a0 a1 a7 a8 (8 * p.val + T) j ∧
      (rowsAt m c (8 * p.val + i) h).2.2 (ix2 0 j) = ∑ T ∈ Finset.range (i + 1), tileW a0 a1 a7 a8 (8 * p.val + T) j := by
  intro i
  induction i with
  | zero =>
    intro hi h
    have hb : 8 * p.val + 0 < 16 := by omega
    have e : rowsAt m c (8 * p.val + 0) h
        = rowsFirst (X0 m c ⟨8 * p.val + 0, h⟩) (X5 m c ⟨8 * p.val + 0, h⟩) (X6 m c ⟨8 * p.val + 0, h⟩) (X7 m c ⟨8 * p.val + 0, h⟩) :=
      rowsAt_first m c ⟨8 * p.val + 0, h⟩ (by show (8 * p.val + 0) % 8 = 0; omega)
    obtain ⟨e1, e2, e3⟩ := rowsFirst_apply (X0 m c ⟨8 * p.val + 0, h⟩) (X5 m c ⟨8 * p.val + 0, h⟩) (X6 m c ⟨8 * p.val + 0, h⟩)
      (X7 m c ⟨8 * p.val + 0, h⟩) (Spec.rowOf a0) (Spec.matOf a7) (Spec.matOf a8)
      (fun r k => Spec.matOf a1 (Spec.tileRow ⟨8 * p.val + 0, hb⟩ r) k)
      (hX0 ⟨8 * p.val + 0, h⟩) (hX5 ⟨8 * p.val + 0, h⟩) (hX6 ⟨8 * p.val + 0, h⟩)
      (fun r k => hX7 ⟨8 * p.val + 0, h⟩ r k (Spec.tileRow ⟨8 * p.val + 0, hb⟩ r).isLt) j
    rw [e]
    refine ⟨e1, ?_, ?_⟩
    · rw [e2, Finset.sum_range_one, tileE, dif_pos hb]; rfl
    · rw [e3, Finset.sum_range_one, tileW, dif_pos hb]; rfl
  | succ i ih =>
    intro hi h
    have hb : 8 * p.val + (i + 1) < 16 := by omega
    have h' : 8 * p.val + i < cfg0.N := Nat.lt_of_succ_lt h
    obtain ⟨q1, q2, q3⟩ := ih (by omega) h'
    have e : rowsAt m c (8 * p.val + (i + 1)) h
        = rowsNext (X6 m c ⟨8 * p.val + (i + 1), h⟩) (X7 m c ⟨8 * p.val + (i + 1), h⟩) (rowsAt m c (8 * p.val + i) h') :=
      rowsAt_next m c ⟨8 * p.val + (i + 1), h⟩ (by show (8 * p.val + (i + 1)) % 8 ≠ 0; omega)
    obtain ⟨e1, e2, e3⟩ := rowsNext_apply (X6 m c ⟨8 * p.val + (i + 1), h⟩) (X7 m c ⟨8 * p.val + (i + 1), h⟩)
      (rowsAt m c (8 * p.val + i) h') (Spec.matOf a8)
      (fun r k => Spec.matOf a1 (Spec.tileRow ⟨8 * p.val + (i + 1), hb⟩ r) k)
      (hX6 ⟨8 * p.val + (i + 1), h⟩)
      (fun r k => hX7 ⟨8 * p.val + (i + 1), h⟩ r k (Spec.tileRow ⟨8 * p.val + (i + 1), hb⟩ r).isLt) j
    rw [e]
    refine ⟨by rw [e1]; exact q1, ?_, ?_⟩
    · refine (e2.trans ?_).trans (Finset.sum_range_succ (fun T => tileE a0 a1 a7 a8 (8 * p.val + T) j) (i + 1)).symm
      rw [q2, q1]
      refine congrArg (_ + ·) ?_
      rw [tileE, dif_pos hb]; rfl
    · refine (e3.trans ?_).trans (Finset.sum_range_succ (fun T => tileW a0 a1 a7 a8 (8 * p.val + T) j) (i + 1)).symm
      rw [q3, q1]
      refine congrArg (_ + ·) ?_
      rw [tileW, dif_pos hb]; rfl

/-- After the last tile of half p the weights' row is the specification's half sum of the weights, -/
theorem rowE_last (p : Fin 2) (j : Fin 512) (h : 8 * p.val + 7 < cfg0.N) :
    (rowsAt m c (8 * p.val + 7) h).2.1 (ix2 0 j)
      = Spec.halfE (Spec.rowOf a0) (Spec.matOf a1) (Spec.matOf a7) (Spec.matOf a8) p j := by
  obtain ⟨_, q2, _⟩ := rows_inv m c a0 a1 a7 a8 hX0 hX5 hX6 hX7 p j 7 (by decide) h
  rw [q2, Finset.sum_range, Spec.halfE]
  refine Finset.sum_congr rfl fun T _ => ?_
  have hb : 8 * p.val + T.val < 16 := by omega
  rw [tileE, dif_pos hb]

/-- and the weighted row is the specification's half sum of the weighted children. -/
theorem rowW_last (p : Fin 2) (j : Fin 512) (h : 8 * p.val + 7 < cfg0.N) :
    (rowsAt m c (8 * p.val + 7) h).2.2 (ix2 0 j)
      = Spec.halfW (Spec.rowOf a0) (Spec.matOf a1) (Spec.matOf a7) (Spec.matOf a8) p j := by
  obtain ⟨_, _, q3⟩ := rows_inv m c a0 a1 a7 a8 hX0 hX5 hX6 hX7 p j 7 (by decide) h
  rw [q3, Finset.sum_range, Spec.halfW]
  refine Finset.sum_congr rfl fun T _ => ?_
  have hb : 8 * p.val + T.val < 16 := by omega
  rw [tileW, dif_pos hb]

end Fold

end Cert.KernelIdeal.Body

end
-- ==== Proof.KI.KValue.lean ====
/-
  The kernel's two results as functions of the argument arrays.

  After the region the host adds the two halves' published sums, reads the gates off the gates' array, and forms the
  merged cell and the hidden state.  The published sums are the specification's half sums (the fold of the carried
  rows over the eight tiles of a half), the gates' array holds the specification's gates, so the two results are the
  specification's kernel arrangement at every column.
-/
import proofs.«163698_j23965917512359_2_alg».proof.Proof.KI.Final
import proofs.«163698_j23965917512359_2_alg».proof.Proof.KI.TailValue
import proofs.«163698_j23965917512359_2_alg».proof.Proof.KI.ValueInGates
import proofs.«163698_j23965917512359_2_alg».proof.Proof.KI.ValueAcc
import proofs.«163698_j23965917512359_2_alg».proof.Proof.SpecArr

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## The argument arrays as launched -/

abbrev A0 (c : Dev nD) : FVec Ideal S1x512 .f32 := m ((c.tc : Thread nD τ).loc main_arg0)
abbrev A1 (c : Dev nD) : FVec Ideal S32768x512 .f32 := m ((c.tc : Thread nD τ).loc main_arg1)
abbrev A2 (c : Dev nD) : FVec Ideal S1x512 .f32 := m ((c.tc : Thread nD τ).loc main_arg2)
abbrev A4 (c : Dev nD) : FVec Ideal S512x1536 .f32 := m ((c.tc : Thread nD τ).loc main_arg4)
abbrev A5 (c : Dev nD) : FVec Ideal S512x1536 .f32 := m ((c.tc : Thread nD τ).loc main_arg5)
abbrev A6 (c : Dev nD) : FVec Ideal S1536 .f32 := m ((c.tc : Thread nD τ).loc main_arg6)
abbrev A7 (c : Dev nD) : FVec Ideal S512x512 .f32 := m ((c.tc : Thread nD τ).loc main_arg7)
abbrev A8 (c : Dev nD) : FVec Ideal S512x512 .f32 := m ((c.tc : Thread nD τ).loc main_arg8)

/-! ## The published arrays at the rows the host reads -/

/-- Row `r` of the published weights' sums is the specification's sum over half `r / 8`. -/
theorem pubE_at (c : Dev nD) (r : Fin 16) (p : Fin 2) (hr : r.val / 8 = p.val) (j : Fin 512) :
    pubE m c (ix2 r j) = Spec.halfE (Spec.rowOf (A0 m c)) (Spec.matOf (A1 m c)) (Spec.matOf (A7 m c)) (Spec.matOf (A8 m c)) p j := by
  have hb : 8 * p.val + 7 < cfg0.N := by have := p.isLt; rw [show cfg0.N = 16 from N_0]; omega
  rw [pubE_eq m c (ix2 r j) (8 * p.val + 7) hb (by show 8 * (r.val / 8) + 7 = 8 * p.val + 7; rw [hr])]
  exact rowE_last m c (A0 m c) (A1 m c) (A7 m c) (A8 m c) (fun t k => X0_apply m c t 0 k) (fun t k j => X5_apply m c t k j)
    (fun t k j => X6_apply m c t k j) (fun t r k hb => X7_apply m c t r k) p j hb

theorem pubW_at (c : Dev nD) (r : Fin 16) (p : Fin 2) (hr : r.val / 8 = p.val) (j : Fin 512) :
    pubW m c (ix2 r j) = Spec.halfW (Spec.rowOf (A0 m c)) (Spec.matOf (A1 m c)) (Spec.matOf (A7 m c)) (Spec.matOf (A8 m c)) p j := by
  have hb : 8 * p.val + 7 < cfg0.N := by have := p.isLt; rw [show cfg0.N = 16 from N_0]; omega
  rw [pubW_eq m c (ix2 r j) (8 * p.val + 7) hb (by show 8 * (r.val / 8) + 7 = 8 * p.val + 7; rw [hr])]
  exact rowW_last m c (A0 m c) (A1 m c) (A7 m c) (A8 m c) (fun t k => X0_apply m c t 0 k) (fun t k j => X5_apply m c t k j)
    (fun t k j => X6_apply m c t k j) (fun t r k hb => X7_apply m c t r k) p j hb

/-- Row 0 of the published gates holds the three gates. -/
theorem pubG_i (c : Dev nD) (j : Fin 512) (q : Fin 1536) (hq : q.val = j.val) :
    pubG m c (ix2 (0 : Fin 16) q) = Spec.iGate (Spec.rowOf (A0 m c)) (Spec.rowOf (A2 m c)) (Spec.matOf (A4 m c)) (Spec.matOf (A5 m c)) (Spec.vecOf (A6 m c)) j := by
  rw [pubG_apply m c (ix2 (0 : Fin 16) q) (0 : Fin 8) ⟨j.val, by omega⟩ rfl hq]
  exact gatesAt_i m c 0 j
theorem pubG_g (c : Dev nD) (j : Fin 512) (q : Fin 1536) (hq : q.val = 512 + j.val) :
    pubG m c (ix2 (0 : Fin 16) q) = Spec.gGate (Spec.rowOf (A0 m c)) (Spec.rowOf (A2 m c)) (Spec.matOf (A4 m c)) (Spec.matOf (A5 m c)) (Spec.vecOf (A6 m c)) j := by
  rw [pubG_apply m c (ix2 (0 : Fin 16) q) (0 : Fin 8) ⟨512 + j.val, by omega⟩ rfl hq]
  exact gatesAt_g m c 0 j
theorem pubG_o (c : Dev nD) (j : Fin 512) (q : Fin 1536) (hq : q.val = 1024 + j.val) :
    pubG m c (ix2 (0 : Fin 16) q) = Spec.oGate (Spec.rowOf (A0 m c)) (Spec.rowOf (A2 m c)) (Spec.matOf (A4 m c)) (Spec.matOf (A5 m c)) (Spec.vecOf (A6 m c)) j := by
  rw [pubG_apply m c (ix2 (0 : Fin 16) q) (0 : Fin 8) ⟨1024 + j.val, by omega⟩ rfl hq]
  exact gatesAt_o m c 0 j

/-! ## The two results -/

/-- The merged cell the host lines form is the specification's, in the kernel's arrangement. -/
theorem value_c1 (c : Dev nD) :
    tailC1 (pubE m c) (pubW m c) (pubG m c) = Spec.c1KArr (A0 m c) (A2 m c) (A1 m c) (A4 m c) (A5 m c) (A6 m c) (A7 m c) (A8 m c) := by
  funext i
  obtain ⟨p, j, rfl⟩ : ∃ (p : Fin 1) (j : Fin 512), i = ix2 p j := ⟨i 0, i 1, eq_ix2 i⟩
  obtain rfl : p = 0 := Subsingleton.elim _ _
  rw [tailC1_apply, pubW_at m c 0 0 rfl j, pubW_at m c 8 1 rfl j, pubE_at m c 0 0 rfl j, pubE_at m c 8 1 rfl j,
    pubG_g m c j _ rfl, pubG_i m c j _ rfl]
  rfl

/-- The hidden state likewise. -/
theorem value_h1 (c : Dev nD) :
    tailH1 (pubE m c) (pubW m c) (pubG m c) = Spec.h1KArr (A0 m c) (A2 m c) (A1 m c) (A4 m c) (A5 m c) (A6 m c) (A7 m c) (A8 m c) := by
  funext i
  obtain ⟨p, j, rfl⟩ : ∃ (p : Fin 1) (j : Fin 512), i = ix2 p j := ⟨i 0, i 1, eq_ix2 i⟩
  obtain rfl : p = 0 := Subsingleton.elim _ _
  rw [tailH1_apply, pubG_o m c j _ rfl, congrFun (value_c1 m c) (ix2 0 j)]
  rfl

end Cert.KernelIdeal.Body

end
-- ==== Proof.KI.Tail.lean ====
/-
  The buffers the host lines after the region leave: each of the two results is the host lines' function of the
  region's three result arrays as the run left them.
-/
import proofs.«163698_j23965917512359_2_alg».proof.Proof.KI.Final
import proofs.«163698_j23965917512359_2_alg».proof.Proof.KI.TailDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's three result arrays as the host lines find them. -/
theorem arr8 (c : Dev nD) :
    Pipeline.withArrays (cfgs 0).spec c (V0 m c) (fun w => (dats m 0 c).arrAt w (cfgs 0).N) (Proc.devRef .tc main_v7_0) = pubE m c :=
  (Pipeline.withArrays_arr spec0 launch0.win.arr_inj c _ _ 8).trans (final8 m c)
theorem arr9 (c : Dev nD) :
    Pipeline.withArrays (cfgs 0).spec c (V0 m c) (fun w => (dats m 0 c).arrAt w (cfgs 0).N) (Proc.devRef .tc main_v7_1) = pubW m c :=
  (Pipeline.withArrays_arr spec0 launch0.win.arr_inj c _ _ 9).trans (final9 m c)
theorem arr10 (c : Dev nD) :
    Pipeline.withArrays (cfgs 0).spec c (V0 m c) (fun w => (dats m 0 c).arrAt w (cfgs 0).N) (Proc.devRef .tc main_v7_2) = pubG m c :=
  (Pipeline.withArrays_arr spec0 launch0.win.arr_inj c _ _ 10).trans (final10 m c)

set_option maxHeartbeats 4000000 in
/-- The merged cell's buffer after the host lines. -/
theorem tail_c1 (c : Dev nD) :
    Pipeline.afterTail₀ cfgs (dats m) 0 (V0 m) [hostOps1] c main_v24 = tailC1 (pubE m c) (pubW m c) (pubG m c) := by
  unfold Pipeline.afterTail₀
  show StableHlo.after hostOps1 _ (Proc.devRef .tc main_v24) = _
  after_results_simp
  rw [arr8, arr9, arr10]
  rfl

set_option maxHeartbeats 4000000 in
/-- The hidden state's buffer after the host lines. -/
theorem tail_h1 (c : Dev nD) :
    Pipeline.afterTail₀ cfgs (dats m) 0 (V0 m) [hostOps1] c main_v26 = tailH1 (pubE m c) (pubW m c) (pubG m c) := by
  unfold Pipeline.afterTail₀
  show StableHlo.after hostOps1 _ (Proc.devRef .tc main_v26) = _
  after_results_simp
  rw [arr8, arr9, arr10]
  rfl

end Cert.KernelIdeal.Body

end
-- ==== Proof.KI.KRun.lean ====
/-
  The idealized kernel's run, read: every weakly fair execution terminates with the hidden state and the merged cell at
  the specification's kernel arrangement of the argument arrays, and the arguments unchanged.
-/
import proofs.«163698_j23965917512359_2_alg».proof.Proof.KI.KValue
import proofs.«163698_j23965917512359_2_alg».proof.Proof.KI.Tail

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v26) = Spec.h1KArr (A0 m c) (A2 m c) (A1 m c) (A4 m c) (A5 m c) (A6 m c) (A7 m c) (A8 m c)
      ∧ r.2.mem ((c.tc : Thread nD τ).loc main_v24) = Spec.c1KArr (A0 m c) (A2 m c) (A1 m c) (A4 m c) (A5 m c) (A6 m c) (A7 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      ((h c).2 main_v26 (Pipeline.mem_restRefs_of main_v26 (by decide) (by decide))).trans ((tail_h1 m c).trans (value_h1 m c)),
      ((h c).2 main_v24 (Pipeline.mem_restRefs_of main_v24 (by decide) (by decide))).trans ((tail_c1 m c).trans (value_c1 m c)),
      ((h c).2 main_arg0 (Pipeline.mem_restRefs_of main_arg0 (by decide) (by decide))).trans (W_main_arg0 m (dats m) c),
      ((h c).1 7).trans (((dats m 0 c).arrAt_in 7 rfl _).trans ((A_eq m c 7).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Body

end
-- ==== Proof.RefStages.lean ====
/-
  The reference program's computation, stage by stage, as whole-array functions of its argument arrays.

  The gate pre-activations are  (h0 · whh + b) + inp · wih  as a [1, 1536] array; its three column blocks of 512
  give the input gate i = σ(·), the output gate o = σ(·) and the candidate g = tanh(·), where the program spells
  σ(x) as 1 / (1 + exp (-x)).  The children's logits are α = σ(inp · awih + C · awhh), a [32768, 512] array with the
  [1, 512] product broadcast over the rows.  The gate i on top of α is a [32769, 512] array of logits; its
  exponential is the array of weights, summed over the rows from 0, plus ε, the normaliser; the candidate g on top
  of C is the array that is merged, row by row with its normalised weight, and summed over the rows from 0: the
  merged cell.  The hidden state is o · tanh of the merged cell.
-/
import proofs.«163698_j23965917512359_2_alg».proof.Proof.Gen.ReferenceIdeal

noncomputable section

namespace Cert.RefValue

open Cert.ReferenceIdeal Cert.ReferenceIdeal.Gen Idealize.ShloMosaic

variable {F : FTy → Type} [FloatOps F]

/-- The array of ones of shape [1, 512] (the literal 1.0 broadcast). -/
def ones1 : (⟨S1x512, .f32⟩ : BufTy).Contents (Elt F) :=
  broadcastInDim S1x512 ![] bcast_S_S1x512 (constant S_ .f32 0x3F800000#32)

/-- The array of ones of shape [32768, 512]. -/
def onesK : (⟨S32768x512, .f32⟩ : BufTy).Contents (Elt F) :=
  broadcastInDim S32768x512 ![] bcast_S_S32768x512 (constant S_ .f32 0x3F800000#32)

/-- The gate pre-activations (h0 · whh + b) + inp · wih, a [1, 1536] array. -/
def gatesA (x0 x2 : (⟨S1x512, .f32⟩ : BufTy).Contents (Elt F)) (x4 x5 : (⟨S512x1536, .f32⟩ : BufTy).Contents (Elt F))
    (x6 : (⟨S1536, .f32⟩ : BufTy).Contents (Elt F)) : (⟨S1x1536, .f32⟩ : BufTy).Contents (Elt F) :=
  addf (addf (Host.dotGeneral dot_S1x512_S512x1536_S1x1536_1_0_0_1_n_n none x2 x5) (broadcastInDim S1x1536 ![1] bcast_S1536_S1x1536_1 x6))
    (Host.dotGeneral dot_S1x512_S512x1536_S1x1536_1_0_0_1_n_n none x0 x4)

/-- The input gate: σ of columns 0–511 of the pre-activations, σ(x) spelt 1 / (1 + exp (-x)). -/
def iA (x0 x2 : (⟨S1x512, .f32⟩ : BufTy).Contents (Elt F)) (x4 x5 : (⟨S512x1536, .f32⟩ : BufTy).Contents (Elt F))
    (x6 : (⟨S1536, .f32⟩ : BufTy).Contents (Elt F)) : (⟨S1x512, .f32⟩ : BufTy).Contents (Elt F) :=
  Host.divf ones1 (addf ones1 (Host.exp (Host.negf (extractStridedSlice S1x512 ![0, 0] (gatesA x0 x2 x4 x5 x6) slices_S1x1536_S1x512_0_0))))

/-- The output gate: σ of columns 512–1023. -/
def oA (x0 x2 : (⟨S1x512, .f32⟩ : BufTy).Contents (Elt F)) (x4 x5 : (⟨S512x1536, .f32⟩ : BufTy).Contents (Elt F))
    (x6 : (⟨S1536, .f32⟩ : BufTy).Contents (Elt F)) : (⟨S1x512, .f32⟩ : BufTy).Contents (Elt F) :=
  Host.divf ones1 (addf ones1 (Host.exp (Host.negf (extractStridedSlice S1x512 ![0, 512] (gatesA x0 x2 x4 x5 x6) slices_S1x1536_S1x512_0_512))))

/-- The candidate: tanh of columns 1024–1535. -/
def gA (x0 x2 : (⟨S1x512, .f32⟩ : BufTy).Contents (Elt F)) (x4 x5 : (⟨S512x1536, .f32⟩ : BufTy).Contents (Elt F))
    (x6 : (⟨S1536, .f32⟩ : BufTy).Contents (Elt F)) : (⟨S1x512, .f32⟩ : BufTy).Contents (Elt F) :=
  Host.tanh (extractStridedSlice S1x512 ![0, 1024] (gatesA x0 x2 x4 x5 x6) slices_S1x1536_S1x512_0_1024)

/-- The children's logits σ(inp · awih + C · awhh), a [32768, 512] array. -/
def alphaA (x0 : (⟨S1x512, .f32⟩ : BufTy).Contents (Elt F)) (x1 : (⟨S32768x512, .f32⟩ : BufTy).Contents (Elt F))
    (x7 x8 : (⟨S512x512, .f32⟩ : BufTy).Contents (Elt F)) : (⟨S32768x512, .f32⟩ : BufTy).Contents (Elt F) :=
  Host.divf onesK (addf onesK (Host.exp (Host.negf (addf
    (broadcastInDim S32768x512 ![0, 1] bcast_S1x512_S32768x512_0_1 (Host.dotGeneral dot_S1x512_S512x512_S1x512_1_0_0_1_n_n none x0 x7))
    (Host.dotGeneral dot_S32768x512_S512x512_S32768x512_1_0_0_1_n_n none x1 x8)))))

/-- The 32769 rows of weights: exp of the input gate on top of the children's logits. -/
def wA (x0 : (⟨S1x512, .f32⟩ : BufTy).Contents (Elt F)) (x1 : (⟨S32768x512, .f32⟩ : BufTy).Contents (Elt F))
    (x2 : (⟨S1x512, .f32⟩ : BufTy).Contents (Elt F)) (x4 x5 : (⟨S512x1536, .f32⟩ : BufTy).Contents (Elt F))
    (x6 : (⟨S1536, .f32⟩ : BufTy).Contents (Elt F)) (x7 x8 : (⟨S512x512, .f32⟩ : BufTy).Contents (Elt F)) :
    (⟨S32769x512, .f32⟩ : BufTy).Contents (Elt F) :=
  Host.exp (concatenate S32769x512 0 [⟨S1x512, (iA x0 x2 x4 x5 x6)⟩, ⟨S32768x512, (alphaA x0 x1 x7 x8)⟩] concatenates_S1x512_S32768x512_S32769x512_d0)

/-- The normaliser as a [1, 512] array: the weights summed over the rows from 0, plus ε. -/
def denA (x0 : (⟨S1x512, .f32⟩ : BufTy).Contents (Elt F)) (x1 : (⟨S32768x512, .f32⟩ : BufTy).Contents (Elt F))
    (x2 : (⟨S1x512, .f32⟩ : BufTy).Contents (Elt F)) (x4 x5 : (⟨S512x1536, .f32⟩ : BufTy).Contents (Elt F))
    (x6 : (⟨S1536, .f32⟩ : BufTy).Contents (Elt F)) (x7 x8 : (⟨S512x512, .f32⟩ : BufTy).Contents (Elt F)) :
    (⟨S1x512, .f32⟩ : BufTy).Contents (Elt F) :=
  addf (broadcastInDim S1x512 ![1] bcast_S512_S1x512_1
      (Host.reduceAdd (wA x0 x1 x2 x4 x5 x6 x7 x8) (constant S_ .f32 0x00000000#32) reducesTo_S32769x512_S512_d0 h_S_))
    (broadcastInDim S1x512 ![] bcast_S_S1x512 (constant S_ .f32 0x2B8CBCCC#32))

/-- The merged cell as a [1, 512] array: the candidate on top of the children, each row times its normalised
    weight, summed over the rows from 0. -/
def c1A (x0 : (⟨S1x512, .f32⟩ : BufTy).Contents (Elt F)) (x1 : (⟨S32768x512, .f32⟩ : BufTy).Contents (Elt F))
    (x2 : (⟨S1x512, .f32⟩ : BufTy).Contents (Elt F)) (x4 x5 : (⟨S512x1536, .f32⟩ : BufTy).Contents (Elt F))
    (x6 : (⟨S1536, .f32⟩ : BufTy).Contents (Elt F)) (x7 x8 : (⟨S512x512, .f32⟩ : BufTy).Contents (Elt F)) :
    (⟨S1x512, .f32⟩ : BufTy).Contents (Elt F) :=
  broadcastInDim S1x512 ![1] bcast_S512_S1x512_1 (Host.reduceAdd
    (mulf (concatenate S32769x512 0 [⟨S1x512, (gA x0 x2 x4 x5 x6)⟩, ⟨S32768x512, x1⟩] concatenates_S1x512_S32768x512_S32769x512_d0)
      (Host.divf (wA x0 x1 x2 x4 x5 x6 x7 x8)
        (broadcastInDim S32769x512 ![0, 1] bcast_S1x512_S32769x512_0_1 (denA x0 x1 x2 x4 x5 x6 x7 x8))))
    (constant S_ .f32 0x00000000#32) reducesTo_S32769x512_S512_d0 h_S_)

/-- The hidden state: the output gate times tanh of the merged cell. -/
def h1A (x0 : (⟨S1x512, .f32⟩ : BufTy).Contents (Elt F)) (x1 : (⟨S32768x512, .f32⟩ : BufTy).Contents (Elt F))
    (x2 : (⟨S1x512, .f32⟩ : BufTy).Contents (Elt F)) (x4 x5 : (⟨S512x1536, .f32⟩ : BufTy).Contents (Elt F))
    (x6 : (⟨S1536, .f32⟩ : BufTy).Contents (Elt F)) (x7 x8 : (⟨S512x512, .f32⟩ : BufTy).Contents (Elt F)) :
    (⟨S1x512, .f32⟩ : BufTy).Contents (Elt F) :=
  mulf (oA x0 x2 x4 x5 x6) (Host.tanh (c1A x0 x1 x2 x4 x5 x6 x7 x8))

end Cert.RefValue

end
-- ==== Proof.RefRun.lean ====
/-
  The reference program's run: its @main is a straight line of 54 array operations, so every weakly fair
  execution terminates with each buffer at the value the operations compute, in order, from the argument arrays,
  and the argument arrays are left as they were.  The two results are the hidden state and the merged cell of
  `RefStages`, as whole-array functions of the arguments.
-/
import proofs.«163698_j23965917512359_2_alg».proof.Proof.RefStages
import Idealize.ShloMosaic.Lib.StableHlo.Run

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of @main, in program order. -/
abbrev ops : List (HloOp τ sig (Elt F)) :=
  [ binary main_arg2 main_arg5 main_v0 ((fun l r => Host.dotGeneral dot_S1x512_S512x1536_S1x1536_1_0_0_1_n_n none l r) : (⟨S1x512, .f32⟩ : BufTy).Contents (Elt F) → (⟨S512x1536, .f32⟩ : BufTy).Contents (Elt F) → (⟨S1x1536, .f32⟩ : BufTy).Contents (Elt F)),
    unary main_arg6 main_v1 (broadcastInDim S1x1536 ![1] bcast_S1536_S1x1536_1 : (⟨S1536, .f32⟩ : BufTy).Contents (Elt F) → (⟨S1x1536, .f32⟩ : BufTy).Contents (Elt F)),
    binary main_v0 main_v1 main_v2 (addf : (⟨S1x1536, .f32⟩ : BufTy).Contents (Elt F) → (⟨S1x1536, .f32⟩ : BufTy).Contents (Elt F) → (⟨S1x1536, .f32⟩ : BufTy).Contents (Elt F)),
    binary main_arg0 main_arg4 main_v3 ((fun l r => Host.dotGeneral dot_S1x512_S512x1536_S1x1536_1_0_0_1_n_n none l r) : (⟨S1x512, .f32⟩ : BufTy).Contents (Elt F) → (⟨S512x1536, .f32⟩ : BufTy).Contents (Elt F) → (⟨S1x1536, .f32⟩ : BufTy).Contents (Elt F)),
    binary main_v2 main_v3 main_v4 (addf : (⟨S1x1536, .f32⟩ : BufTy).Contents (Elt F) → (⟨S1x1536, .f32⟩ : BufTy).Contents (Elt F) → (⟨S1x1536, .f32⟩ : BufTy).Contents (Elt F)),
    unary main_v4 main_v5 ((extractStridedSlice S1x512 ![0, 0] · slices_S1x1536_S1x512_0_0) : (⟨S1x1536, .f32⟩ : BufTy).Contents (Elt F) → (⟨S1x512, .f32⟩ : BufTy).Contents (Elt F)),
    unary main_v4 main_v6 ((extractStridedSlice S1x512 ![0, 512] · slices_S1x1536_S1x512_0_512) : (⟨S1x1536, .f32⟩ : BufTy).Contents (Elt F) → (⟨S1x512, .f32⟩ : BufTy).Contents (Elt F)),
    unary main_v4 main_v7 ((extractStridedSlice S1x512 ![0, 1024] · slices_S1x1536_S1x512_0_1024) : (⟨S1x1536, .f32⟩ : BufTy).Contents (Elt F) → (⟨S1x512, .f32⟩ : BufTy).Contents (Elt F)),
    unary main_v5 main_v8 (Host.negf : (⟨S1x512, .f32⟩ : BufTy).Contents (Elt F) → (⟨S1x512, .f32⟩ : BufTy).Contents (Elt F)),
    unary main_v8 main_v9 (Host.exp : (⟨S1x512, .f32⟩ : BufTy).Contents (Elt F) → (⟨S1x512, .f32⟩ : BufTy).Contents (Elt F)),
    nullary main_cst (constant S_ .f32 0x3F800000#32),
    unary main_cst main_v10 (broadcastInDim S1x512 ![] bcast_S_S1x512 : (⟨S_, .f32⟩ : BufTy).Contents (Elt F) → (⟨S1x512, .f32⟩ : BufTy).Contents (Elt F)),
    binary main_v10 main_v9 main_v11 (addf : (⟨S1x512, .f32⟩ : BufTy).Contents (Elt F) → (⟨S1x512, .f32⟩ : BufTy).Contents (Elt F) → (⟨S1x512, .f32⟩ : BufTy).Contents (Elt F)),
    nullary main_cst_0 (constant S_ .f32 0x3F800000#32),
    unary main_cst_0 main_v12 (broadcastInDim S1x512 ![] bcast_S_S1x512 : (⟨S_, .f32⟩ : BufTy).Contents (Elt F) → (⟨S1x512, .f32⟩ : BufTy).Contents (Elt F)),
    binary main_v12 main_v11 main_v13 (Host.divf : (⟨S1x512, .f32⟩ : BufTy).Contents (Elt F) → (⟨S1x512, .f32⟩ : BufTy).Contents (Elt F) → (⟨S1x512, .f32⟩ : BufTy).Contents (Elt F)),
    unary main_v6 main_v14 (Host.negf : (⟨S1x512, .f32⟩ : BufTy).Contents (Elt F) → (⟨S1x512, .f32⟩ : BufTy).Contents (Elt F)),
    unary main_v14 main_v15 (Host.exp : (⟨S1x512, .f32⟩ : BufTy).Contents (Elt F) → (⟨S1x512, .f32⟩ : BufTy).Contents (Elt F)),
    nullary main_cst_1 (constant S_ .f32 0x3F800000#32),
    unary main_cst_1 main_v16 (broadcastInDim S1x512 ![] bcast_S_S1x512 : (⟨S_, .f32⟩ : BufTy).Contents (Elt F) → (⟨S1x512, .f32⟩ : BufTy).Contents (Elt F)),
    binary main_v16 main_v15 main_v17 (addf : (⟨S1x512, .f32⟩ : BufTy).Contents (Elt F) → (⟨S1x512, .f32⟩ : BufTy).Contents (Elt F) → (⟨S1x512, .f32⟩ : BufTy).Contents (Elt F)),
    nullary main_cst_2 (constant S_ .f32 0x3F800000#32),
    unary main_cst_2 main_v18 (broadcastInDim S1x512 ![] bcast_S_S1x512 : (⟨S_, .f32⟩ : BufTy).Contents (Elt F) → (⟨S1x512, .f32⟩ : BufTy).Contents (Elt F)),
    binary main_v18 main_v17 main_v19 (Host.divf : (⟨S1x512, .f32⟩ : BufTy).Contents (Elt F) → (⟨S1x512, .f32⟩ : BufTy).Contents (Elt F) → (⟨S1x512, .f32⟩ : BufTy).Contents (Elt F)),
    unary main_v7 main_v20 (Host.tanh : (⟨S1x512, .f32⟩ : BufTy).Contents (Elt F) → (⟨S1x512, .f32⟩ : BufTy).Contents (Elt F)),
    binary main_arg0 main_arg7 main_v21 ((fun l r => Host.dotGeneral dot_S1x512_S512x512_S1x512_1_0_0_1_n_n none l r) : (⟨S1x512, .f32⟩ : BufTy).Contents (Elt F) → (⟨S512x512, .f32⟩ : BufTy).Contents (Elt F) → (⟨S1x512, .f32⟩ : BufTy).Contents (Elt F)),
    binary main_arg1 main_arg8 main_v22 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    unary main_v21 main_v23 (broadcastInDim S32768x512 ![0, 1] bcast_S1x512_S32768x512_0_1 : (⟨S1x512, .f32⟩ : BufTy).Contents (Elt F) → (⟨S32768x512, .f32⟩ : BufTy).Contents (Elt F)),
    binary main_v23 main_v22 main_v24 (addf : (⟨S32768x512, .f32⟩ : BufTy).Contents (Elt F) → (⟨S32768x512, .f32⟩ : BufTy).Contents (Elt F) → (⟨S32768x512, .f32⟩ : BufTy).Contents (Elt F)),
    unary main_v24 main_v25 (Host.negf : (⟨S32768x512, .f32⟩ : BufTy).Contents (Elt F) → (⟨S32768x512, .f32⟩ : BufTy).Contents (Elt F)),
    unary main_v25 main_v26 (Host.exp : (⟨S32768x512, .f32⟩ : BufTy).Contents (Elt F) → (⟨S32768x512, .f32⟩ : BufTy).Contents (Elt F)),
    nullary main_cst_3 (constant S_ .f32 0x3F800000#32),
    unary main_cst_3 main_v27 (broadcastInDim S32768x512 ![] bcast_S_S32768x512 : (⟨S_, .f32⟩ : BufTy).Contents (Elt F) → (⟨S32768x512, .f32⟩ : BufTy).Contents (Elt F)),
    binary main_v27 main_v26 main_v28 (addf : (⟨S32768x512, .f32⟩ : BufTy).Contents (Elt F) → (⟨S32768x512, .f32⟩ : BufTy).Contents (Elt F) → (⟨S32768x512, .f32⟩ : BufTy).Contents (Elt F)),
    nullary main_cst_4 (constant S_ .f32 0x3F800000#32),
    unary main_cst_4 main_v29 (broadcastInDim S32768x512 ![] bcast_S_S32768x512 : (⟨S_, .f32⟩ : BufTy).Contents (Elt F) → (⟨S32768x512, .f32⟩ : BufTy).Contents (Elt F)),
    binary main_v29 main_v28 main_v30 (Host.divf : (⟨S32768x512, .f32⟩ : BufTy).Contents (Elt F) → (⟨S32768x512, .f32⟩ : BufTy).Contents (Elt F) → (⟨S32768x512, .f32⟩ : BufTy).Contents (Elt F)),
    binary main_v13 main_v30 main_v31 ((fun a b => concatenate S32769x512 0 [⟨S1x512, a⟩, ⟨S32768x512, b⟩] concatenates_S1x512_S32768x512_S32769x512_d0) : (⟨S1x512, .f32⟩ : BufTy).Contents (Elt F) → (⟨S32768x512, .f32⟩ : BufTy).Contents (Elt F) → (⟨S32769x512, .f32⟩ : BufTy).Contents (Elt F)),
    unary main_v31 main_v32 (Host.exp : (⟨S32769x512, .f32⟩ : BufTy).Contents (Elt F) → (⟨S32769x512, .f32⟩ : BufTy).Contents (Elt F)),
    nullary main_cst_5 (constant S_ .f32 0x00000000#32),
    binary main_v32 main_cst_5 main_v33 ((fun x v => Host.reduceAdd x v reducesTo_S32769x512_S512_d0 h_S_) : (⟨S32769x512, .f32⟩ : BufTy).Contents (Elt F) → (⟨S_, .f32⟩ : BufTy).Contents (Elt F) → (⟨S512, .f32⟩ : BufTy).Contents (Elt F)),
    unary main_v33 main_v34 (broadcastInDim S1x512 ![1] bcast_S512_S1x512_1 : (⟨S512, .f32⟩ : BufTy).Contents (Elt F) → (⟨S1x512, .f32⟩ : BufTy).Contents (Elt F)),
    nullary main_cst_6 (constant S_ .f32 0x2B8CBCCC#32),
    unary main_cst_6 main_v35 (broadcastInDim S1x512 ![] bcast_S_S1x512 : (⟨S_, .f32⟩ : BufTy).Contents (Elt F) → (⟨S1x512, .f32⟩ : BufTy).Contents (Elt F)),
    binary main_v34 main_v35 main_v36 (addf : (⟨S1x512, .f32⟩ : BufTy).Contents (Elt F) → (⟨S1x512, .f32⟩ : BufTy).Contents (Elt F) → (⟨S1x512, .f32⟩ : BufTy).Contents (Elt F)),
    unary main_v36 main_v37 (broadcastInDim S32769x512 ![0, 1] bcast_S1x512_S32769x512_0_1 : (⟨S1x512, .f32⟩ : BufTy).Contents (Elt F) → (⟨S32769x512, .f32⟩ : BufTy).Contents (Elt F)),
    binary main_v32 main_v37 main_v38 (Host.divf : (⟨S32769x512, .f32⟩ : BufTy).Contents (Elt F) → (⟨S32769x512, .f32⟩ : BufTy).Contents (Elt F) → (⟨S32769x512, .f32⟩ : BufTy).Contents (Elt F)),
    binary main_v20 main_arg1 main_v39 ((fun a b => concatenate S32769x512 0 [⟨S1x512, a⟩, ⟨S32768x512, b⟩] concatenates_S1x512_S32768x512_S32769x512_d0) : (⟨S1x512, .f32⟩ : BufTy).Contents (Elt F) → (⟨S32768x512, .f32⟩ : BufTy).Contents (Elt F) → (⟨S32769x512, .f32⟩ : BufTy).Contents (Elt F)),
    binary main_v39 main_v38 main_v40 (mulf : (⟨S32769x512, .f32⟩ : BufTy).Contents (Elt F) → (⟨S32769x512, .f32⟩ : BufTy).Contents (Elt F) → (⟨S32769x512, .f32⟩ : BufTy).Contents (Elt F)),
    nullary main_cst_7 (constant S_ .f32 0x00000000#32),
    binary main_v40 main_cst_7 main_v41 ((fun x v => Host.reduceAdd x v reducesTo_S32769x512_S512_d0 h_S_) : (⟨S32769x512, .f32⟩ : BufTy).Contents (Elt F) → (⟨S_, .f32⟩ : BufTy).Contents (Elt F) → (⟨S512, .f32⟩ : BufTy).Contents (Elt F)),
    unary main_v41 main_v42 (broadcastInDim S1x512 ![1] bcast_S512_S1x512_1 : (⟨S512, .f32⟩ : BufTy).Contents (Elt F) → (⟨S1x512, .f32⟩ : BufTy).Contents (Elt F)),
    unary main_v42 main_v43 (Host.tanh : (⟨S1x512, .f32⟩ : BufTy).Contents (Elt F) → (⟨S1x512, .f32⟩ : BufTy).Contents (Elt F)),
    binary main_v19 main_v43 main_v44 (mulf : (⟨S1x512, .f32⟩ : BufTy).Contents (Elt F) → (⟨S1x512, .f32⟩ : BufTy).Contents (Elt F) → (⟨S1x512, .f32⟩ : BufTy).Contents (Elt F)) ]

set_option maxRecDepth 8192 in
/-- @main is the straight line of those operations. -/
theorem main_eq (c : Dev nD) : main (F := F) c = seq ops := rfl
/-- No buffer of the program is scoped … -/
theorem scopedRefs_eq : (Finset.univ.filter fun b : Ref sig .tc => b.isScoped) = ∅ := by decide
/-- … and no semaphore is. -/
theorem scopedSems_eq : (Finset.univ.filter fun sm : SemLoc sig => sm.isScoped .tc) = ∅ := by decide
set_option maxRecDepth 8192 in
/-- Every operation touches only the program's own buffers. -/
theorem ops_sub : (ops : List (HloOp τ sig (Elt F))).Forall fun op => op.bufs ⊆ tcRefs τ sig :=
  ⟨binary_bufs_sub .., unary_bufs_sub .., binary_bufs_sub .., binary_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., binary_bufs_sub ..⟩

set_option maxRecDepth 8192 in
set_option maxHeartbeats 2000000 in
/-- Every weakly fair execution of @main terminates with the hidden state and the merged cell at the stage functions
    of the argument arrays, and the argument arrays unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = h1A (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v42) = c1A (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v44).trans (by after_results_simp <;> rfl),
      (h c main_v42).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp)⟩)
    (run_seq scopedRefs_eq scopedSems_eq defs main (fun _ => ops) main_eq (fun _ => ops_sub) m ρ)

end Cert.RefValue

end
-- ==== Proof.RefDots.lean ====
/-
  The reference's three matrix products read at an entry.  Each contracts the left operand's column axis with the
  right operand's row axis, so entry (p, q) of the product is the sum over k of (left at (p, k)) · (right at (k, q)):
  the contraction index of such a product is its one coordinate, and the operand indices at a result index and a
  contraction position have exactly those coordinates.
-/
import proofs.«163698_j23965917512359_2_alg».proof.Proof.Gen.ReferenceIdeal
import Idealize.ShloMosaic.Lib.ValueIdx
import Idealize.ShloMosaic.PureOps.Ideal.Laws

noncomputable section

namespace Cert.RefValue

open Cert.ReferenceIdeal Cert.ReferenceIdeal.Gen Idealize.ShloMosaic Idealize.ShloMosaic.ValueIdx

section dotGate

private theorem dotGate_lhs0 (i : S1x1536.Idx) (q : dot_S1x512_S512x1536_S1x1536_1_0_0_1_n_n.contr.Idx) :
    (dot_S1x512_S512x1536_S1x1536_1_0_0_1_n_n.lhsIdx i q 0).val = (i 0).val := by
  unfold DotDims.lhsIdx
  rw [dif_neg (show ¬(0 : Fin S1x512.rank) ∈ dot_S1x512_S512x1536_S1x1536_1_0_0_1_n_n.lhsBatch by decide),
    dif_pos (show (0 : Fin S1x512.rank) ∈ dot_S1x512_S512x1536_S1x1536_1_0_0_1_n_n.lhsNonContracting by decide)]
  rfl
private theorem dotGate_lhs1 (i : S1x1536.Idx) (q : dot_S1x512_S512x1536_S1x1536_1_0_0_1_n_n.contr.Idx) :
    (dot_S1x512_S512x1536_S1x1536_1_0_0_1_n_n.lhsIdx i q 1).val = (q ⟨0, by decide⟩).val :=
  dot_S1x512_S512x1536_S1x1536_1_0_0_1_n_n.lhsIdx_val_of_single rfl i q
private theorem dotGate_rhs0 (i : S1x1536.Idx) (q : dot_S1x512_S512x1536_S1x1536_1_0_0_1_n_n.contr.Idx) :
    (dot_S1x512_S512x1536_S1x1536_1_0_0_1_n_n.rhsIdx i q 0).val = (q ⟨0, by decide⟩).val :=
  dot_S1x512_S512x1536_S1x1536_1_0_0_1_n_n.rhsIdx_val_of_single rfl i q
private theorem dotGate_rhs1 (i : S1x1536.Idx) (q : dot_S1x512_S512x1536_S1x1536_1_0_0_1_n_n.contr.Idx) :
    (dot_S1x512_S512x1536_S1x1536_1_0_0_1_n_n.rhsIdx i q 1).val = (i 1).val := by
  unfold DotDims.rhsIdx
  rw [dif_neg (show ¬(1 : Fin S512x1536.rank) ∈ dot_S1x512_S512x1536_S1x1536_1_0_0_1_n_n.rhsBatch by decide),
    dif_pos (show (1 : Fin S512x1536.rank) ∈ dot_S1x512_S512x1536_S1x1536_1_0_0_1_n_n.rhsNonContracting by decide)]
  rfl

/-- A row [1, 512] times a gate weight matrix [512, 1536], at entry (p, q). -/
theorem dotGate_apply (l : FVec Ideal S1x512 .f32) (r : FVec Ideal S512x1536 .f32) (p : Fin 1) (q : Fin 1536) :
    Host.dotGeneral (F := Ideal) dot_S1x512_S512x1536_S1x1536_1_0_0_1_n_n none l r (ix2 p q) = ∑ k : Fin 512, l (ix2 p k) * r (ix2 k q) := by
  simp only [Host.dotGeneral]
  rw [Ideal.dotGeneral_apply, ← Equiv.sum_comp (contrEquiv1 dot_S1x512_S512x1536_S1x1536_1_0_0_1_n_n 512 rfl rfl).symm]
  refine Finset.sum_congr rfl fun k _ => ?_
  have hk := contrEquiv1_symm_val dot_S1x512_S512x1536_S1x1536_1_0_0_1_n_n 512 rfl rfl k
  have el : dot_S1x512_S512x1536_S1x1536_1_0_0_1_n_n.lhsIdx (ix2 p q) ((contrEquiv1 dot_S1x512_S512x1536_S1x1536_1_0_0_1_n_n 512 rfl rfl).symm k) = ix2 p k :=
    funext fun a => Fin.ext (by
      match a with
      | ⟨0, _⟩ => exact dotGate_lhs0 _ _
      | ⟨1, _⟩ => exact (dotGate_lhs1 _ _).trans hk)
  have er : dot_S1x512_S512x1536_S1x1536_1_0_0_1_n_n.rhsIdx (ix2 p q) ((contrEquiv1 dot_S1x512_S512x1536_S1x1536_1_0_0_1_n_n 512 rfl rfl).symm k) = ix2 k q :=
    funext fun a => Fin.ext (by
      match a with
      | ⟨0, _⟩ => exact (dotGate_rhs0 _ _).trans hk
      | ⟨1, _⟩ => exact dotGate_rhs1 _ _)
  rw [el, er]

end dotGate

section dotRow

private theorem dotRow_lhs0 (i : S1x512.Idx) (q : dot_S1x512_S512x512_S1x512_1_0_0_1_n_n.contr.Idx) :
    (dot_S1x512_S512x512_S1x512_1_0_0_1_n_n.lhsIdx i q 0).val = (i 0).val := by
  unfold DotDims.lhsIdx
  rw [dif_neg (show ¬(0 : Fin S1x512.rank) ∈ dot_S1x512_S512x512_S1x512_1_0_0_1_n_n.lhsBatch by decide),
    dif_pos (show (0 : Fin S1x512.rank) ∈ dot_S1x512_S512x512_S1x512_1_0_0_1_n_n.lhsNonContracting by decide)]
  rfl
private theorem dotRow_lhs1 (i : S1x512.Idx) (q : dot_S1x512_S512x512_S1x512_1_0_0_1_n_n.contr.Idx) :
    (dot_S1x512_S512x512_S1x512_1_0_0_1_n_n.lhsIdx i q 1).val = (q ⟨0, by decide⟩).val :=
  dot_S1x512_S512x512_S1x512_1_0_0_1_n_n.lhsIdx_val_of_single rfl i q
private theorem dotRow_rhs0 (i : S1x512.Idx) (q : dot_S1x512_S512x512_S1x512_1_0_0_1_n_n.contr.Idx) :
    (dot_S1x512_S512x512_S1x512_1_0_0_1_n_n.rhsIdx i q 0).val = (q ⟨0, by decide⟩).val :=
  dot_S1x512_S512x512_S1x512_1_0_0_1_n_n.rhsIdx_val_of_single rfl i q
private theorem dotRow_rhs1 (i : S1x512.Idx) (q : dot_S1x512_S512x512_S1x512_1_0_0_1_n_n.contr.Idx) :
    (dot_S1x512_S512x512_S1x512_1_0_0_1_n_n.rhsIdx i q 1).val = (i 1).val := by
  unfold DotDims.rhsIdx
  rw [dif_neg (show ¬(1 : Fin S512x512.rank) ∈ dot_S1x512_S512x512_S1x512_1_0_0_1_n_n.rhsBatch by decide),
    dif_pos (show (1 : Fin S512x512.rank) ∈ dot_S1x512_S512x512_S1x512_1_0_0_1_n_n.rhsNonContracting by decide)]
  rfl

/-- A row [1, 512] times a square weight matrix [512, 512], at entry (p, q). -/
theorem dotRow_apply (l : FVec Ideal S1x512 .f32) (r : FVec Ideal S512x512 .f32) (p : Fin 1) (q : Fin 512) :
    Host.dotGeneral (F := Ideal) dot_S1x512_S512x512_S1x512_1_0_0_1_n_n none l r (ix2 p q) = ∑ k : Fin 512, l (ix2 p k) * r (ix2 k q) := by
  simp only [Host.dotGeneral]
  rw [Ideal.dotGeneral_apply, ← Equiv.sum_comp (contrEquiv1 dot_S1x512_S512x512_S1x512_1_0_0_1_n_n 512 rfl rfl).symm]
  refine Finset.sum_congr rfl fun k _ => ?_
  have hk := contrEquiv1_symm_val dot_S1x512_S512x512_S1x512_1_0_0_1_n_n 512 rfl rfl k
  have el : dot_S1x512_S512x512_S1x512_1_0_0_1_n_n.lhsIdx (ix2 p q) ((contrEquiv1 dot_S1x512_S512x512_S1x512_1_0_0_1_n_n 512 rfl rfl).symm k) = ix2 p k :=
    funext fun a => Fin.ext (by
      match a with
      | ⟨0, _⟩ => exact dotRow_lhs0 _ _
      | ⟨1, _⟩ => exact (dotRow_lhs1 _ _).trans hk)
  have er : dot_S1x512_S512x512_S1x512_1_0_0_1_n_n.rhsIdx (ix2 p q) ((contrEquiv1 dot_S1x512_S512x512_S1x512_1_0_0_1_n_n 512 rfl rfl).symm k) = ix2 k q :=
    funext fun a => Fin.ext (by
      match a with
      | ⟨0, _⟩ => exact (dotRow_rhs0 _ _).trans hk
      | ⟨1, _⟩ => exact dotRow_rhs1 _ _)
  rw [el, er]

end dotRow

section dotChild

private theorem dotChild_lhs0 (i : S32768x512.Idx) (q : dot_S32768x512_S512x512_S32768x512_1_0_0_1_n_n.contr.Idx) :
    (dot_S32768x512_S512x512_S32768x512_1_0_0_1_n_n.lhsIdx i q 0).val = (i 0).val := by
  unfold DotDims.lhsIdx
  rw [dif_neg (show ¬(0 : Fin S32768x512.rank) ∈ dot_S32768x512_S512x512_S32768x512_1_0_0_1_n_n.lhsBatch by decide),
    dif_pos (show (0 : Fin S32768x512.rank) ∈ dot_S32768x512_S512x512_S32768x512_1_0_0_1_n_n.lhsNonContracting by decide)]
  rfl
private theorem dotChild_lhs1 (i : S32768x512.Idx) (q : dot_S32768x512_S512x512_S32768x512_1_0_0_1_n_n.contr.Idx) :
    (dot_S32768x512_S512x512_S32768x512_1_0_0_1_n_n.lhsIdx i q 1).val = (q ⟨0, by decide⟩).val :=
  dot_S32768x512_S512x512_S32768x512_1_0_0_1_n_n.lhsIdx_val_of_single rfl i q
private theorem dotChild_rhs0 (i : S32768x512.Idx) (q : dot_S32768x512_S512x512_S32768x512_1_0_0_1_n_n.contr.Idx) :
    (dot_S32768x512_S512x512_S32768x512_1_0_0_1_n_n.rhsIdx i q 0).val = (q ⟨0, by decide⟩).val :=
  dot_S32768x512_S512x512_S32768x512_1_0_0_1_n_n.rhsIdx_val_of_single rfl i q
private theorem dotChild_rhs1 (i : S32768x512.Idx) (q : dot_S32768x512_S512x512_S32768x512_1_0_0_1_n_n.contr.Idx) :
    (dot_S32768x512_S512x512_S32768x512_1_0_0_1_n_n.rhsIdx i q 1).val = (i 1).val := by
  unfold DotDims.rhsIdx
  rw [dif_neg (show ¬(1 : Fin S512x512.rank) ∈ dot_S32768x512_S512x512_S32768x512_1_0_0_1_n_n.rhsBatch by decide),
    dif_pos (show (1 : Fin S512x512.rank) ∈ dot_S32768x512_S512x512_S32768x512_1_0_0_1_n_n.rhsNonContracting by decide)]
  rfl

/-- The children [32768, 512] times a square weight matrix [512, 512], at entry (p, q). -/
theorem dotChild_apply (l : FVec Ideal S32768x512 .f32) (r : FVec Ideal S512x512 .f32) (p : Fin 32768) (q : Fin 512) :
    Host.dotGeneral (F := Ideal) dot_S32768x512_S512x512_S32768x512_1_0_0_1_n_n none l r (ix2 p q) = ∑ k : Fin 512, l (ix2 p k) * r (ix2 k q) := by
  simp only [Host.dotGeneral]
  rw [Ideal.dotGeneral_apply, ← Equiv.sum_comp (contrEquiv1 dot_S32768x512_S512x512_S32768x512_1_0_0_1_n_n 512 rfl rfl).symm]
  refine Finset.sum_congr rfl fun k _ => ?_
  have hk := contrEquiv1_symm_val dot_S32768x512_S512x512_S32768x512_1_0_0_1_n_n 512 rfl rfl k
  have el : dot_S32768x512_S512x512_S32768x512_1_0_0_1_n_n.lhsIdx (ix2 p q) ((contrEquiv1 dot_S32768x512_S512x512_S32768x512_1_0_0_1_n_n 512 rfl rfl).symm k) = ix2 p k :=
    funext fun a => Fin.ext (by
      match a with
      | ⟨0, _⟩ => exact dotChild_lhs0 _ _
      | ⟨1, _⟩ => exact (dotChild_lhs1 _ _).trans hk)
  have er : dot_S32768x512_S512x512_S32768x512_1_0_0_1_n_n.rhsIdx (ix2 p q) ((contrEquiv1 dot_S32768x512_S512x512_S32768x512_1_0_0_1_n_n 512 rfl rfl).symm k) = ix2 k q :=
    funext fun a => Fin.ext (by
      match a with
      | ⟨0, _⟩ => exact (dotChild_rhs0 _ _).trans hk
      | ⟨1, _⟩ => exact dotChild_rhs1 _ _)
  rw [el, er]

end dotChild

end Cert.RefValue

end
-- ==== Proof.RefRead.lean ====
/-
  The reference's stages read at an entry, at the exact (extended-real) values, and identified with the
  specification's functions: the pre-activations with `gates`, the three gates with `iGate`, `oGate`, `gGate`, the
  exponentials of the children's logits with `wChild`, the stacked weights with `wRow`, the stacked rows with
  `mRow`, the normaliser with `denomR`, the merged cell with `c1R` and the hidden state with `h1R`.

  Layout: a slice of the [1, 1536] pre-activations at column q reads column (offset + q); a broadcast of a row over
  the rows of a taller array reads the row; a broadcast of a vector into a one-row array reads the vector; a
  [1, 512] array on top of a [32768, 512] array has the first as its row 0 and row k of the second as its row k + 1;
  a sum over the rows from the literal 0 is 0 plus the sum over the 32769 rows; σ spelt 1 / (1 + exp (-x)) with the
  literal 1.0 is the logistic function.
-/
import proofs.«163698_j23965917512359_2_alg».proof.Proof.RefStages
import proofs.«163698_j23965917512359_2_alg».proof.Proof.RefDots
import proofs.«163698_j23965917512359_2_alg».proof.Proof.SpecArr
import Idealize.ShloMosaic.Lib.Pipeline.Value
import Idealize.ShloMosaic.Lib.IdealHost

noncomputable section

namespace Cert.RefValue

open Cert.ReferenceIdeal Cert.ReferenceIdeal.Gen Idealize.ShloMosaic Idealize.ShloMosaic.ValueIdx Cert.Spec

/-! ## Pointwise operations and literals -/

/-- The host's exponential at an entry. -/
theorem hostExp_apply {s : Shape} (y : FVec Ideal s .f32) (i : s.Idx) : Host.exp y i = Ideal.exp (y i) := rfl
/-- The host's hyperbolic tangent at an entry. -/
theorem hostTanh_apply {s : Shape} (y : FVec Ideal s .f32) (i : s.Idx) : Host.tanh y i = Ideal.tanh (y i) := rfl

/-- Every entry of the [1, 512] array of ones is the extended real 1. -/
theorem ones1_apply (i : S1x512.Idx) : ones1 (F := Ideal) i = 1 := by
  unfold ones1
  rw [broadcastInDim_scalar_apply, constant_apply, Ideal.ofBits_one_f32]

/-- Every entry of the [32768, 512] array of ones is the extended real 1. -/
theorem onesK_apply (i : S32768x512.Idx) : onesK (F := Ideal) i = 1 := by
  unfold onesK
  rw [broadcastInDim_scalar_apply, constant_apply, Ideal.ofBits_one_f32]

/-- 1 / (1 + exp (-y)) over an array whose entry is 1 is the logistic function of the entry of y. -/
theorem sigmoid_apply {s : Shape} (one y : FVec Ideal s .f32) (i : s.Idx) (h1 : one i = 1) :
    Host.divf one (addf one (Host.exp (Host.negf y))) i = Ideal.logistic (y i) := by
  show Ideal.div (one i) (one i + Ideal.exp (-(y i))) = Ideal.logistic (y i)
  rw [h1]
  rfl

/-! ## Layout operations at an entry -/

/-- The bias vector broadcast into a [1, 1536] array reads the vector. -/
theorem bias_apply {α : Type} (y : S1536.Idx → α) (p : Fin 1) (q : Fin 1536) :
    broadcastInDim S1x1536 ![1] bcast_S1536_S1x1536_1 y (ix2 p q) = y (ix1 q) :=
  broadcastInDim_apply _ bcast_S1536_S1x1536_1 y (ix2 p q) (ix1 q) (fun a => match a with
    | ⟨0, _⟩ => by show q.val = if (1536 : Nat) = 1 then 0 else q.val; rw [if_neg (by decide)])

/-- A length-512 vector broadcast into a [1, 512] array reads the vector. -/
theorem colBcast_apply {α : Type} (y : S512.Idx → α) (p : Fin 1) (q : Fin 512) :
    broadcastInDim S1x512 ![1] bcast_S512_S1x512_1 y (ix2 p q) = y (ix1 q) :=
  broadcastInDim_apply _ bcast_S512_S1x512_1 y (ix2 p q) (ix1 q) (fun a => match a with
    | ⟨0, _⟩ => by show q.val = if (512 : Nat) = 1 then 0 else q.val; rw [if_neg (by decide)])

/-- A [1, 512] array broadcast over 32768 rows reads its one row. -/
theorem rowBcastK_apply {α : Type} (y : S1x512.Idx → α) (r : Fin 32768) (q : Fin 512) :
    broadcastInDim S32768x512 ![0, 1] bcast_S1x512_S32768x512_0_1 y (ix2 r q) = y (ix2 0 q) :=
  broadcastInDim_apply _ bcast_S1x512_S32768x512_0_1 y (ix2 r q) (ix2 0 q) (fun a => match a with
    | ⟨0, _⟩ => by show 0 = if (1 : Nat) = 1 then 0 else r.val; rw [if_pos rfl]
    | ⟨1, _⟩ => by show q.val = if (512 : Nat) = 1 then 0 else q.val; rw [if_neg (by decide)])

/-- A [1, 512] array broadcast over 32769 rows reads its one row. -/
theorem rowBcastK1_apply {α : Type} (y : S1x512.Idx → α) (k : Fin 32769) (q : Fin 512) :
    broadcastInDim S32769x512 ![0, 1] bcast_S1x512_S32769x512_0_1 y (ix2 k q) = y (ix2 0 q) :=
  broadcastInDim_apply _ bcast_S1x512_S32769x512_0_1 y (ix2 k q) (ix2 0 q) (fun a => match a with
    | ⟨0, _⟩ => by show 0 = if (1 : Nat) = 1 then 0 else k.val; rw [if_pos rfl]
    | ⟨1, _⟩ => by show q.val = if (512 : Nat) = 1 then 0 else q.val; rw [if_neg (by decide)])

/-- A [1, 512] array on top of a [32768, 512] array: row 0 is the first, row k + 1 is row k of the second. -/
theorem stack_apply {α : Type} (y₁ : S1x512.Idx → α) (y₂ : S32768x512.Idx → α) (k : Fin 32769) (q : Fin 512) :
    concatenate S32769x512 0 [⟨S1x512, y₁⟩, ⟨S32768x512, y₂⟩] concatenates_S1x512_S32768x512_S32769x512_d0 (ix2 k q)
      = if h : k.val = 0 then y₁ (ix2 0 q) else y₂ (ix2 ⟨k.val - 1, by have := k.isLt; omega⟩ q) := by
  by_cases h : k.val = 0
  · rw [dif_pos h]
    exact concatenate_pair_apply_left 0 y₁ y₂ _ (ix2 k q) rfl (ix2 0 q) (fun b => match b with
      | ⟨0, _⟩ => by show (0 : Nat) = k.val; omega
      | ⟨1, _⟩ => rfl)
  · rw [dif_neg h]
    exact concatenate_pair_apply_right 0 y₁ y₂ _ (ix2 k q) rfl rfl (ix2 ⟨k.val - 1, by have := k.isLt; omega⟩ q)
      (fun b hb => match b, hb with
        | ⟨0, _⟩, hb => (hb (Fin.ext rfl)).elim
        | ⟨1, _⟩, _ => rfl)
      (by show k.val - 1 + 1 = k.val; omega)

/-- The sum over the 32769 rows, from the literal 0. -/
theorem rowSum_apply (y : FVec Ideal S32769x512 .f32) (q : Fin 512) :
    Host.reduceAdd y (constant (F := Ideal) S_ .f32 0x00000000#32) reducesTo_S32769x512_S512_d0 h_S_ (ix1 q)
      = 0 + ∑ k : Fin 32769, y (ix2 k q) := by
  simp only [Host.reduceAdd, Ideal.hostReduceAdd_def]
  rw [Ideal.hostReduceAdd_single reducesTo_S32769x512_S512_d0 (by decide), constant_apply, Ideal.ofBits_zero_f32]
  refine congrArg (0 + ·) (Finset.sum_congr rfl fun k _ => ?_)
  exact congrArg y (funext fun a => Fin.ext (by match a with | ⟨0, _⟩ => rfl | ⟨1, _⟩ => rfl))

/-! ## The stages -/

/-- The pre-activations at column q. -/
theorem gatesA_apply (x0 x2 : FVec Ideal S1x512 .f32) (x4 x5 : FVec Ideal S512x1536 .f32) (x6 : FVec Ideal S1536 .f32) (p : Fin 1) (q : Fin 1536) :
    gatesA (F := Ideal) x0 x2 x4 x5 x6 (ix2 p q) = gates (rowOf x0) (rowOf x2) (matOf x4) (matOf x5) (vecOf x6) q := by
  obtain rfl : p = 0 := Subsingleton.elim _ _
  unfold gatesA
  rw [addf_apply, addf_apply, dotGate_apply, dotGate_apply, bias_apply]
  rfl

/-- The input gate at column q. -/
theorem iA_apply (x0 x2 : FVec Ideal S1x512 .f32) (x4 x5 : FVec Ideal S512x1536 .f32) (x6 : FVec Ideal S1536 .f32) (p : Fin 1) (q : Fin 512) :
    iA (F := Ideal) x0 x2 x4 x5 x6 (ix2 p q) = iGate (rowOf x0) (rowOf x2) (matOf x4) (matOf x5) (vecOf x6) q := by
  unfold iA
  rw [sigmoid_apply (ones1 (F := Ideal)) _ (ix2 p q) (ones1_apply _),
    extractStridedSlice_apply ![0, 0] _ slices_S1x1536_S1x512_0_0 (ix2 p q) (ix2 p ⟨q.val, by have := q.isLt; omega⟩) (fun a => match a with
      | ⟨0, _⟩ => by show p.val = 0 + p.val; omega
      | ⟨1, _⟩ => by show q.val = 0 + q.val; omega),
    gatesA_apply]
  rfl

/-- The output gate at column q. -/
theorem oA_apply (x0 x2 : FVec Ideal S1x512 .f32) (x4 x5 : FVec Ideal S512x1536 .f32) (x6 : FVec Ideal S1536 .f32) (p : Fin 1) (q : Fin 512) :
    oA (F := Ideal) x0 x2 x4 x5 x6 (ix2 p q) = oGate (rowOf x0) (rowOf x2) (matOf x4) (matOf x5) (vecOf x6) q := by
  unfold oA
  rw [sigmoid_apply (ones1 (F := Ideal)) _ (ix2 p q) (ones1_apply _),
    extractStridedSlice_apply ![0, 512] _ slices_S1x1536_S1x512_0_512 (ix2 p q) (ix2 p ⟨512 + q.val, by have := q.isLt; omega⟩) (fun a => match a with
      | ⟨0, _⟩ => by show p.val = 0 + p.val; omega
      | ⟨1, _⟩ => by show 512 + q.val = 512 + q.val; rfl),
    gatesA_apply]
  rfl

/-- The candidate at column q. -/
theorem gA_apply (x0 x2 : FVec Ideal S1x512 .f32) (x4 x5 : FVec Ideal S512x1536 .f32) (x6 : FVec Ideal S1536 .f32) (p : Fin 1) (q : Fin 512) :
    gA (F := Ideal) x0 x2 x4 x5 x6 (ix2 p q) = gGate (rowOf x0) (rowOf x2) (matOf x4) (matOf x5) (vecOf x6) q := by
  unfold gA
  rw [hostTanh_apply,
    extractStridedSlice_apply ![0, 1024] _ slices_S1x1536_S1x512_0_1024 (ix2 p q) (ix2 p ⟨1024 + q.val, by have := q.isLt; omega⟩) (fun a => match a with
      | ⟨0, _⟩ => by show p.val = 0 + p.val; omega
      | ⟨1, _⟩ => by show 1024 + q.val = 1024 + q.val; rfl),
    gatesA_apply]
  rfl

/-- The exponential of child r's logit at column q is the child's unnormalised weight. -/
theorem alphaA_apply (x0 : FVec Ideal S1x512 .f32) (x1 : FVec Ideal S32768x512 .f32) (x7 x8 : FVec Ideal S512x512 .f32)
    (r : Fin 32768) (q : Fin 512) :
    Ideal.exp (alphaA (F := Ideal) x0 x1 x7 x8 (ix2 r q)) = wChild (rowOf x0) (matOf x1) (matOf x7) (matOf x8) r q := by
  unfold alphaA
  rw [sigmoid_apply (onesK (F := Ideal)) _ (ix2 r q) (onesK_apply _), addf_apply, rowBcastK_apply, dotRow_apply, dotChild_apply]
  rfl

/-- The stacked weights at row k, column q. -/
theorem wA_apply (x0 : FVec Ideal S1x512 .f32) (x1 : FVec Ideal S32768x512 .f32) (x2 : FVec Ideal S1x512 .f32)
    (x4 x5 : FVec Ideal S512x1536 .f32) (x6 : FVec Ideal S1536 .f32) (x7 x8 : FVec Ideal S512x512 .f32) (k : Fin 32769) (q : Fin 512) :
    wA (F := Ideal) x0 x1 x2 x4 x5 x6 x7 x8 (ix2 k q) = wRow (rowOf x0) (rowOf x2) (matOf x1) (matOf x4) (matOf x5) (vecOf x6) (matOf x7) (matOf x8) k q := by
  unfold wA wRow
  rw [hostExp_apply, stack_apply]
  by_cases h : k.val = 0
  · rw [dif_pos h, dif_pos h, iA_apply]
    rfl
  · rw [dif_neg h, dif_neg h, alphaA_apply]

/-- The stacked rows that are merged, at row k, column q. -/
theorem merge_apply (x0 : FVec Ideal S1x512 .f32) (x1 : FVec Ideal S32768x512 .f32) (x2 : FVec Ideal S1x512 .f32)
    (x4 x5 : FVec Ideal S512x1536 .f32) (x6 : FVec Ideal S1536 .f32) (k : Fin 32769) (q : Fin 512) :
    concatenate S32769x512 0 [⟨S1x512, gA (F := Ideal) x0 x2 x4 x5 x6⟩, ⟨S32768x512, x1⟩] concatenates_S1x512_S32768x512_S32769x512_d0 (ix2 k q)
      = mRow (rowOf x0) (rowOf x2) (matOf x1) (matOf x4) (matOf x5) (vecOf x6) k q := by
  unfold mRow
  rw [stack_apply]
  by_cases h : k.val = 0
  · rw [dif_pos h, dif_pos h, gA_apply]
  · rw [dif_neg h, dif_neg h]
    rfl

/-- The normaliser at column q. -/
theorem denA_apply (x0 : FVec Ideal S1x512 .f32) (x1 : FVec Ideal S32768x512 .f32) (x2 : FVec Ideal S1x512 .f32)
    (x4 x5 : FVec Ideal S512x1536 .f32) (x6 : FVec Ideal S1536 .f32) (x7 x8 : FVec Ideal S512x512 .f32) (p : Fin 1) (q : Fin 512) :
    denA (F := Ideal) x0 x1 x2 x4 x5 x6 x7 x8 (ix2 p q) = denomR (rowOf x0) (rowOf x2) (matOf x1) (matOf x4) (matOf x5) (vecOf x6) (matOf x7) (matOf x8) q := by
  unfold denA denomR
  rw [addf_apply, colBcast_apply, rowSum_apply, broadcastInDim_scalar_apply, constant_apply]
  refine congrArg₂ (· + ·) (congrArg (0 + ·) (Finset.sum_congr rfl fun k _ => wA_apply x0 x1 x2 x4 x5 x6 x7 x8 k q)) rfl

/-- The merged cell at column q. -/
theorem c1A_apply (x0 : FVec Ideal S1x512 .f32) (x1 : FVec Ideal S32768x512 .f32) (x2 : FVec Ideal S1x512 .f32)
    (x4 x5 : FVec Ideal S512x1536 .f32) (x6 : FVec Ideal S1536 .f32) (x7 x8 : FVec Ideal S512x512 .f32) (p : Fin 1) (q : Fin 512) :
    c1A (F := Ideal) x0 x1 x2 x4 x5 x6 x7 x8 (ix2 p q) = c1R (rowOf x0) (rowOf x2) (matOf x1) (matOf x4) (matOf x5) (vecOf x6) (matOf x7) (matOf x8) q := by
  unfold c1A c1R
  rw [colBcast_apply, rowSum_apply]
  refine congrArg (0 + ·) (Finset.sum_congr rfl fun k _ => ?_)
  rw [mulf_apply, hostDivf_apply, merge_apply, wA_apply, rowBcastK1_apply, denA_apply]

/-- The hidden state at column q. -/
theorem h1A_apply (x0 : FVec Ideal S1x512 .f32) (x1 : FVec Ideal S32768x512 .f32) (x2 : FVec Ideal S1x512 .f32)
    (x4 x5 : FVec Ideal S512x1536 .f32) (x6 : FVec Ideal S1536 .f32) (x7 x8 : FVec Ideal S512x512 .f32) (p : Fin 1) (q : Fin 512) :
    h1A (F := Ideal) x0 x1 x2 x4 x5 x6 x7 x8 (ix2 p q) = h1R (rowOf x0) (rowOf x2) (matOf x1) (matOf x4) (matOf x5) (vecOf x6) (matOf x7) (matOf x8) q := by
  unfold h1A h1R
  rw [mulf_apply, hostTanh_apply, oA_apply, c1A_apply]

/-! ## The two results as whole arrays -/

/-- The reference's merged cell is the specification's, the reference's arrangement. -/
theorem c1A_eq (x0 : FVec Ideal S1x512 .f32) (x1 : FVec Ideal S32768x512 .f32) (x2 : FVec Ideal S1x512 .f32)
    (x4 x5 : FVec Ideal S512x1536 .f32) (x6 : FVec Ideal S1536 .f32) (x7 x8 : FVec Ideal S512x512 .f32) :
    c1A (F := Ideal) x0 x1 x2 x4 x5 x6 x7 x8 = c1RArr x0 x2 x1 x4 x5 x6 x7 x8 := by
  funext i
  obtain ⟨p, q, rfl⟩ : ∃ (p : Fin 1) (q : Fin 512), i = ix2 p q := ⟨i 0, i 1, eq_ix2 i⟩
  rw [c1A_apply]
  rfl

/-- The reference's hidden state is the specification's, the reference's arrangement. -/
theorem h1A_eq (x0 : FVec Ideal S1x512 .f32) (x1 : FVec Ideal S32768x512 .f32) (x2 : FVec Ideal S1x512 .f32)
    (x4 x5 : FVec Ideal S512x1536 .f32) (x6 : FVec Ideal S1536 .f32) (x7 x8 : FVec Ideal S512x512 .f32) :
    h1A (F := Ideal) x0 x1 x2 x4 x5 x6 x7 x8 = h1RArr x0 x2 x1 x4 x5 x6 x7 x8 := by
  funext i
  obtain ⟨p, q, rfl⟩ : ∃ (p : Fin 1) (q : Fin 512), i = ix2 p q := ⟨i 0, i 1, eq_ix2 i⟩
  rw [h1A_apply]
  rfl

end Cert.RefValue

end
-- ==== Proof.RefValue.lean ====
/-
  The reference's value.  Every weakly fair execution of the reference program terminates with its first result,
  the hidden state, and its second, the merged cell, at the specification's functions (the reference's arrangement:
  each of the 32769 stacked rows times its own normalised weight, summed from 0) of the argument arrays, and with
  the argument arrays as they were.  The run gives the two results as the composed stages of the arguments; the
  stages were read entry by entry and identified with the specification.
-/
import proofs.«163698_j23965917512359_2_alg».proof.Proof.RefRun
import proofs.«163698_j23965917512359_2_alg».proof.Proof.RefRead

noncomputable section

namespace Cert.RefValue

open Cert.ReferenceIdeal Cert.ReferenceIdeal.Gen Idealize.ShloMosaic Idealize.ShloMosaic.TcCoe Idealize.SL.Sem Idealize.ShloMosaic.StableHlo

/-- From any memory with zero counters, at the exact values: the reference ends with the hidden state and the merged
    cell of the specification, the reference's arrangement, and its arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v44) = Cert.Spec.h1RArr (m' ((c.tc : Thread nD τ).loc main_arg0)) (m' ((c.tc : Thread nD τ).loc main_arg2)) (m' ((c.tc : Thread nD τ).loc main_arg1)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
      ∧ r.2.mem ((c.tc : Thread nD τ).loc main_v42) = Cert.Spec.c1RArr (m' ((c.tc : Thread nD τ).loc main_arg0)) (m' ((c.tc : Thread nD τ).loc main_arg2)) (m' ((c.tc : Thread nD τ).loc main_arg1)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) :=
  (θ_run defs _ _).mono (fun _ h c => ⟨(h c).1.trans (h1A_eq _ _ _ _ _ _ _ _), (h c).2.1.trans (c1A_eq _ _ _ _ _ _ _ _), (h c).2.2⟩)
    (run_stages (F := Ideal) m' ρ')

end Cert.RefValue

end
-- ==== Proof.LibERealCoe.lean ====
import Mathlib.Data.EReal.Operations
import Mathlib.Data.Finset.Lattice.Fold
import Mathlib.Algebra.BigOperators.Group.Finset.Basic

/-!
# The coercion `ℝ → EReal` commutes with `max`, `min`, finite sums and finite suprema

The coercion is known to commute with `+`, `-`, `*` and negation (`EReal.coe_add`, `EReal.coe_sub`,
`EReal.coe_mul`, `EReal.coe_neg`).  This file adds the companions for `max`, `min`, `∑ i ∈ S`, `Finset.sup'` and `Finset.inf'` (namespace
`ERealCoe`), each stated with the real operation inside the coercion on the left.
-/

namespace ERealCoe

open Finset

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_finset_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [sum_insert ha, sum_insert ha, EReal.coe_add, ih]

theorem coe_sum {ι : Type*} [Fintype ι] (f : ι → ℝ) :
    ((∑ i, f i : ℝ) : EReal) = ∑ i, ((f i : ℝ) : EReal) :=
  coe_finset_sum univ f

theorem coe_sup' {ι : Type*} (S : Finset ι) (hS : S.Nonempty) (f : ι → ℝ) :
    ((S.sup' hS f : ℝ) : EReal) = S.sup' hS fun i => ((f i : ℝ) : EReal) :=
  apply_sup'_eq_sup'_comp hS (fun x : ℝ => (x : EReal)) coe_max

theorem coe_inf' {ι : Type*} (S : Finset ι) (hS : S.Nonempty) (f : ι → ℝ) :
    ((S.inf' hS f : ℝ) : EReal) = S.inf' hS fun i => ((f i : ℝ) : EReal) :=
  apply_inf'_eq_inf'_comp hS (fun x : ℝ => (x : EReal)) coe_min

end ERealCoe
-- ==== Proof.LibFinite.lean ====
import Idealize.ShloMosaic.PureOps.Ideal
import proofs.«163698_j23965917512359_2_alg».proof.Proof.LibERealCoe

/-!
# Extended reals that are real numbers

`IsReal x` says that the extended real `x` is (the coercion of) a real number, and `IsPosReal x`
that it is a positive real number.  The file proves that the two predicates are closed under the
operations of the ideal float instance that keep a finite computation finite: sums, differences,
products, negation, maxima and minima, finite sums, the quotient by a nonzero real, the exponential,
and the reciprocal square root of a positive real; and that the exponential of a value clamped between
two real bounds is a positive real whatever the clamped value is, the infinities included.
-/

namespace ERealFinite

open Idealize.ShloMosaic

/-- The extended real `x` is a real number. -/
def IsReal (x : EReal) : Prop := ∃ r : ℝ, x = (r : EReal)

/-- The extended real `x` is a positive real number. -/
def IsPosReal (x : EReal) : Prop := ∃ r : ℝ, 0 < r ∧ x = (r : EReal)

theorem isReal_coe (r : ℝ) : IsReal (r : EReal) := ⟨r, rfl⟩

theorem isReal_zero : IsReal 0 := ⟨0, rfl⟩

theorem isReal_one : IsReal 1 := ⟨1, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | top => exact absurd rfl ht
    | coe r => exact ⟨r, rfl⟩

theorem IsPosReal.isReal {x : EReal} (h : IsPosReal x) : IsReal x := by
  obtain ⟨r, _, rfl⟩ := h; exact ⟨r, rfl⟩

theorem IsPosReal.ne_zero {x : EReal} (h : IsPosReal x) : x ≠ 0 := by
  obtain ⟨r, hr, rfl⟩ := h
  exact fun h0 => hr.ne' (by exact_mod_cast h0)

theorem IsPosReal.pos {x : EReal} (h : IsPosReal x) : 0 < x := by
  obtain ⟨r, hr, rfl⟩ := h
  exact_mod_cast hr

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  obtain ⟨a, rfl⟩ := hx; obtain ⟨b, rfl⟩ := hy
  exact ⟨Max.max a b, (ERealCoe.coe_max a b).symm⟩

theorem IsReal.min {x y : EReal} (hx : IsReal x) (hy : IsReal y) : IsReal (min x y) := by
  obtain ⟨a, rfl⟩ := hx; obtain ⟨b, rfl⟩ := hy
  exact ⟨Min.min a b, (ERealCoe.coe_min a b).symm⟩

/-- A finite sum of real numbers is a real number. -/
theorem isReal_sum {ι : Type*} (S : Finset ι) (f : ι → EReal) (h : ∀ i ∈ S, IsReal (f i)) :
    IsReal (∑ i ∈ S, f i) := by
  classical
  induction S using Finset.induction_on with
  | empty => rw [Finset.sum_empty]; exact isReal_zero
  | insert a S ha ih =>
    rw [Finset.sum_insert ha]
    exact (h a (Finset.mem_insert_self a S)).add (ih fun i hi => h i (Finset.mem_insert_of_mem hi))

theorem isReal_sum_univ {ι : Type*} [Fintype ι] (f : ι → EReal) (h : ∀ i, IsReal (f i)) :
    IsReal (∑ i, f i) :=
  isReal_sum Finset.univ f fun i _ => h i

/-- The ideal quotient of two reals, the divisor not zero, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  exact ⟨a / b, div_coe_coe a hb⟩

theorem IsReal.div_pos {x y : EReal} (hx : IsReal x) (hy : IsPosReal y) : IsReal (Ideal.div x y) :=
  hx.div hy.isReal hy.ne_zero

theorem IsReal.exp {x : EReal} (hx : IsReal x) : IsReal (Ideal.exp x) := by
  obtain ⟨a, rfl⟩ := hx
  exact ⟨Real.exp a, Ideal.exp_coe a⟩

theorem IsReal.exp_pos {x : EReal} (hx : IsReal x) : IsPosReal (Ideal.exp x) := by
  obtain ⟨a, rfl⟩ := hx
  exact ⟨Real.exp a, Real.exp_pos a, Ideal.exp_coe a⟩

/-- The reciprocal square root of a positive real is a positive real. -/
theorem IsPosReal.rsqrt {x : EReal} (hx : IsPosReal x) : IsPosReal (Ideal.rsqrt x) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- A value clamped between two real bounds is a real number, the infinities included. -/
theorem isReal_clamp (lo hi : ℝ) (s : EReal) : IsReal (Min.min (hi : EReal) (Max.max (lo : EReal) s)) := by
  induction s using EReal.rec with
  | bot => rw [max_eq_left bot_le]; exact (isReal_coe hi).min (isReal_coe lo)
  | top => rw [max_eq_right le_top, min_eq_left le_top]; exact isReal_coe hi
  | coe r => exact (isReal_coe hi).min ((isReal_coe lo).max (isReal_coe r))

/-- The exponential of a clamped value is a positive real, whatever the clamped value is. -/
theorem isPosReal_exp_clamp (lo hi : ℝ) (s : EReal) :
    IsPosReal (Ideal.exp (Min.min (hi : EReal) (Max.max (lo : EReal) s))) :=
  (isReal_clamp lo hi s).exp_pos

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A nonnegative real plus a positive real is a positive real. -/
theorem isPosReal_add_of_nonneg {a : ℝ} (ha : 0 ≤ a) {y : EReal} (hy : IsPosReal y) :
    IsPosReal ((a : EReal) + y) := by
  obtain ⟨b, hb, rfl⟩ := hy
  exact ⟨a + b, add_pos_of_nonneg_of_pos ha hb, (EReal.coe_add a b).symm⟩

/-- A sum of positive reals over a nonempty finite set is a positive real. -/
theorem isPosReal_sum {ι : Type*} (S : Finset ι) (hS : S.Nonempty) (f : ι → EReal)
    (h : ∀ i ∈ S, IsPosReal (f i)) : IsPosReal (∑ i ∈ S, f i) := by
  classical
  induction hS using Finset.Nonempty.cons_induction with
  | singleton a => rw [Finset.sum_singleton]; exact h a (Finset.mem_singleton_self a)
  | cons a S ha hS ih =>
    rw [Finset.sum_cons]
    exact (h a (Finset.mem_cons_self a S)).add (ih fun i hi => h i (Finset.mem_cons_of_mem hi))

end ERealFinite
-- ==== Proof.LibTileAccum.lean ====
/-
  Joining a sum accumulated tile by tile to the whole sum.

  The adjacency-weighted sum over all 8192 nodes is computed as eight partial sums, one per tile of 1024 consecutive
  nodes, added one after the other into an accumulator that starts at zero. Over the extended reals addition is
  commutative and associative (an additive commutative monoid), so the accumulated value is the sum over all nodes.
  Nothing here distributes a product over a sum, so no finiteness is needed.
-/
import Mathlib.Algebra.BigOperators.Fin
import Mathlib.Data.Fintype.BigOperators
import Mathlib.Logic.Equiv.Fin.Basic
import Mathlib.Data.EReal.Basic

noncomputable section

open scoped BigOperators

namespace Cert.Accum

/-- A sum over `Fin (m * n)` read as `m` consecutive blocks of `n` terms: block `k`, position `j` is term
    `j + n * k`. -/
theorem blocks_sum {M : Type*} [AddCommMonoid M] (m n : ℕ) (f : Fin (m * n) → M) :
    ∑ k : Fin m, ∑ j : Fin n, f (finProdFinEquiv (k, j)) = ∑ x : Fin (m * n), f x := by
  rw [← Fintype.sum_prod_type' (fun k j => f (finProdFinEquiv (k, j)))]
  exact Equiv.sum_comp finProdFinEquiv f

/-- Eight tiles of 1024 terms make up the sum of all 8192 terms. -/
theorem tiles_sum (f : Fin 8192 → EReal) :
    ∑ k : Fin 8, ∑ j : Fin 1024, f ⟨k.val * 1024 + j.val, by omega⟩ = ∑ n : Fin 8192, f n := by
  refine Eq.trans ?_ (blocks_sum 8 1024 f)
  refine Finset.sum_congr rfl fun k _ => Finset.sum_congr rfl fun j _ => congrArg f (Fin.ext ?_)
  show k.val * 1024 + j.val = j.val + 1024 * k.val
  omega

/-- Eight terms added one after the other into a zero accumulator are their sum. -/
theorem fold8 (d : Fin 8 → EReal) :
    (((((((0 + d 0) + d 1) + d 2) + d 3) + d 4) + d 5) + d 6) + d 7 = ∑ k : Fin 8, d k := by
  rw [Fin.sum_univ_eight, zero_add]

/-- The accumulator after tile `n`: it starts at zero, and each tile adds its partial sum. -/
def accN (d : ℕ → EReal) : ℕ → EReal
  | 0 => 0 + d 0
  | n + 1 => accN d n + d (n + 1)

/-- The accumulator after tile `n` is the sum of the partial sums of tiles `0 … n`. -/
theorem accN_eq (d : ℕ → EReal) (n : ℕ) : accN d n = ∑ k ∈ Finset.range (n + 1), d k := by
  induction n with
  | zero => simp [accN]
  | succ n ih => rw [accN, ih, Finset.sum_range_succ d (n + 1)]

/-- After the eighth tile the accumulator is the sum of all eight partial sums. -/
theorem accN_seven (d : ℕ → EReal) : accN d 7 = ∑ k : Fin 8, d k.val := by
  rw [accN_eq, Finset.sum_range]

/-- The accumulator after the eighth tile, when tile `k`'s partial sum is the sum of `f` over the tile's 1024 terms,
    is the sum of `f` over all 8192 terms. -/
theorem accN_tiles (f : Fin 8192 → EReal) (d : ℕ → EReal)
    (hd : ∀ k : Fin 8, d k.val = ∑ j : Fin 1024, f ⟨k.val * 1024 + j.val, by omega⟩) :
    accN d 7 = ∑ n : Fin 8192, f n := by
  rw [accN_seven, ← tiles_sum f]
  exact Finset.sum_congr rfl fun k _ => hd k

end Cert.Accum

end
-- ==== Proof.Algebra.lean ====
/-
  The two arrangements of the merged cell agree when the children's entries are real numbers.

  Write w r > 0 for the weight of child row r, m r for its entry, g for the candidate and wo > 0 for its
  weight, ε > 0 for the small constant.  One arrangement sums the children tile by tile and divides once,

      ((Σ m·w) + g·wo) / (((Σ w) + wo) + ε),

  the other normalises every weight by D = (0 + (wo + Σ w)) + ε first and then sums from zero,

      0 + (g · (wo / D) + Σ m · (w / D)).

  Over the reals this is Σ (m·w)/D = (Σ m·w)/D and commutativity.  Over the extended reals distributing a factor
  over a sum fails at the infinities, so the law is proved over ℝ and transported along the coercion, using that every
  quantity is a real number: a logistic value and a hyperbolic tangent are real whatever their argument is, an
  exponential of a real is a positive real, and the children's entries are real by hypothesis.

  The tiling is pure reassociation: 32768 rows are 16 consecutive tiles of 2048 rows, and the 16 tiles are two
  halves of 8.
-/
import Idealize.ShloMosaic.PureOps.Ideal
import proofs.«163698_j23965917512359_2_alg».proof.Proof.Spec
import proofs.«163698_j23965917512359_2_alg».proof.Proof.SpecArr
import proofs.«163698_j23965917512359_2_alg».proof.Proof.LibFinite
import proofs.«163698_j23965917512359_2_alg».proof.Proof.LibTileAccum

noncomputable section

namespace Cert.Algebra

open Idealize.ShloMosaic ERealFinite Cert.Spec

/-! ### The weighted-mean law -/

/-- Over the reals: normalising each weight first, or dividing the weighted sum once, is the same number. -/
theorem mean_real {ι : Type*} [Fintype ι] (m w : ι → ℝ) (g wo e : ℝ) :
    g * (wo / ((wo + ∑ r, w r) + e)) + ∑ r, m r * (w r / ((wo + ∑ r, w r) + e))
      = ((∑ r, m r * w r) + g * wo) / (((∑ r, w r) + wo) + e) := by
  have hD' : ((∑ r, w r) + wo) + e = (wo + ∑ r, w r) + e := by ring
  have hs : ∑ r, m r * (w r / ((wo + ∑ r, w r) + e)) = (∑ r, m r * w r) / ((wo + ∑ r, w r) + e) := by
    rw [Finset.sum_div]
    exact Finset.sum_congr rfl fun r _ => (mul_div_assoc (m r) (w r) _).symm
  rw [hs, hD', ← mul_div_assoc, ← add_div, add_comm]

/-- The same law over the extended reals, for real entries and positive real weights. -/
theorem mean_ereal {ι : Type*} [Fintype ι] (m w : ι → EReal) (g wo e : EReal)
    (hm : ∀ r, IsReal (m r)) (hw : ∀ r, IsPosReal (w r)) (hg : IsReal g) (hwo : IsPosReal wo) (he : IsPosReal e) :
    0 + (g * Ideal.div wo ((0 + (wo + ∑ r, w r)) + e) + ∑ r, m r * Ideal.div (w r) ((0 + (wo + ∑ r, w r)) + e))
      = Ideal.div ((∑ r, m r * w r) + g * wo) (((∑ r, w r) + wo) + e) := by
  choose m' hm' using hm
  choose w' hwpos hw' using hw
  obtain ⟨g', rfl⟩ := hg
  obtain ⟨wo', hwo', rfl⟩ := hwo
  obtain ⟨e', he', rfl⟩ := he
  obtain rfl : m = fun r => ((m' r : ℝ) : EReal) := funext hm'
  obtain rfl : w = fun r => ((w' r : ℝ) : EReal) := funext hw'
  have hsum : 0 ≤ ∑ r, w' r := Finset.sum_nonneg fun r _ => (hwpos r).le
  have hD : (wo' + ∑ r, w' r) + e' ≠ 0 := by
    have : 0 < (wo' + ∑ r, w' r) + e' := by linarith
    exact this.ne'
  have hD2 : ((∑ r, w' r) + wo') + e' ≠ 0 := by
    have : 0 < ((∑ r, w' r) + wo') + e' := by linarith
    exact this.ne'
  have hsw : ∑ r, ((w' r : ℝ) : EReal) = ((∑ r, w' r : ℝ) : EReal) := (ERealCoe.coe_sum w').symm
  have hden : (0 + ((wo' : EReal) + ∑ r, ((w' r : ℝ) : EReal))) + (e' : EReal)
      = (((wo' + ∑ r, w' r) + e' : ℝ) : EReal) := by
    rw [zero_add, hsw, ← EReal.coe_add, ← EReal.coe_add]
  have hden2 : ((∑ r, ((w' r : ℝ) : EReal)) + (wo' : EReal)) + (e' : EReal)
      = ((((∑ r, w' r) + wo') + e' : ℝ) : EReal) := by
    rw [hsw, ← EReal.coe_add, ← EReal.coe_add]
  have hnum : (∑ r, ((m' r : ℝ) : EReal) * ((w' r : ℝ) : EReal)) + (g' : EReal) * (wo' : EReal)
      = (((∑ r, m' r * w' r) + g' * wo' : ℝ) : EReal) := by
    rw [EReal.coe_add, EReal.coe_mul, ERealCoe.coe_sum]
    exact congrArg (· + (g' : EReal) * (wo' : EReal)) (Finset.sum_congr rfl fun r _ => (EReal.coe_mul _ _).symm)
  have hterm : ∀ r, ((m' r : ℝ) : EReal) * Ideal.div ((w' r : ℝ) : EReal) (((wo' + ∑ r, w' r) + e' : ℝ) : EReal)
      = ((m' r * (w' r / ((wo' + ∑ r, w' r) + e')) : ℝ) : EReal) := fun r => by
    rw [div_coe_coe _ hD, ← EReal.coe_mul]
  show 0 + ((g' : EReal) * Ideal.div (wo' : EReal) ((0 + ((wo' : EReal) + ∑ r, ((w' r : ℝ) : EReal))) + (e' : EReal))
        + ∑ r, ((m' r : ℝ) : EReal) * Ideal.div ((w' r : ℝ) : EReal) ((0 + ((wo' : EReal) + ∑ r, ((w' r : ℝ) : EReal))) + (e' : EReal)))
      = Ideal.div ((∑ r, ((m' r : ℝ) : EReal) * ((w' r : ℝ) : EReal)) + (g' : EReal) * (wo' : EReal))
          (((∑ r, ((w' r : ℝ) : EReal)) + (wo' : EReal)) + (e' : EReal))
  rw [hden, hden2, hnum, div_coe_coe _ hD2, div_coe_coe _ hD, zero_add, Finset.sum_congr rfl fun r _ => hterm r,
    ← ERealCoe.coe_sum, ← EReal.coe_mul, ← EReal.coe_add, mean_real m' w' g' wo' e']

/-! ### The tiling -/

/-- The 32768 rows are 16 tiles of 2048 rows, the tiles taken as two halves of 8. -/
theorem halves_sum {M : Type*} [AddCommMonoid M] (f : Fin 32768 → M) :
    (∑ T : Fin 8, ∑ r : Fin 2048, f (tileRow ⟨8 * (0 : Fin 2).val + T.val, by omega⟩ r))
      + (∑ T : Fin 8, ∑ r : Fin 2048, f (tileRow ⟨8 * (1 : Fin 2).val + T.val, by omega⟩ r)) = ∑ r, f r := by
  refine Eq.trans ?_ (Cert.Accum.blocks_sum 16 2048 f)
  refine Eq.trans ?_ (Fin.sum_univ_add (a := 8) (b := 8)
    (fun k : Fin (8 + 8) => ∑ j : Fin 2048, f (finProdFinEquiv (k, j)))).symm
  refine congrArg₂ (· + ·) ?_ ?_
  · refine Finset.sum_congr rfl fun T _ => Finset.sum_congr rfl fun r _ => congrArg f (Fin.ext ?_)
    show 2048 * (8 * 0 + T.val) + r.val = r.val + 2048 * T.val
    omega
  · refine Finset.sum_congr rfl fun T _ => Finset.sum_congr rfl fun r _ => congrArg f (Fin.ext ?_)
    show 2048 * (8 * 1 + T.val) + r.val = r.val + 2048 * (8 + T.val)
    omega

/-! ### Every quantity is a real number -/

/-- A logistic value is a real number, whatever the argument: 0 and 1 at the infinities. -/
theorem isReal_logistic (x : EReal) : IsReal (Ideal.logistic x) := by
  induction x using EReal.rec with
  | bot => rw [Ideal.logistic_bot]; exact isReal_zero
  | top => rw [Ideal.logistic_top]; exact isReal_one
  | coe r => rw [Ideal.logistic_coe]; exact isReal_coe _

/-- A hyperbolic tangent is a real number, whatever the argument: -1 and 1 at the infinities. -/
theorem isReal_tanh (x : EReal) : IsReal (Ideal.tanh x) := by
  induction x using EReal.rec with
  | bot => rw [Ideal.tanh_bot]; exact isReal_one.neg
  | top => rw [Ideal.tanh_top]; exact isReal_one
  | coe r => rw [Ideal.tanh_coe]; exact isReal_coe _

/-- The small constant is a positive real number. -/
theorem eps_pos : IsPosReal eps := by
  unfold eps
  simp [Ideal.ofBits, Ideal.ieee, -EReal.coe_mul]
  exact ⟨_, by positivity, rfl⟩

section
variable (inp h0 : Fin 512 → EReal) (C : Fin 32768 → Fin 512 → EReal) (wih whh : Fin 512 → Fin 1536 → EReal)
  (b : Fin 1536 → EReal) (awih awhh : Fin 512 → Fin 512 → EReal)

/-- A child's weight is the exponential of a logistic value: a positive real. -/
theorem wChild_pos (r : Fin 32768) (j : Fin 512) : IsPosReal (wChild inp C awih awhh r j) :=
  (isReal_logistic _).exp_pos

/-- The candidate's weight is the exponential of a logistic value: a positive real. -/
theorem wOwn_pos (j : Fin 512) : IsPosReal (wOwn inp h0 wih whh b j) :=
  (isReal_logistic _).exp_pos

/-- The candidate is a hyperbolic tangent: a real number. -/
theorem gGate_real (j : Fin 512) : IsReal (gGate inp h0 wih whh b j) :=
  isReal_tanh _

/-! ### The stacked rows: the candidate first, then the children -/

theorem wRow_zero (j : Fin 512) : wRow inp h0 C wih whh b awih awhh 0 j = wOwn inp h0 wih whh b j := by
  rw [wRow, dif_pos (show (0 : Fin 32769).val = 0 from rfl)]

theorem wRow_succ (r : Fin 32768) (j : Fin 512) :
    wRow inp h0 C wih whh b awih awhh r.succ j = wChild inp C awih awhh r j := by
  have h : (r.succ : Fin 32769).val ≠ 0 := by simp
  rw [wRow, dif_neg h]
  exact congrArg (fun q => wChild inp C awih awhh q j) (Fin.ext (by simp))

theorem mRow_zero (j : Fin 512) : mRow inp h0 C wih whh b 0 j = gGate inp h0 wih whh b j := by
  rw [mRow, dif_pos (show (0 : Fin 32769).val = 0 from rfl)]

theorem mRow_succ (r : Fin 32768) (j : Fin 512) : mRow inp h0 C wih whh b r.succ j = C r j := by
  have h : (r.succ : Fin 32769).val ≠ 0 := by simp
  rw [mRow, dif_neg h]
  exact congrArg (fun q => C q j) (Fin.ext (by simp))

/-- The reference's normaliser: the candidate's weight split off the stacked sum. -/
theorem denomR_eq (j : Fin 512) :
    denomR inp h0 C wih whh b awih awhh j
      = (0 + (wOwn inp h0 wih whh b j + ∑ r, wChild inp C awih awhh r j)) + eps := by
  rw [denomR, Fin.sum_univ_succ, wRow_zero]
  simp only [wRow_succ]

/-- The kernel's two halves of the weights are the sum over all children. -/
theorem halfE_sum (j : Fin 512) :
    halfE inp C awih awhh 0 j + halfE inp C awih awhh 1 j = ∑ r, wChild inp C awih awhh r j :=
  halves_sum fun r => wChild inp C awih awhh r j

/-- The kernel's two halves of the weighted rows are the sum over all children. -/
theorem halfW_sum (j : Fin 512) :
    halfW inp C awih awhh 0 j + halfW inp C awih awhh 1 j = ∑ r, C r j * wChild inp C awih awhh r j :=
  halves_sum fun r => C r j * wChild inp C awih awhh r j

/-! ### The two arrangements agree -/

/-- The merged cell: the kernel's arrangement equals the reference's, the children's entries being real numbers. -/
theorem c1_eq (hC : ∀ r k, ∃ x : ℝ, C r k = (x : EReal)) (j : Fin 512) :
    c1K inp h0 C wih whh b awih awhh j = c1R inp h0 C wih whh b awih awhh j := by
  rw [c1R, Fin.sum_univ_succ, denomR_eq, wRow_zero, mRow_zero]
  simp only [wRow_succ, mRow_succ]
  rw [c1K, halfE_sum, halfW_sum]
  exact (mean_ereal (fun r => C r j) (fun r => wChild inp C awih awhh r j) (gGate inp h0 wih whh b j)
    (wOwn inp h0 wih whh b j) eps (fun r => hC r j) (fun r => wChild_pos inp C awih awhh r j)
    (gGate_real inp h0 wih whh b j) (wOwn_pos inp h0 wih whh b j) eps_pos).symm

/-- The hidden state: the same output gate times the hyperbolic tangent of equal cells. -/
theorem h1_eq (hC : ∀ r k, ∃ x : ℝ, C r k = (x : EReal)) (j : Fin 512) :
    h1K inp h0 C wih whh b awih awhh j = h1R inp h0 C wih whh b awih awhh j := by
  rw [h1K, h1R, c1_eq inp h0 C wih whh b awih awhh hC j]

end

/-! ### Over the array shapes -/

section
variable (a0 a2 : FVec Ideal ⟨2, ![1, 512]⟩ .f32) (a1 : FVec Ideal ⟨2, ![32768, 512]⟩ .f32)
  (a4 a5 : FVec Ideal ⟨2, ![512, 1536]⟩ .f32) (a6 : FVec Ideal ⟨1, ![1536]⟩ .f32) (a7 a8 : FVec Ideal ⟨2, ![512, 512]⟩ .f32)

/-- The merged cell as an array: the two arrangements agree when every child entry is a real number. -/
theorem c1Arr_eq (h1 : ∀ i, ∃ x : ℝ, a1 i = (x : EReal)) :
    c1KArr a0 a2 a1 a4 a5 a6 a7 a8 = c1RArr a0 a2 a1 a4 a5 a6 a7 a8 :=
  funext fun i => c1_eq (rowOf a0) (rowOf a2) (matOf a1) (matOf a4) (matOf a5) (vecOf a6) (matOf a7) (matOf a8)
    (fun r k => h1 (ValueIdx.ix2 r k)) (i 1)

/-- The hidden state as an array: the two arrangements agree when every child entry is a real number. -/
theorem h1Arr_eq (h1 : ∀ i, ∃ x : ℝ, a1 i = (x : EReal)) :
    h1KArr a0 a2 a1 a4 a5 a6 a7 a8 = h1RArr a0 a2 a1 a4 a5 a6 a7 a8 :=
  funext fun i => h1_eq (rowOf a0) (rowOf a2) (matOf a1) (matOf a4) (matOf a5) (vecOf a6) (matOf a7) (matOf a8)
    (fun r k => h1 (ValueIdx.ix2 r k)) (i 1)

end

end Cert.Algebra

end
-- ==== Proof.Finite.lean ====
/-
  From the printed precondition to "every entry is a real number".

  The precondition is the conjunction, over the nine argument arrays, of "every entry x satisfies |x| < +∞", each
  conjunct a reduction by "and" of the entrywise comparisons from the constant 1.  A reduction by "and" that is 1 had a
  1 at every entry; |x| is max x (-x), and max x (-x) < ⊤ excludes both infinities, so x is a real number.
-/
import Idealize.ShloMosaic.Lib.ReduceAll
import Idealize.ShloMosaic.Lib.ValueIdx
import Idealize.ShloMosaic.PureOps.Ideal
import proofs.«163698_j23965917512359_2_alg».proof.Pre_finite_inputs
import proofs.«163698_j23965917512359_2_alg».proof.Proof.Gen.Pre_finite_inputs

namespace Cert.Finite

open Idealize.ShloMosaic Cert.Pre_finite_inputs

/-- The shape of rank zero has one index. -/
instance : Subsingleton S_.Idx := ⟨fun a b => funext fun d => d.elim0⟩

/-- The pattern of the comparison's right-hand side is +∞. -/
theorem inf_bits : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One entry: the comparison of |a i| with the broadcast +∞ being 1 makes a i a real number. -/
theorem elem_real {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) := by
  have h' : Ideal.cmp .olt (max (a i) (-(a i))) (Ideal.ofBits .f32 0x7F800000#32) = 1#1 := h
  rw [inf_bits] at h'
  refine real_of_abs_lt_top (a i) ?_
  simp only [Ideal.cmp] at h'
  by_contra hn
  rw [decide_eq_false hn] at h'
  exact absurd h' (by decide)

/-- One array: the reduction by "and" of the entrywise comparisons being 1 makes every entry a real number. -/
theorem all_real {s : Shape} {axes : List (Fin s.rank)} (hb : S_.BroadcastsInDim s (![] : Fin 0 → Fin s.rank))
    (hr : s.ReducesTo axes S_) (hu : 0 < S_.numel) (a : FVec Ideal s .f32) (init : IVec S_ 1)
    (h : Host.reduce IntOp.andi (cmpf .olt (Host.absf a) (broadcastInDim s ![] hb (constant S_ .f32 0x7F800000#32)))
      init hr hu ValueIdx.ix0 = 1#1) :
    ∀ i, ∃ r : ℝ, a i = (r : EReal) :=
  fun i => elem_real hb a i (Host.reduce_andi_all _ init hr hu ValueIdx.ix0 h i)

/-- The precondition makes every entry of every argument array a real number. -/
theorem real_of_pre (a0 a2 a3 : FVec Ideal S1x512 .f32) (a1 : FVec Ideal S32768x512 .f32)
    (a4 a5 : FVec Ideal S512x1536 .f32) (a6 : FVec Ideal S1536 .f32) (a7 a8 : FVec Ideal S512x512 .f32)
    (h : Cert.Pre_finite_inputs.fn (F := Ideal) a0 a1 a2 a3 a4 a5 a6 a7 a8 = fun _ => 1#1) :
    (∀ i, ∃ x : ℝ, a0 i = (x : EReal)) ∧ (∀ i, ∃ x : ℝ, a1 i = (x : EReal)) ∧ (∀ i, ∃ x : ℝ, a2 i = (x : EReal)) ∧
    (∀ i, ∃ x : ℝ, a4 i = (x : EReal)) ∧ (∀ i, ∃ x : ℝ, a5 i = (x : EReal)) ∧ (∀ i, ∃ x : ℝ, a6 i = (x : EReal)) ∧
    (∀ i, ∃ x : ℝ, a7 i = (x : EReal)) ∧ (∀ i, ∃ x : ℝ, a8 i = (x : EReal)) := by
  have e := congrFun h ValueIdx.ix0
  dsimp only [fn, fn_part1, fn_part2, andi] at e
  simp only [IntOp.andi_eq_one] at e
  obtain ⟨⟨⟨⟨⟨⟨⟨⟨e0, e1⟩, e2⟩, _⟩, e4⟩, e5⟩, e6⟩, e7⟩, e8⟩ := e
  exact ⟨all_real _ _ _ a0 _ e0, all_real _ _ _ a1 _ e1, all_real _ _ _ a2 _ e2, all_real _ _ _ a4 _ e4,
    all_real _ _ _ a5 _ e5, all_real _ _ _ a6 _ e6, all_real _ _ _ a7 _ e7, all_real _ _ _ a8 _ e8⟩

end Cert.Finite
-- ==== Proof.lean ====
/-
  Two programs for one merged LSTM-style cell — gates from the previous hidden row and the input row, 32768 child
  cells weighted by `exp (σ (input · A + child · B))`, the cell's own candidate weighted by `exp i` — are equal on the
  extended reals when every input is a real number.

  The kernel walks the children in 16 tiles of 2048 rows on a 2 × 8 grid, carrying three rows from tile to tile (the
  input's projection and the two running sums), and its host lines add the two halves' sums and divide once.  The
  reference normalises each of the 32769 weights by their sum plus `ε` and then sums the weighted rows.  Over the reals
  the quotient of the sums is the sum of the quotients (`Algebra`), and every intermediate value is real because the
  inputs are (`Finite`); a logistic, a hyperbolic tangent and an exponential of a real are real, and the weights' sum
  plus `ε` is positive.

  The three frames: the word-level kernel and its idealization run to completion with their arguments unchanged (the
  body's three cases — first, middle and last tile of a half — run symbolically, the carried rows and the buffers'
  contents named point by point); the reference is a straight line of host operations.  No rewrite was applied when
  the kernel was idealized, so nothing is owed for it.
-/
import proofs.«163698_j23965917512359_2_alg».proof.Defs
import proofs.«163698_j23965917512359_2_alg».proof.Proof.Gen.Kernel
import proofs.«163698_j23965917512359_2_alg».proof.Proof.Gen.KernelIdeal
import proofs.«163698_j23965917512359_2_alg».proof.Proof.Gen.ReferenceIdeal
import proofs.«163698_j23965917512359_2_alg».proof.Proof.Gen.Pre_finite_inputs
import proofs.«163698_j23965917512359_2_alg».proof.Proof.K.Obligation
import proofs.«163698_j23965917512359_2_alg».proof.Proof.KI.KRun
import proofs.«163698_j23965917512359_2_alg».proof.Proof.RefValue
import proofs.«163698_j23965917512359_2_alg».proof.Proof.Algebra
import proofs.«163698_j23965917512359_2_alg».proof.Proof.Finite

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is host operations only: its run, with the two results dropped. -/
theorem frame_ri : Cert.frame_ReferenceIdeal := fun m ρ _ =>
  (θ_run Cert.ReferenceIdeal.defs _ _).mono (fun _ h c => (h c).2.2) (Cert.RefValue.run m ρ)

/-- The idealization rewrote nothing. -/
theorem preserves : Cert.preserves_Kernel_KernelIdeal := trivial

/-- From memories agreeing on the arguments both idealized programs end at one hidden state and one merged cell: the
    kernel at the specification's kernel arrangement, the reference at its reference arrangement, equal because the
    children are real numbers. -/
theorem algebraic : Cert.algebraic_KernelIdeal_ReferenceIdeal := by
  intro m ρ m' ρ' hpre hagree
  refine ⟨fun c => Cert.Spec.h1KArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => Cert.Spec.c1KArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.Body.run_value m ρ, ?_⟩
  refine (θ_run Cert.ReferenceIdeal.defs _ _).mono (fun _ h c => ⟨(h c).1.trans ?_, (h c).2.1.trans ?_, (h c).2.2⟩) (Cert.RefValue.run m' ρ')
  · rw [(hagree c).1, (hagree c).2.1, (hagree c).2.2.1, (hagree c).2.2.2.2.1, (hagree c).2.2.2.2.2.1, (hagree c).2.2.2.2.2.2.1,
      (hagree c).2.2.2.2.2.2.2.1, (hagree c).2.2.2.2.2.2.2.2]
    exact (Cert.Algebra.h1Arr_eq _ _ _ _ _ _ _ _ (Cert.Finite.real_of_pre _ _ _ _ _ _ _ _ _ (hpre c)).2.1).symm
  · rw [(hagree c).1, (hagree c).2.1, (hagree c).2.2.1, (hagree c).2.2.2.2.1, (hagree c).2.2.2.2.2.1, (hagree c).2.2.2.2.2.2.1,
      (hagree c).2.2.2.2.2.2.2.1, (hagree c).2.2.2.2.2.2.2.2]
    exact (Cert.Algebra.c1Arr_eq _ _ _ _ _ _ _ _ (Cert.Finite.real_of_pre _ _ _ _ _ _ _ _ _ (hpre c)).2.1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
